-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v72)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v72) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v133) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x13 : Shape := ⟨2, ![100000, 13]⟩
abbrev S2x1600000 : Shape := ⟨2, ![2, 1600000]⟩
abbrev S13x64 : Shape := ⟨2, ![13, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S_ : Shape := ⟨0, ![]⟩

class Facts : Prop where
  bcast_S_S100000x13 : S_.BroadcastsInDim S100000x13 (![] : Fin 0 → Fin S100000x13.rank)
  reducesTo_S100000x13_S_d0_1 : S100000x13.ReducesTo [0, 1] S_
  h_S_ : 0 < S_.numel
  bcast_S_S13x64 : S_.BroadcastsInDim S13x64 (![] : Fin 0 → Fin S13x64.rank)
  reducesTo_S13x64_S_d0_1 : S13x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg15 : FVec F S64x1 .f32) (main_arg16 : FVec F S1 .f32) (main_v63 : IVec S_ 1) (main_v67 : IVec S_ 1) : IVec S_ 1 :=
  let main_v68 : IVec S_ 1 := andi main_v63 main_v67
  let main_v69 : FVec F S64x1 .f32 := Host.absf main_arg15
  let main_cst_26 : FVec F S_ .f32 := constant S_ .f32 0x7F800000#32
  let main_v70 : FVec F S64x1 .f32 := broadcastInDim S64x1 ![] bcast_S_S64x1 main_cst_26
  let main_v71 : IVec S64x1 1 := cmpf .olt main_v69 main_v70
  let main_c_27 : IVec S_ 1 := constantI S_ 1 1#1
  let main_v72 : IVec S_ 1 := (fun x v => Host.reduce IntOp.andi x v reducesTo_S64x1_S_d0_1 h_S_) main_v71 main_c_27
  let main_v73 : IVec S_ 1 := andi main_v68 main_v72
  let main_v74 : FVec F S1 .f32 := Host.absf main_arg16
  let main_cst_28 : FVec F S_ .f32 := constant S_ .f32 0x7F800000#32
  let main_v75 : FVec F S1 .f32 := broadcastInDim S1 ![] bcast_S_S1 main_cst_28
  let main_v76 : IVec S1 1 := cmpf .olt main_v74 main_v75
  let main_c_29 : IVec S_ 1 := constantI S_ 1 1#1
  let main_v77 : IVec S_ 1 := (fun x v => Host.reduce IntOp.andi x v reducesTo_S1_S_d0 h_S_) main_v76 main_c_29
  let main_v78 : IVec S_ 1 := andi main_v73 main_v77
  main_v78

def fn_part3 {F : FTy → Type} [FloatOps F] (main_arg12 : FVec F S64x64 .f32) (main_arg13 : FVec F S64 .f32) (main_arg14 : FVec F S64x1 .f32) (main_arg15 : FVec F S64x1 .f32) (main_arg16 : FVec F S1 .f32) (main_v48 : IVec S_ 1) (main_v49 : FVec F S64x64 .f32) (main_v50 : FVec F S64x64 .f32) : IVec S_ 1 :=
  let main_v51 : IVec S64x64 1 := cmpf .olt main_v49 main_v50
  let main_c_19 : IVec S_ 1 := constantI S_ 1 1#1
  let main_v52 : IVec S_ 1 := (fun x v => Host.reduce IntOp.andi x v reducesTo_S64x64_S_d0_1 h_S_) main_v51 main_c_19
  let main_v53 : IVec S_ 1 := andi main_v48 main_v52
  let main_v54 : FVec F S64x64 .f32 := Host.absf main_arg12
  let main_cst_20 : FVec F S_ .f32 := constant S_ .f32 0x7F800000#32
  let main_v55 : FVec F S64x64 .f32 := broadcastInDim S64x64 ![] bcast_S_S64x64 main_cst_20
  let main_v56 : IVec S64x64 1 := cmpf .olt main_v54 main_v55
  let main_c_21 : IVec S_ 1 := constantI S_ 1 1#1
  let main_v57 : IVec S_ 1 := (fun x v => Host.reduce IntOp.andi x v reducesTo_S64x64_S_d0_1 h_S_) main_v56 main_c_21
  let main_v58 : IVec S_ 1 := andi main_v53 main_v57
  let main_v59 : FVec F S64 .f32 := Host.absf main_arg13
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64x1 .f32 := Host.absf main_arg14
  let main_cst_24 : FVec F S_ .f32 := constant S_ .f32 0x7F800000#32
  let main_v65 : FVec F S64x1 .f32 := broadcastInDim S64x1 ![] bcast_S_S64x1 main_cst_24
  let main_v66 : IVec S64x1 1 := cmpf .olt main_v64 main_v65
  let main_c_25 : IVec S_ 1 := constantI S_ 1 1#1
  let main_v67 : IVec S_ 1 := (fun x v => Host.reduce IntOp.andi x v reducesTo_S64x1_S_d0_1 h_S_) main_v66 main_c_25
  fn_part4 (F := F) main_arg15 main_arg16 main_v63 main_v67

def fn_part2 {F : FTy → Type} [FloatOps F] (main_arg8 : FVec F S64x64 .f32) (main_arg9 : FVec F S64x64 .f32) (main_arg10 : FVec F S64 .f32) (main_arg11 : FVec F S64x64 .f32) (main_arg12 : FVec F S64x64 .f32) (main_arg13 : FVec F S64 .f32) (main_arg14 : FVec F S64x1 .f32) (main_arg15 : FVec F S64x1 .f32) (main_arg16 : FVec F S1 .f32) (main_v33 : IVec S_ 1) : IVec S_ 1 :=
  let main_v34 : FVec F S64x64 .f32 := Host.absf main_arg8
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64x64 .f32 := Host.absf main_arg9
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x64 .f32 := Host.absf main_arg11
  let main_cst_18 : FVec F S_ .f32 := constant S_ .f32 0x7F800000#32
  let main_v50 : FVec F S64x64 .f32 := broadcastInDim S64x64 ![] bcast_S_S64x64 main_cst_18
  fn_part3 (F := F) main_arg12 main_arg13 main_arg14 main_arg15 main_arg16 main_v48 main_v49 main_v50

def fn_part1 {F : FTy → Type} [FloatOps F] (main_arg5 : FVec F S64x64 .f32) (main_arg6 : FVec F S64x64 .f32) (main_arg7 : FVec F S64 .f32) (main_arg8 : FVec F S64x64 .f32) (main_arg9 : FVec F S64x64 .f32) (main_arg10 : FVec F S64 .f32) (main_arg11 : FVec F S64x64 .f32) (main_arg12 : FVec F S64x64 .f32) (main_arg13 : FVec F S64 .f32) (main_arg14 : FVec F S64x1 .f32) (main_arg15 : FVec F S64x1 .f32) (main_arg16 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_arg10 main_arg11 main_arg12 main_arg13 main_arg14 main_arg15 main_arg16 main_v33

def fn {F : FTy → Type} [FloatOps F] (main_arg0 : FVec F S100000x13 .f32) (main_arg1 : IVec S2x1600000 32) (main_arg2 : FVec F S13x64 .f32) (main_arg3 : FVec F S13x64 .f32) (main_arg4 : FVec F S64 .f32) (main_arg5 : FVec F S64x64 .f32) (main_arg6 : FVec F S64x64 .f32) (main_arg7 : FVec F S64 .f32) (main_arg8 : FVec F S64x64 .f32) (main_arg9 : FVec F S64x64 .f32) (main_arg10 : FVec F S64 .f32) (main_arg11 : FVec F S64x64 .f32) (main_arg12 : FVec F S64x64 .f32) (main_arg13 : FVec F S64 .f32) (main_arg14 : FVec F S64x1 .f32) (main_arg15 : FVec F S64x1 .f32) (main_arg16 : FVec F S1 .f32) : IVec S_ 1 :=
  let main_v0 : FVec F S100000x13 .f32 := Host.absf main_arg0
  let main_cst : FVec F S_ .f32 := constant S_ .f32 0x7F800000#32
  let main_v1 : FVec F S100000x13 .f32 := broadcastInDim S100000x13 ![] bcast_S_S100000x13 main_cst
  let main_v2 : IVec S100000x13 1 := cmpf .olt main_v0 main_v1
  let main_c : IVec S_ 1 := constantI S_ 1 1#1
  let main_v3 : IVec S_ 1 := (fun x v => Host.reduce IntOp.andi x v reducesTo_S100000x13_S_d0_1 h_S_) main_v2 main_c
  let main_v4 : FVec F S13x64 .f32 := Host.absf main_arg2
  let main_cst_0 : FVec F S_ .f32 := constant S_ .f32 0x7F800000#32
  let main_v5 : FVec F S13x64 .f32 := broadcastInDim S13x64 ![] bcast_S_S13x64 main_cst_0
  let main_v6 : IVec S13x64 1 := cmpf .olt main_v4 main_v5
  let main_c_1 : IVec S_ 1 := constantI S_ 1 1#1
  let main_v7 : IVec S_ 1 := (fun x v => Host.reduce IntOp.andi x v reducesTo_S13x64_S_d0_1 h_S_) main_v6 main_c_1
  let main_v8 : IVec S_ 1 := andi main_v3 main_v7
  let main_v9 : FVec F S13x64 .f32 := Host.absf main_arg3
  let main_cst_2 : FVec F S_ .f32 := constant S_ .f32 0x7F800000#32
  let main_v10 : FVec F S13x64 .f32 := broadcastInDim S13x64 ![] bcast_S_S13x64 main_cst_2
  let main_v11 : IVec S13x64 1 := cmpf .olt main_v9 main_v10
  let main_c_3 : IVec S_ 1 := constantI S_ 1 1#1
  let main_v12 : IVec S_ 1 := (fun x v => Host.reduce IntOp.andi x v reducesTo_S13x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_arg11 main_arg12 main_arg13 main_arg14 main_arg15 main_arg16 main_v13 main_v16
-- ==== Kernel.lean ====
abbrev S100000x13 : Shape := ⟨2, ![100000, 13]⟩
abbrev S2x1600000 : Shape := ⟨2, ![2, 1600000]⟩
abbrev S13x64 : Shape := ⟨2, ![13, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x13 : Shape := ⟨2, ![1600000, 13]⟩
abbrev S1x64 : Shape := ⟨2, ![1, 64]⟩
abbrev S100000x64 : Shape := ⟨2, ![100000, 64]⟩
abbrev S5000x13 : Shape := ⟨2, ![5000, 13]⟩
abbrev S5000x1 : Shape := ⟨2, ![5000, 1]⟩
abbrev S5000x64 : Shape := ⟨2, ![5000, 64]⟩
abbrev S1600000x64 : Shape := ⟨2, ![1600000, 64]⟩
abbrev S1x1 : Shape := ⟨2, ![1, 1]⟩

abbrev nBuf : Space → Nat
  | .hbm => 109
  | .vmem => 55
  | .smem => 0
  | _ => 0

abbrev bufTy : (tb : Table) → Fin (tcTables nBuf tb) → BufTy
  | .hbm, ⟨0, _⟩ => ⟨S100000x13, .f32⟩
  | .hbm, ⟨1, _⟩ => ⟨S2x1600000, .i32⟩
  | .hbm, ⟨2, _⟩ => ⟨S13x64, .f32⟩
  | .hbm, ⟨3, _⟩ => ⟨S13x64, .f32⟩
  | .hbm, ⟨4, _⟩ => ⟨S64, .f32⟩
  | .hbm, ⟨5, _⟩ => ⟨S64x64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64x64, .f32⟩
  | .hbm, ⟨10, _⟩ => ⟨S64, .f32⟩
  | .hbm, ⟨11, _⟩ => ⟨S64x64, .f32⟩
  | .hbm, ⟨12, _⟩ => ⟨S64x64, .f32⟩
  | .hbm, ⟨13, _⟩ => ⟨S64, .f32⟩
  | .hbm, ⟨14, _⟩ => ⟨S64x1, .f32⟩
  | .hbm, ⟨15, _⟩ => ⟨S64x1, .f32⟩
  | .hbm, ⟨16, _⟩ => ⟨S1, .f32⟩
  | .hbm, ⟨17, _⟩ => ⟨S1x1600000, .i32⟩
  | .hbm, ⟨18, _⟩ => ⟨S1600000, .i32⟩
  | .hbm, ⟨19, _⟩ => ⟨S1x1600000, .i32⟩
  | .hbm, ⟨20, _⟩ => ⟨S1600000, .i32⟩
  | .hbm, ⟨21, _⟩ => ⟨S_, .f32⟩
  | .hbm, ⟨22, _⟩ => ⟨S1600000, .f32⟩
  | .hbm, ⟨23, _⟩ => ⟨S_, .f32⟩
  | .hbm, ⟨24, _⟩ => ⟨S100000, .f32⟩
  | .hbm, ⟨25, _⟩ => ⟨S1600000x1, .i32⟩
  | .hbm, ⟨26, _⟩ => ⟨S100000, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S100000x1, .f32⟩
  | .hbm, ⟨34, _⟩ => ⟨S_, .i32⟩
  | .hbm, ⟨35, _⟩ => ⟨S1600000, .i32⟩
  | .hbm, ⟨36, _⟩ => ⟨S1600000, .i1⟩
  | .hbm, ⟨37, _⟩ => ⟨S_, .i32⟩
  | .hbm, ⟨38, _⟩ => ⟨S1600000, .i32⟩
  | .hbm, ⟨39, _⟩ => ⟨S1600000, .i32⟩
  | .hbm, ⟨40, _⟩ => ⟨S1600000, .i32⟩
  | .hbm, ⟨41, _⟩ => ⟨S1600000x1, .i32⟩
  | .hbm, ⟨42, _⟩ => ⟨S1600000x13, .f32⟩
  | .hbm, ⟨43, _⟩ => ⟨S_, .f32⟩
  | .hbm, ⟨44, _⟩ => ⟨S100000x13, .f32⟩
  | .hbm, ⟨45, _⟩ => ⟨S1600000x1, .i32⟩
  | .hbm, ⟨46, _⟩ => ⟨S100000x13, .f32⟩
  | .hbm, ⟨47, _⟩ => ⟨S1x64, .f32⟩
  | .hbm, ⟨48, _⟩ => ⟨S100000x64, .f32⟩
  | .hbm, ⟨49, _⟩ => ⟨S_, .i32⟩
  | .hbm, ⟨50, _⟩ => ⟨S1600000, .i32⟩
  | .hbm, ⟨51, _⟩ => ⟨S1600000, .i1⟩
  | .hbm, ⟨52, _⟩ => ⟨S_, .i32⟩
  | .hbm, ⟨53, _⟩ => ⟨S1600000, .i32⟩
  | .hbm, ⟨54, _⟩ => ⟨S1600000, .i32⟩
  | .hbm, ⟨55, _⟩ => ⟨S1600000, .i32⟩
  | .hbm, ⟨56, _⟩ => ⟨S1600000x1, .i32⟩
  | .hbm, ⟨57, _⟩ => ⟨S1600000x64, .f32⟩
  | .hbm, ⟨58, _⟩ => ⟨S_, .f32⟩
  | .hbm, ⟨59, _⟩ => ⟨S100000x64, .f32⟩
  | .hbm, ⟨60, _⟩ => ⟨S1600000x1, .i32⟩
  | .hbm, ⟨61, _⟩ => ⟨S100000x64, .f32⟩
  | .hbm, ⟨62, _⟩ => ⟨S1x64, .f32⟩
  | .hbm, ⟨63, _⟩ => ⟨S100000x64, .f32⟩
  | .hbm, ⟨64, _⟩ => ⟨S_, .i32⟩
  | .hbm, ⟨65, _⟩ => ⟨S1600000, .i32⟩
  | .hbm, ⟨66, _⟩ => ⟨S1600000, .i1⟩
  | .hbm, ⟨67, _⟩ => ⟨S_, .i32⟩
  | .hbm, ⟨68, _⟩ => ⟨S1600000, .i32⟩
  | .hbm, ⟨69, _⟩ => ⟨S1600000, .i32⟩
  | .hbm, ⟨70, _⟩ => ⟨S1600000, .i32⟩
  | .hbm, ⟨71, _⟩ => ⟨S1600000x1, .i32⟩
  | .hbm, ⟨72, _⟩ => ⟨S1600000x64, .f32⟩
  | .hbm, ⟨73, _⟩ => ⟨S_, .f32⟩
  | .hbm, ⟨74, _⟩ => ⟨S100000x64, .f32⟩
  | .hbm, ⟨75, _⟩ => ⟨S1600000x1, .i32⟩
  | .hbm, ⟨76, _⟩ => ⟨S100000x64, .f32⟩
  | .hbm, ⟨77, _⟩ => ⟨S1x64, .f32⟩
  | .hbm, ⟨78, _⟩ => ⟨S100000x64, .f32⟩
  | .hbm, ⟨79, _⟩ => ⟨S_, .i32⟩
  | .hbm, ⟨80, _⟩ => ⟨S1600000, .i32⟩
  | .hbm, ⟨81, _⟩ => ⟨S1600000, .i1⟩
  | .hbm, ⟨82, _⟩ => ⟨S_, .i32⟩
  | .hbm, ⟨83, _⟩ => ⟨S1600000, .i32⟩
  | .hbm, ⟨84, _⟩ => ⟨S1600000, .i32⟩
  | .hbm, ⟨85, _⟩ => ⟨S1600000, .i32⟩
  | .hbm, ⟨86, _⟩ => ⟨S1600000x1, .i32⟩
  | .hbm, ⟨87, _⟩ => ⟨S1600000x64, .f32⟩
  | .hbm, ⟨88, _⟩ => ⟨S_, .f32⟩
  | .hbm, ⟨89, _⟩ => ⟨S100000x64, .f32⟩
  | .hbm, ⟨90, _⟩ => ⟨S1600000x1, .i32⟩
  | .hbm, ⟨91, _⟩ => ⟨S100000x64, .f32⟩
  | .hbm, ⟨92, _⟩ => ⟨S1x64, .f32⟩
  | .hbm, ⟨93, _⟩ => ⟨S100000x64, .f32⟩
  | .hbm, ⟨94, _⟩ => ⟨S_, .i32⟩
  | .hbm, ⟨95, _⟩ => ⟨S1600000, .i32⟩
  | .hbm, ⟨96, _⟩ => ⟨S1600000, .i1⟩
  | .hbm, ⟨97, _⟩ => ⟨S_, .i32⟩
  | .hbm, ⟨98, _⟩ => ⟨S1600000, .i32⟩
  | .hbm, ⟨99, _⟩ => ⟨S1600000, .i32⟩
  | .hbm, ⟨100, _⟩ => ⟨S1600000, .i32⟩
  | .hbm, ⟨101, _⟩ => ⟨S1600000x1, .i32⟩
  | .hbm, ⟨102, _⟩ => ⟨S1600000x64, .f32⟩
  | .hbm, ⟨103, _⟩ => ⟨S_, .f32⟩
  | .hbm, ⟨104, _⟩ => ⟨S100000x64, .f32⟩
  | .hbm, ⟨105, _⟩ => ⟨S1600000x1, .i32⟩
  | .hbm, ⟨106, _⟩ => ⟨S100000x64, .f32⟩
  | .hbm, ⟨107, _⟩ => ⟨S1x1, .f32⟩
  | .hbm, ⟨108, _⟩ => ⟨S100000x1, .f32⟩
  | .local _ .vmem, ⟨0, _⟩ => ⟨S5000x13, .f32⟩
  | .local _ .vmem, ⟨1, _⟩ => ⟨S5000x13, .f32⟩
  | .local _ .vmem, ⟨2, _⟩ => ⟨S5000x1, .f32⟩
  | .local _ .vmem, ⟨3, _⟩ => ⟨S5000x1, .f32⟩
  | .local _ .vmem, ⟨4, _⟩ => ⟨S5000x13, .f32⟩
  | .local _ .vmem, ⟨5, _⟩ => ⟨S5000x13, .f32⟩
  | .local _ .vmem, ⟨6, _⟩ => ⟨S13x64, .f32⟩
  | .local _ .vmem, ⟨7, _⟩ => ⟨S13x64, .f32⟩
  | .local _ .vmem, ⟨8, _⟩ => ⟨S1x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x1, .f32⟩
  | .local _ .vmem, ⟨14, _⟩ => ⟨S5000x1, .f32⟩
  | .local _ .vmem, ⟨15, _⟩ => ⟨S5000x64, .f32⟩
  | .local _ .vmem, ⟨16, _⟩ => ⟨S5000x64, .f32⟩
  | .local _ .vmem, ⟨17, _⟩ => ⟨S64x64, .f32⟩
  | .local _ .vmem, ⟨18, _⟩ => ⟨S64x64, .f32⟩
  | .local _ .vmem, ⟨19, _⟩ => ⟨S1x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S5000x1, .f32⟩
  | .local _ .vmem, ⟨25, _⟩ => ⟨S5000x1, .f32⟩
  | .local _ .vmem, ⟨26, _⟩ => ⟨S5000x64, .f32⟩
  | .local _ .vmem, ⟨27, _⟩ => ⟨S5000x64, .f32⟩
  | .local _ .vmem, ⟨28, _⟩ => ⟨S64x64, .f32⟩
  | .local _ .vmem, ⟨29, _⟩ => ⟨S64x64, .f32⟩
  | .local _ .vmem, ⟨30, _⟩ => ⟨S1x64, .f32⟩
  | .local _ .vmem, ⟨31, _⟩ => ⟨S5000x64, .f32⟩
  | .local _ .vmem, ⟨32, _⟩ => ⟨S5000x64, .f32⟩
  | .local _ .vmem, ⟨33, _⟩ => ⟨S5000x64, .f32⟩
  | .local _ .vmem, ⟨34, _⟩ => ⟨S5000x64, .f32⟩
  | .local _ .vmem, ⟨35, _⟩ => ⟨S5000x1, .f32⟩
  | .local _ .vmem, ⟨36, _⟩ => ⟨S5000x1, .f32⟩
  | .local _ .vmem, ⟨37, _⟩ => ⟨S5000x64, .f32⟩
  | .local _ .vmem, ⟨38, _⟩ => ⟨S5000x64, .f32⟩
  | .local _ .vmem, ⟨39, _⟩ => ⟨S64x64, .f32⟩
  | .local _ .vmem, ⟨40, _⟩ => ⟨S64x64, .f32⟩
  | .local _ .vmem, ⟨41, _⟩ => ⟨S1x64, .f32⟩
  | .local _ .vmem, ⟨42, _⟩ => ⟨S5000x64, .f32⟩
  | .local _ .vmem, ⟨43, _⟩ => ⟨S5000x64, .f32⟩
  | .local _ .vmem, ⟨44, _⟩ => ⟨S5000x64, .f32⟩
  | .local _ .vmem, ⟨45, _⟩ => ⟨S5000x64, .f32⟩
  | .local _ .vmem, ⟨46, _⟩ => ⟨S5000x1, .f32⟩
  | .local _ .vmem, ⟨47, _⟩ => ⟨S5000x1, .f32⟩
  | .local _ .vmem, ⟨48, _⟩ => ⟨S5000x64, .f32⟩
  | .local _ .vmem, ⟨49, _⟩ => ⟨S5000x64, .f32⟩
  | .local _ .vmem, ⟨50, _⟩ => ⟨S64x1, .f32⟩
  | .local _ .vmem, ⟨51, _⟩ => ⟨S64x1, .f32⟩
  | .local _ .vmem, ⟨52, _⟩ => ⟨S1x1, .f32⟩
  | .local _ .vmem, ⟨53, _⟩ => ⟨S5000x1, .f32⟩
  | .local _ .vmem, ⟨54, _⟩ => ⟨S5000x1, .f32⟩
  | _, _ => ⟨S100000x13, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | _, _ => false

abbrev semScoped : Fin 0 → Bool
  | ⟨_, h⟩ => absurd h (Nat.not_lt_zero _)

abbrev dmaSemScoped : Fin 55 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | _ => false

abbrev sig : RefSig :=
  ofTc nBuf bufTy 0 55 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_cst : Ref sig .tc := ⟨.hbm, 21, rfl⟩
abbrev main_v4 : Ref sig .tc := ⟨.hbm, 22, rfl⟩
abbrev main_cst_0 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_cst_1 : Ref sig .tc := ⟨.hbm, 27, rfl⟩
abbrev main_v8 : Ref sig .tc := ⟨.hbm, 28, rfl⟩
abbrev main_v9 : Ref sig .tc := ⟨.hbm, 29, rfl⟩
abbrev main_cst_2 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_c : Ref sig .tc := ⟨.hbm, 34, rfl⟩
abbrev main_v13 : Ref sig .tc := ⟨.hbm, 35, rfl⟩
abbrev main_v14 : Ref sig .tc := ⟨.hbm, 36, rfl⟩
abbrev main_c_3 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_cst_4 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_c_5 : Ref sig .tc := ⟨.hbm, 49, rfl⟩
abbrev main_v25 : Ref sig .tc := ⟨.hbm, 50, rfl⟩
abbrev main_v26 : Ref sig .tc := ⟨.hbm, 51, rfl⟩
abbrev main_c_6 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_cst_7 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_c_8 : Ref sig .tc := ⟨.hbm, 64, rfl⟩
abbrev main_v37 : Ref sig .tc := ⟨.hbm, 65, rfl⟩
abbrev main_v38 : Ref sig .tc := ⟨.hbm, 66, rfl⟩
abbrev main_c_9 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_cst_10 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_c_11 : Ref sig .tc := ⟨.hbm, 79, rfl⟩
abbrev main_v49 : Ref sig .tc := ⟨.hbm, 80, rfl⟩
abbrev main_v50 : Ref sig .tc := ⟨.hbm, 81, rfl⟩
abbrev main_c_12 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_cst_13 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_c_14 : Ref sig .tc := ⟨.hbm, 94, rfl⟩
abbrev main_v61 : Ref sig .tc := ⟨.hbm, 95, rfl⟩
abbrev main_v62 : Ref sig .tc := ⟨.hbm, 96, rfl⟩
abbrev main_c_15 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_cst_16 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg6_1 : Ref sig .tc := ⟨.vmem, 32, rfl⟩
abbrev cc3_stg0_0 : Ref sig .tc := ⟨.vmem, 33, rfl⟩
abbrev cc3_stg0_1 : Ref sig .tc := ⟨.vmem, 34, rfl⟩
abbrev cc3_stg1_0 : Ref sig .tc := ⟨.vmem, 35, rfl⟩
abbrev cc3_stg1_1 : Ref sig .tc := ⟨.vmem, 36, rfl⟩
abbrev cc3_stg2_0 : Ref sig .tc := ⟨.vmem, 37, rfl⟩
abbrev cc3_stg2_1 : Ref sig .tc := ⟨.vmem, 38, rfl⟩
abbrev cc3_stg3_0 : Ref sig .tc := ⟨.vmem, 39, rfl⟩
abbrev cc3_stg4_0 : Ref sig .tc := ⟨.vmem, 40, rfl⟩
abbrev cc3_stg5_0 : Ref sig .tc := ⟨.vmem, 41, rfl⟩
abbrev cc3_stg6_0 : Ref sig .tc := ⟨.vmem, 42, rfl⟩
abbrev cc3_stg6_1 : Ref sig .tc := ⟨.vmem, 43, rfl⟩
abbrev cc4_stg0_0 : Ref sig .tc := ⟨.vmem, 44, rfl⟩
abbrev cc4_stg0_1 : Ref sig .tc := ⟨.vmem, 45, rfl⟩
abbrev cc4_stg1_0 : Ref sig .tc := ⟨.vmem, 46, rfl⟩
abbrev cc4_stg1_1 : Ref sig .tc := ⟨.vmem, 47, rfl⟩
abbrev cc4_stg2_0 : Ref sig .tc := ⟨.vmem, 48, rfl⟩
abbrev cc4_stg2_1 : Ref sig .tc := ⟨.vmem, 49, rfl⟩
abbrev cc4_stg3_0 : Ref sig .tc := ⟨.vmem, 50, rfl⟩
abbrev cc4_stg4_0 : Ref sig .tc := ⟨.vmem, 51, rfl⟩
abbrev cc4_stg5_0 : Ref sig .tc := ⟨.vmem, 52, rfl⟩
abbrev cc4_stg6_0 : Ref sig .tc := ⟨.vmem, 53, rfl⟩
abbrev cc4_stg6_1 : Ref sig .tc := ⟨.vmem, 54, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem4_0 : DmaSem sig := 29
abbrev cc2_sem5_0 : DmaSem sig := 30
abbrev cc2_sem6_0 : DmaSem sig := 31
abbrev cc2_sem6_1 : DmaSem sig := 32
abbrev cc3_sem0_0 : DmaSem sig := 33
abbrev cc3_sem0_1 : DmaSem sig := 34
abbrev cc3_sem1_0 : DmaSem sig := 35
abbrev cc3_sem1_1 : DmaSem sig := 36
abbrev cc3_sem2_0 : DmaSem sig := 37
abbrev cc3_sem2_1 : DmaSem sig := 38
abbrev cc3_sem3_0 : DmaSem sig := 39
abbrev cc3_sem4_0 : DmaSem sig := 40
abbrev cc3_sem5_0 : DmaSem sig := 41
abbrev cc3_sem6_0 : DmaSem sig := 42
abbrev cc3_sem6_1 : DmaSem sig := 43
abbrev cc4_sem0_0 : DmaSem sig := 44
abbrev cc4_sem0_1 : DmaSem sig := 45
abbrev cc4_sem1_0 : DmaSem sig := 46
abbrev cc4_sem1_1 : DmaSem sig := 47
abbrev cc4_sem2_0 : DmaSem sig := 48
abbrev cc4_sem2_1 : DmaSem sig := 49
abbrev cc4_sem3_0 : DmaSem sig := 50
abbrev cc4_sem4_0 : DmaSem sig := 51
abbrev cc4_sem5_0 : DmaSem sig := 52
abbrev cc4_sem6_0 : DmaSem sig := 53
abbrev cc4_sem6_1 : DmaSem sig := 54

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x13 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x13 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S13x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S13x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S64x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S64x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x64 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S5000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S64x1 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S64x1 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x1 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S5000x1 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  bcast_S_S100000x13 : S_.BroadcastsInDim S100000x13 (![] : Fin 0 → Fin S100000x13.rank)
  shapeCasts_S64_S1x64 : S64.ShapeCasts S1x64
  inb_S5000x13_S5000x13_0_0 : ∀ a, (![0, 0] : Fin 2 → Nat) a + S5000x13.size a ≤ S5000x13.size a
  h_S5000x13 : 0 < S5000x13.numel
  shapeCasts_S5000x13_S5000x13 : S5000x13.ShapeCasts S5000x13
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x13 : S5000x1.Broadcasts S5000x13
  bitsLt_bf16_f32 : FTy.bits .bf16 < FTy.bits .f32
  inb_S13x64_S13x64_0_0 : ∀ a, (![0, 0] : Fin 2 → Nat) a + S13x64.size a ≤ S13x64.size a
  h_S13x64 : 0 < S13x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  bcast_S_S100000x64 : S_.BroadcastsInDim S100000x64 (![] : Fin 0 → Fin S100000x64.rank)
  shapeCasts_S5000x64_S5000x64 : S5000x64.ShapeCasts S5000x64
  broadcasts_S5000x1_S5000x64 : S5000x1.Broadcasts S5000x64
  inb_S64x64_S64x64_0_0 : ∀ a, (![0, 0] : Fin 2 → Nat) a + S64x64.size a ≤ S64x64.size a
  h_S64x64 : 0 < S64x64.numel
  shapeCasts_S1_S1x1 : S1.ShapeCasts S1x1
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  scatter_S100000_S1600000x1_S1600000_n_0_0_1_wf : ScatterDims.WF S100000 S1600000x1 S1600000 [] [0] [0] 1
  gather_S100000x13_S1600000x1_S1600000x13_1_0_n_n_0_1_113_wf : GatherDims.WF S100000x13 S1600000x1 S1600000x13 [1] [0] [] [0] [] 1 ![1, 13]
  scatter_S100000x13_S1600000x1_S1600000x13_1_0_0_1_wf : ScatterDims.WF S100000x13 S1600000x1 S1600000x13 [1] [0] [0] 1
  dot_S5000x13_S13x64_S5000x64_1_0_0_1_n_n_wf : DotDims.WF S5000x13 S13x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x64_S5000x64_1_0_0_1_n_n_wf : DotDims.WF S5000x64 S64x64 S5000x64 [1] [0] [0] [1] [] []
  dot_S5000x64_S64x1_S5000x1_1_0_0_1_n_n_wf : DotDims.WF S5000x64 S64x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x13.size a ≤ S100000x13.size a
  hwx0_0 : ∀ i : grid0.Coords, EltTy.bits .f32 = 32 ∨ (Rect.block (s := S100000x13) S5000x13.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x13.size a ≤ S100000x13.size a
  hwx0_2 : ∀ i : grid0.Coords, EltTy.bits .f32 = 32 ∨ (Rect.block (s := S100000x13) S5000x13.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S13x64.size a ≤ S13x64.size a
  hwx0_3 : ∀ i : grid0.Coords, EltTy.bits .f32 = 32 ∨ (Rect.block (s := S13x64) S13x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S13x64.size a ≤ S13x64.size a
  hwx0_4 : ∀ i : grid0.Coords, EltTy.bits .f32 = 32 ∨ (Rect.block (s := S13x64) S13x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x64.size a ≤ S100000x64.size a
  hwx0_6 : ∀ i : grid0.Coords, EltTy.bits .f32 = 32 ∨ (Rect.block (s := S100000x64) S5000x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x64.size a ≤ S100000x64.size a
  hwx1_6 : ∀ i : grid1.Coords, EltTy.bits .f32 = 32 ∨ (Rect.block (s := S100000x64) S5000x64.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x64.size a ≤ S100000x64.size a
  hwx2_6 : ∀ i : grid2.Coords, EltTy.bits .f32 = 32 ∨ (Rect.block (s := S100000x64) S5000x64.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S100000x1.size a
  hwx3_1 : ∀ i : grid3.Coords, EltTy.bits .f32 = 32 ∨ (Rect.block (s := S100000x1) S5000x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S100000x64.size a
  hwx3_2 : ∀ i : grid3.Coords, EltTy.bits .f32 = 32 ∨ (Rect.block (s := S100000x64) S5000x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x64.size a ≤ S64x64.size a
  hwx3_3 : ∀ i : grid3.Coords, EltTy.bits .f32 = 32 ∨ (Rect.block (s := S64x64) S64x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64x64.size a ≤ S64x64.size a
  hwx3_4 : ∀ i : grid3.Coords, EltTy.bits .f32 = 32 ∨ (Rect.block (s := S64x64) S64x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x64.size a ≤ S1x64.size a
  hwx3_5 : ∀ i : grid3.Coords, EltTy.bits .f32 = 32 ∨ (Rect.block (s := S1x64) S1x64.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x64.size a ≤ S100000x64.size a
  hwx3_6 : ∀ i : grid3.Coords, EltTy.bits .f32 = 32 ∨ (Rect.block (s := S100000x64) S5000x64.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S100000x64.size a
  hwx4_0 : ∀ i : grid4.Coords, EltTy.bits .f32 = 32 ∨ (Rect.block (s := S100000x64) S5000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x1.size a ≤ S100000x1.size a
  hwx4_1 : ∀ i : grid4.Coords, EltTy.bits .f32 = 32 ∨ (Rect.block (s := S100000x1) S5000x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x64.size a ≤ S100000x64.size a
  hwx4_2 : ∀ i : grid4.Coords, EltTy.bits .f32 = 32 ∨ (Rect.block (s := S100000x64) S5000x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64x1.size a ≤ S64x1.size a
  hwx4_3 : ∀ i : grid4.Coords, EltTy.bits .f32 = 32 ∨ (Rect.block (s := S64x1) S64x1.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S64x1.size a ≤ S64x1.size a
  hwx4_4 : ∀ i : grid4.Coords, EltTy.bits .f32 = 32 ∨ (Rect.block (s := S64x1) S64x1.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x1.size a ≤ S1x1.size a
  hwx4_5 : ∀ i : grid4.Coords, EltTy.bits .f32 = 32 ∨ (Rect.block (s := S1x1) S1x1.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S5000x1.size a ≤ S100000x1.size a
  hwx4_6 : ∀ i : grid4.Coords, EltTy.bits .f32 = 32 ∨ (Rect.block (s := S100000x1) S5000x1.size (cc4_transform_6 i) (hinb4_6 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x13_S1600000x1_S1600000x13_1_0_n_n_0_1_113 : GatherDims S100000x13 S1600000x1 S1600000x13 where
  offsetDims := [1]
  collapsedSliceDims := [0]
  operandBatchingDims := []
  startIndicesBatchingDims := []
  startIndexMap := [0]
  indexVectorDim := 1
  sliceSizes := ![1, 13]
  wf := gather_S100000x13_S1600000x1_S1600000x13_1_0_n_n_0_1_113_wf
def scatter_S100000x13_S1600000x1_S1600000x13_1_0_0_1 : ScatterDims S100000x13 S1600000x1 S1600000x13 where
  updateWindowDims := [1]
  insertedWindowDims := [0]
  scatterDimsToOperandDims := [0]
  indexVectorDim := 1
  wf := scatter_S100000x13_S1600000x1_S1600000x13_1_0_0_1_wf
def dot_S5000x13_S13x64_S5000x64_1_0_0_1_n_n : DotDims S5000x13 S13x64 S5000x64 where
  lhsContracting := [1]
  rhsContracting := [0]
  lhsNonContracting := [0]
  rhsNonContracting := [1]
  lhsBatch := []
  rhsBatch := []
  wf := dot_S5000x13_S13x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x1_S5000x1_1_0_0_1_n_n : DotDims S5000x64 S64x1 S5000x1 where
  lhsContracting := [1]
  rhsContracting := [0]
  lhsNonContracting := [0]
  rhsNonContracting := [1]
  lhsBatch := []
  rhsBatch := []
  wf := dot_S5000x64_S64x1_S5000x1_1_0_0_1_n_n_wf

abbrev win0_0 : Pipeline.Window sig grid0 :=
  Pipeline.Window.ofSpec (Memref.whole main_v22) S5000x13.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S5000x13.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S13x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S13x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v24) S5000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v34) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v24) S5000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v35) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v36) S5000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v46) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v12) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v36) S5000x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg8) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg9) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v47) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v48) S5000x64.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v58) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v12) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v48) S5000x64.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg11) S64x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg12) S64x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v59) S1x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v60) S5000x64.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v70) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v12) S5000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v60) S5000x64.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_arg14) S64x1.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg15) S64x1.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v71) S1x1.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v72) S5000x1.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

class Facts : Prop extends Facts₀ where

variable [Facts]
-- ==== ReferenceIdeal.lean ====
abbrev S100000x13 : Shape := ⟨2, ![100000, 13]⟩
abbrev S2x1600000 : Shape := ⟨2, ![2, 1600000]⟩
abbrev S13x64 : Shape := ⟨2, ![13, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x13 : Shape := ⟨2, ![1600000, 13]⟩
abbrev S100000x1 : Shape := ⟨2, ![100000, 1]⟩
abbrev S100000x64 : Shape := ⟨2, ![100000, 64]⟩
abbrev S1x64 : Shape := ⟨2, ![1, 64]⟩
abbrev S1600000x64 : Shape := ⟨2, ![1600000, 64]⟩
abbrev S1x1 : Shape := ⟨2, ![1, 1]⟩

abbrev nBuf : Space → Nat
  | .hbm => 191
  | .vmem => 0
  | .smem => 0
  | _ => 0

abbrev hbmTy0_0 (i : Nat) : BufTy := match i % 128 with
  | 0 => ⟨S100000x13, .f32⟩
  | 1 => ⟨S2x1600000, .i32⟩
  | 2 => ⟨S13x64, .f32⟩
  | 3 => ⟨S13x64, .f32⟩
  | 4 => ⟨S64, .f32⟩
  | 5 => ⟨S64x64, .f32⟩
  | 6 => ⟨S64x64, .f32⟩
  | 7 => ⟨S64, .f32⟩
  | 8 => ⟨S64x64, .f32⟩
  | 9 => ⟨S64x64, .f32⟩
  | 10 => ⟨S64, .f32⟩
  | 11 => ⟨S64x64, .f32⟩
  | 12 => ⟨S64x64, .f32⟩
  | 13 => ⟨S64, .f32⟩
  | 14 => ⟨S64x1, .f32⟩
  | 15 => ⟨S64x1, .f32⟩
  | 16 => ⟨S1, .f32⟩
  | 17 => ⟨S1x1600000, .i32⟩
  | 18 => ⟨S1600000, .i32⟩
  | 19 => ⟨S1x1600000, .i32⟩
  | 20 => ⟨S1600000, .i32⟩
  | 21 => ⟨S_, .i32⟩
  | 22 => ⟨S1600000, .i32⟩
  | 23 => ⟨S1600000, .i1⟩
  | 24 => ⟨S_, .i32⟩
  | 25 => ⟨S1600000, .i32⟩
  | 26 => ⟨S1600000, .i32⟩
  | 27 => ⟨S1600000, .i32⟩
  | 28 => ⟨S1600000x1, .i32⟩
  | 29 => ⟨S1600000x13, .f32⟩
  | 30 => ⟨S_, .f32⟩
  | 31 => ⟨S100000x13, .f32⟩
  | 32 => ⟨S1600000x1, .i32⟩
  | 33 => ⟨S100000x13, .f32⟩
  | 34 => ⟨S_, .f32⟩
  | 35 => ⟨S1600000x1, .f32⟩
  | 36 => ⟨S_, .f32⟩
  | 37 => ⟨S100000x1, .f32⟩
  | 38 => ⟨S1600000x1, .i32⟩
  | 39 => ⟨S100000x1, .f32⟩
  | 40 => ⟨S_, .f32⟩
  | 41 => ⟨S100000x1, .f32⟩
  | 42 => ⟨S100000x1, .f32⟩
  | 43 => ⟨S100000x13, .f32⟩
  | 44 => ⟨S100000x13, .f32⟩
  | 45 => ⟨S100000x64, .f32⟩
  | 46 => ⟨S1x64, .f32⟩
  | 47 => ⟨S100000x64, .f32⟩
  | 48 => ⟨S100000x64, .f32⟩
  | 49 => ⟨S100000x64, .f32⟩
  | 50 => ⟨S100000x64, .f32⟩
  | 51 => ⟨S_, .f32⟩
  | 52 => ⟨S100000x64, .f32⟩
  | 53 => ⟨S100000x64, .f32⟩
  | 54 => ⟨S_, .i32⟩
  | 55 => ⟨S1600000, .i32⟩
  | 56 => ⟨S1600000, .i1⟩
  | 57 => ⟨S_, .i32⟩
  | 58 => ⟨S1600000, .i32⟩
  | 59 => ⟨S1600000, .i32⟩
  | 60 => ⟨S1600000, .i32⟩
  | 61 => ⟨S1600000x1, .i32⟩
  | 62 => ⟨S1600000x64, .f32⟩
  | 63 => ⟨S_, .f32⟩
  | 64 => ⟨S100000x64, .f32⟩
  | 65 => ⟨S1600000x1, .i32⟩
  | 66 => ⟨S100000x64, .f32⟩
  | 67 => ⟨S_, .f32⟩
  | 68 => ⟨S1600000x1, .f32⟩
  | 69 => ⟨S_, .f32⟩
  | 70 => ⟨S100000x1, .f32⟩
  | 71 => ⟨S1600000x1, .i32⟩
  | 72 => ⟨S100000x1, .f32⟩
  | 73 => ⟨S_, .f32⟩
  | 74 => ⟨S100000x1, .f32⟩
  | 75 => ⟨S100000x1, .f32⟩
  | 76 => ⟨S100000x64, .f32⟩
  | 77 => ⟨S100000x64, .f32⟩
  | 78 => ⟨S100000x64, .f32⟩
  | 79 => ⟨S1x64, .f32⟩
  | 80 => ⟨S100000x64, .f32⟩
  | 81 => ⟨S100000x64, .f32⟩
  | 82 => ⟨S100000x64, .f32⟩
  | 83 => ⟨S100000x64, .f32⟩
  | 84 => ⟨S_, .f32⟩
  | 85 => ⟨S100000x64, .f32⟩
  | 86 => ⟨S100000x64, .f32⟩
  | 87 => ⟨S_, .i32⟩
  | 88 => ⟨S1600000, .i32⟩
  | 89 => ⟨S1600000, .i1⟩
  | 90 => ⟨S_, .i32⟩
  | 91 => ⟨S1600000, .i32⟩
  | 92 => ⟨S1600000, .i32⟩
  | 93 => ⟨S1600000, .i32⟩
  | 94 => ⟨S1600000x1, .i32⟩
  | 95 => ⟨S1600000x64, .f32⟩
  | 96 => ⟨S_, .f32⟩
  | 97 => ⟨S100000x64, .f32⟩
  | 98 => ⟨S1600000x1, .i32⟩
  | 99 => ⟨S100000x64, .f32⟩
  | 100 => ⟨S_, .f32⟩
  | 101 => ⟨S1600000x1, .f32⟩
  | 102 => ⟨S_, .f32⟩
  | 103 => ⟨S100000x1, .f32⟩
  | 104 => ⟨S1600000x1, .i32⟩
  | 105 => ⟨S100000x1, .f32⟩
  | 106 => ⟨S_, .f32⟩
  | 107 => ⟨S100000x1, .f32⟩
  | 108 => ⟨S100000x1, .f32⟩
  | 109 => ⟨S100000x64, .f32⟩
  | 110 => ⟨S100000x64, .f32⟩
  | 111 => ⟨S100000x64, .f32⟩
  | 112 => ⟨S1x64, .f32⟩
  | 113 => ⟨S100000x64, .f32⟩
  | 114 => ⟨S100000x64, .f32⟩
  | 115 => ⟨S100000x64, .f32⟩
  | 116 => ⟨S100000x64, .f32⟩
  | 117 => ⟨S_, .f32⟩
  | 118 => ⟨S100000x64, .f32⟩
  | 119 => ⟨S100000x64, .f32⟩
  | 120 => ⟨S_, .i32⟩
  | 121 => ⟨S1600000, .i32⟩
  | 122 => ⟨S1600000, .i1⟩
  | 123 => ⟨S_, .i32⟩
  | 124 => ⟨S1600000, .i32⟩
  | 125 => ⟨S1600000, .i32⟩
  | 126 => ⟨S1600000, .i32⟩
  | 127 => ⟨S1600000x1, .i32⟩
  | _ => ⟨S100000x13, .f32⟩

abbrev hbmTy0_1 (i : Nat) : BufTy := match i % 128 with
  | 0 => ⟨S1600000x64, .f32⟩
  | 1 => ⟨S_, .f32⟩
  | 2 => ⟨S100000x64, .f32⟩
  | 3 => ⟨S1600000x1, .i32⟩
  | 4 => ⟨S100000x64, .f32⟩
  | 5 => ⟨S_, .f32⟩
  | 6 => ⟨S1600000x1, .f32⟩
  | 7 => ⟨S_, .f32⟩
  | 8 => ⟨S100000x1, .f32⟩
  | 9 => ⟨S1600000x1, .i32⟩
  | 10 => ⟨S100000x1, .f32⟩
  | 11 => ⟨S_, .f32⟩
  | 12 => ⟨S100000x1, .f32⟩
  | 13 => ⟨S100000x1, .f32⟩
  | 14 => ⟨S100000x64, .f32⟩
  | 15 => ⟨S100000x64, .f32⟩
  | 16 => ⟨S100000x64, .f32⟩
  | 17 => ⟨S1x64, .f32⟩
  | 18 => ⟨S100000x64, .f32⟩
  | 19 => ⟨S100000x64, .f32⟩
  | 20 => ⟨S100000x64, .f32⟩
  | 21 => ⟨S100000x64, .f32⟩
  | 22 => ⟨S_, .f32⟩
  | 23 => ⟨S100000x64, .f32⟩
  | 24 => ⟨S100000x64, .f32⟩
  | 25 => ⟨S_, .i32⟩
  | 26 => ⟨S1600000, .i32⟩
  | 27 => ⟨S1600000, .i1⟩
  | 28 => ⟨S_, .i32⟩
  | 29 => ⟨S1600000, .i32⟩
  | 30 => ⟨S1600000, .i32⟩
  | 31 => ⟨S1600000, .i32⟩
  | 32 => ⟨S1600000x1, .i32⟩
  | 33 => ⟨S1600000x64, .f32⟩
  | 34 => ⟨S_, .f32⟩
  | 35 => ⟨S100000x64, .f32⟩
  | 36 => ⟨S1600000x1, .i32⟩
  | 37 => ⟨S100000x64, .f32⟩
  | 38 => ⟨S_, .f32⟩
  | 39 => ⟨S1600000x1, .f32⟩
  | 40 => ⟨S_, .f32⟩
  | 41 => ⟨S100000x1, .f32⟩
  | 42 => ⟨S1600000x1, .i32⟩
  | 43 => ⟨S100000x1, .f32⟩
  | 44 => ⟨S_, .f32⟩
  | 45 => ⟨S100000x1, .f32⟩
  | 46 => ⟨S100000x1, .f32⟩
  | 47 => ⟨S100000x64, .f32⟩
  | 48 => ⟨S100000x64, .f32⟩
  | 49 => ⟨S100000x1, .f32⟩
  | 50 => ⟨S1x1, .f32⟩
  | 51 => ⟨S100000x1, .f32⟩
  | 52 => ⟨S100000x1, .f32⟩
  | 53 => ⟨S100000x1, .f32⟩
  | 54 => ⟨S100000x1, .f32⟩
  | 55 => ⟨S100000x1, .f32⟩
  | 56 => ⟨S100000x1, .f32⟩
  | 57 => ⟨S_, .f32⟩
  | 58 => ⟨S100000x1, .f32⟩
  | 59 => ⟨S100000x1, .f32⟩
  | 60 => ⟨S_, .f32⟩
  | 61 => ⟨S100000x1, .f32⟩
  | 62 => ⟨S100000x1, .f32⟩
  | _ => ⟨S100000x13, .f32⟩

abbrev hbmTy (i : Nat) : BufTy := match i / 128 with
  | 0 => hbmTy0_0 i
  | 1 => hbmTy0_1 i
  | _ => ⟨S100000x13, .f32⟩

abbrev bufTy : (tb : Table) → Fin (tcTables nBuf tb) → BufTy
  | .hbm, ⟨i, _⟩ => hbmTy i
  | _, _ => ⟨S100000x13, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_c : Ref sig .tc := ⟨.hbm, 21, rfl⟩
abbrev main_v4 : Ref sig .tc := ⟨.hbm, 22, rfl⟩
abbrev main_v5 : Ref sig .tc := ⟨.hbm, 23, rfl⟩
abbrev main_c_0 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_cst_1 : Ref sig .tc := ⟨.hbm, 34, rfl⟩
abbrev main_v14 : Ref sig .tc := ⟨.hbm, 35, rfl⟩
abbrev main_cst_2 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_cst_3 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_call0_cst : Ref sig .tc := ⟨.hbm, 51, rfl⟩
abbrev main_call0_v0 : Ref sig .tc := ⟨.hbm, 52, rfl⟩
abbrev main_v28 : Ref sig .tc := ⟨.hbm, 53, rfl⟩
abbrev main_c_4 : Ref sig .tc := ⟨.hbm, 54, rfl⟩
abbrev main_v29 : Ref sig .tc := ⟨.hbm, 55, rfl⟩
abbrev main_v30 : Ref sig .tc := ⟨.hbm, 56, rfl⟩
abbrev main_c_5 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_cst_6 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_cst_7 : Ref sig .tc := ⟨.hbm, 67, rfl⟩
abbrev main_v39 : Ref sig .tc := ⟨.hbm, 68, rfl⟩
abbrev main_cst_8 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_cst_9 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_call1_cst : Ref sig .tc := ⟨.hbm, 84, rfl⟩
abbrev main_call1_v0 : Ref sig .tc := ⟨.hbm, 85, rfl⟩
abbrev main_v53 : Ref sig .tc := ⟨.hbm, 86, rfl⟩
abbrev main_c_10 : Ref sig .tc := ⟨.hbm, 87, rfl⟩
abbrev main_v54 : Ref sig .tc := ⟨.hbm, 88, rfl⟩
abbrev main_v55 : Ref sig .tc := ⟨.hbm, 89, rfl⟩
abbrev main_c_11 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_cst_12 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_cst_13 : Ref sig .tc := ⟨.hbm, 100, rfl⟩
abbrev main_v64 : Ref sig .tc := ⟨.hbm, 101, rfl⟩
abbrev main_cst_14 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_cst_15 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_call2_cst : Ref sig .tc := ⟨.hbm, 117, rfl⟩
abbrev main_call2_v0 : Ref sig .tc := ⟨.hbm, 118, rfl⟩
abbrev main_v78 : Ref sig .tc := ⟨.hbm, 119, rfl⟩
abbrev main_c_16 : Ref sig .tc := ⟨.hbm, 120, rfl⟩
abbrev main_v79 : Ref sig .tc := ⟨.hbm, 121, rfl⟩
abbrev main_v80 : Ref sig .tc := ⟨.hbm, 122, rfl⟩
abbrev main_c_17 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_cst_18 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_cst_19 : Ref sig .tc := ⟨.hbm, 133, rfl⟩
abbrev main_v89 : Ref sig .tc := ⟨.hbm, 134, rfl⟩
abbrev main_cst_20 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_cst_21 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_call3_cst : Ref sig .tc := ⟨.hbm, 150, rfl⟩
abbrev main_call3_v0 : Ref sig .tc := ⟨.hbm, 151, rfl⟩
abbrev main_v103 : Ref sig .tc := ⟨.hbm, 152, rfl⟩
abbrev main_c_22 : Ref sig .tc := ⟨.hbm, 153, rfl⟩
abbrev main_v104 : Ref sig .tc := ⟨.hbm, 154, rfl⟩
abbrev main_v105 : Ref sig .tc := ⟨.hbm, 155, rfl⟩
abbrev main_c_23 : Ref sig .tc := ⟨.hbm, 156, rfl⟩
abbrev main_v106 : Ref sig .tc := ⟨.hbm, 157, rfl⟩
abbrev main_v107 : Ref sig .tc := ⟨.hbm, 158, rfl⟩
abbrev main_v108 : Ref sig .tc := ⟨.hbm, 159, rfl⟩
abbrev main_v109 : Ref sig .tc := ⟨.hbm, 160, rfl⟩
abbrev main_v110 : Ref sig .tc := ⟨.hbm, 161, rfl⟩
abbrev main_cst_24 : Ref sig .tc := ⟨.hbm, 162, rfl⟩
abbrev main_v111 : Ref sig .tc := ⟨.hbm, 163, rfl⟩
abbrev main_v112 : Ref sig .tc := ⟨.hbm, 164, rfl⟩
abbrev main_v113 : Ref sig .tc := ⟨.hbm, 165, rfl⟩
abbrev main_cst_25 : Ref sig .tc := ⟨.hbm, 166, rfl⟩
abbrev main_v114 : Ref sig .tc := ⟨.hbm, 167, rfl⟩
abbrev main_cst_26 : Ref sig .tc := ⟨.hbm, 168, rfl⟩
abbrev main_v115 : Ref sig .tc := ⟨.hbm, 169, rfl⟩
abbrev main_v116 : Ref sig .tc := ⟨.hbm, 170, rfl⟩
abbrev main_v117 : Ref sig .tc := ⟨.hbm, 171, rfl⟩
abbrev main_cst_27 : Ref sig .tc := ⟨.hbm, 172, rfl⟩
abbrev main_v118 : Ref sig .tc := ⟨.hbm, 173, rfl⟩
abbrev main_v119 : Ref sig .tc := ⟨.hbm, 174, rfl⟩
abbrev main_v120 : Ref sig .tc := ⟨.hbm, 175, rfl⟩
abbrev main_v121 : Ref sig .tc := ⟨.hbm, 176, rfl⟩
abbrev main_v122 : Ref sig .tc := ⟨.hbm, 177, rfl⟩
abbrev main_v123 : Ref sig .tc := ⟨.hbm, 178, rfl⟩
abbrev main_v124 : Ref sig .tc := ⟨.hbm, 179, rfl⟩
abbrev main_v125 : Ref sig .tc := ⟨.hbm, 180, rfl⟩
abbrev main_v126 : Ref sig .tc := ⟨.hbm, 181, rfl⟩
abbrev main_v127 : Ref sig .tc := ⟨.hbm, 182, rfl⟩
abbrev main_v128 : Ref sig .tc := ⟨.hbm, 183, rfl⟩
abbrev main_v129 : Ref sig .tc := ⟨.hbm, 184, rfl⟩
abbrev main_cst_28 : Ref sig .tc := ⟨.hbm, 185, rfl⟩
abbrev main_v130 : Ref sig .tc := ⟨.hbm, 186, rfl⟩
abbrev main_v131 : Ref sig .tc := ⟨.hbm, 187, rfl⟩
abbrev main_cst_29 : Ref sig .tc := ⟨.hbm, 188, rfl⟩
abbrev main_v132 : Ref sig .tc := ⟨.hbm, 189, rfl⟩
abbrev main_v133 : Ref sig .tc := ⟨.hbm, 190, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x13 : S_.BroadcastsInDim S100000x13 (![] : Fin 0 → Fin S100000x13.rank)
  bcast_S_S1600000x1 : S_.BroadcastsInDim S1600000x1 (![] : Fin 0 → Fin S1600000x1.rank)
  bcast_S_S100000x1 : S_.BroadcastsInDim S100000x1 (![] : Fin 0 → Fin S100000x1.rank)
  bcast_S100000x1_S100000x13_0_1 : S100000x1.BroadcastsInDim S100000x13 (![0, 1] : Fin 2 → Fin S100000x13.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  gather_S100000x13_S1600000x1_S1600000x13_1_0_n_n_0_1_113_wf : GatherDims.WF S100000x13 S1600000x1 S1600000x13 [1] [0] [] [0] [] 1 ![1, 13]
  scatter_S100000x13_S1600000x1_S1600000x13_1_0_0_1_wf : ScatterDims.WF S100000x13 S1600000x1 S1600000x13 [1] [0] [0] 1
  scatter_S100000x1_S1600000x1_S1600000x1_1_0_0_1_wf : ScatterDims.WF S100000x1 S1600000x1 S1600000x1 [1] [0] [0] 1
  dot_S100000x13_S13x64_S100000x64_1_0_0_1_n_n_wf : DotDims.WF S100000x13 S13x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  dot_S100000x64_S64x1_S100000x1_1_0_0_1_n_n_wf : DotDims.WF S100000x64 S64x1 S100000x1 [1] [0] [0] [1] [] []

variable [Facts₀]

def gather_S100000x13_S1600000x1_S1600000x13_1_0_n_n_0_1_113 : GatherDims S100000x13 S1600000x1 S1600000x13 where
  offsetDims := [1]
  collapsedSliceDims := [0]
  operandBatchingDims := []
  startIndicesBatchingDims := []
  startIndexMap := [0]
  indexVectorDim := 1
  sliceSizes := ![1, 13]
  wf := gather_S100000x13_S1600000x1_S1600000x13_1_0_n_n_0_1_113_wf
def scatter_S100000x13_S1600000x1_S1600000x13_1_0_0_1 : ScatterDims S100000x13 S1600000x1 S1600000x13 where
  updateWindowDims := [1]
  insertedWindowDims := [0]
  scatterDimsToOperandDims := [0]
  indexVectorDim := 1
  wf := scatter_S100000x13_S1600000x1_S1600000x13_1_0_0_1_wf
def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def dot_S100000x13_S13x64_S100000x64_1_0_0_1_n_n : DotDims S100000x13 S13x64 S100000x64 where
  lhsContracting := [1]
  rhsContracting := [0]
  lhsNonContracting := [0]
  rhsNonContracting := [1]
  lhsBatch := []
  rhsBatch := []
  wf := dot_S100000x13_S13x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf

class Facts : Prop extends Facts₀ where

variable [Facts]
-- ==== Proof.KRun.lean ====
/-
  The idealized kernel's run with its result array named.

  The program is five regions among stretches of host operations. Its run ends with every buffer of the
  TensorCore that is not scoped to a region at the contents the last segment boundary gives it (`Gen.W10`): the
  contents folded through the ten segments from the launch memory. In particular the result array ends at that fold's
  value, and each argument array at its launch contents.
-/
import proofs.«168755_j21887153341148_1_alg».proof.Proof.Gen.KernelIdeal.Frame

set_option maxRecDepth 16384

noncomputable section

namespace Cert.Sage.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with every unscoped TensorCore buffer at
    the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W10 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h => h)

/-- The result array and the argument arrays after the run. -/
theorem run_named : θ_run defs (onTc (τ := τ) (main (F := F))) ⟨m, fun _ => 0, ρ⟩ (fun r => ∀ c : Dev nD,
      r.2.mem ((c.tc : Thread nD τ).loc main_v72) = W10 m ρ c (Proc.devRef .tc main_v72)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c =>
    ⟨h c _ (mem_uc main_v72 (by decide)),
     (h c _ (mem_uc main_arg0 (by decide))).trans (W10_main_arg0 m ρ c),
     (h c _ (mem_uc main_arg1 (by decide))).trans (W10_main_arg1 m ρ c),
     (h c _ (mem_uc main_arg2 (by decide))).trans (W10_main_arg2 m ρ c),
     (h c _ (mem_uc main_arg3 (by decide))).trans (W10_main_arg3 m ρ c),
     (h c _ (mem_uc main_arg4 (by decide))).trans (W10_main_arg4 m ρ c),
     (h c _ (mem_uc main_arg5 (by decide))).trans (W10_main_arg5 m ρ c),
     (h c _ (mem_uc main_arg6 (by decide))).trans (W10_main_arg6 m ρ c),
     (h c _ (mem_uc main_arg7 (by decide))).trans (W10_main_arg7 m ρ c),
     (h c _ (mem_uc main_arg8 (by decide))).trans (W10_main_arg8 m ρ c),
     (h c _ (mem_uc main_arg9 (by decide))).trans (W10_main_arg9 m ρ c),
     (h c _ (mem_uc main_arg10 (by decide))).trans (W10_main_arg10 m ρ c),
     (h c _ (mem_uc main_arg11 (by decide))).trans (W10_main_arg11 m ρ c),
     (h c _ (mem_uc main_arg12 (by decide))).trans (W10_main_arg12 m ρ c),
     (h c _ (mem_uc main_arg13 (by decide))).trans (W10_main_arg13 m ρ c),
     (h c _ (mem_uc main_arg14 (by decide))).trans (W10_main_arg14 m ρ c),
     (h c _ (mem_uc main_arg15 (by decide))).trans (W10_main_arg15 m ρ c),
     (h c _ (mem_uc main_arg16 (by decide))).trans (W10_main_arg16 m ρ c)⟩)
    (run_all m ρ)

end Cert.Sage.KRun

end
-- ==== Proof.Spec.lean ====
/-
  One layer of the network as a function of whole arrays, entry by entry, on the extended reals.

  For a node-feature array `H` (N rows, K columns), the neighbour sums `A` (same extents), a column `I` of
  per-node factors (N rows, one column), two weight matrices `Wl`, `Wr` (K by M) and a bias row `B` (one row, M
  columns), the value before the activation at node `n` and output feature `j` is

      ∑ c, (A[n,c] · I[n,0]) · Wl[c,j]  +  ∑ c, H[n,c] · Wr[c,j]  +  B[0,j],

  the first sum being the mean of the neighbours' features (the sum scaled by the factor) carried through `Wl`.
  The hidden layers take the maximum with zero of it, the last layer its logistic function.
  The reference adds the three terms in another order, (first + bias) + second: the same extended real, since
  addition of extended reals is commutative and associative.
-/
import Idealize.ShloMosaic.PureOps.Ideal
import Idealize.ShloMosaic.Lib.ValueIdx

noncomputable section

open scoped BigOperators

namespace Cert.Sage

open Idealize.ShloMosaic Idealize.ShloMosaic.ValueIdx

/-- An `a` by `b` table of extended reals. -/
abbrev Mat (a b : Nat) : Type := (⟨2, ![a, b]⟩ : Shape).Idx → EReal

variable {N K M : Nat}

/-- The value before the activation at node `n`, output feature `j`. -/
def preAt (A : Mat N K) (I : Mat N 1) (H : Mat N K) (Wl Wr : Mat K M) (B : Mat 1 M) (n : Fin N) (j : Fin M) : EReal :=
  ((∑ c : Fin K, (A (ix2 n c) * I (ix2 n (0 : Fin 1))) * Wl (ix2 c j)) + ∑ c : Fin K, H (ix2 n c) * Wr (ix2 c j))
    + B (ix2 (0 : Fin 1) j)

/-- The same three terms in the reference's order. -/
def preAtRef (A : Mat N K) (I : Mat N 1) (H : Mat N K) (Wl Wr : Mat K M) (B : Mat 1 M) (n : Fin N) (j : Fin M) : EReal :=
  ((∑ c : Fin K, (A (ix2 n c) * I (ix2 n (0 : Fin 1))) * Wl (ix2 c j)) + B (ix2 (0 : Fin 1) j))
    + ∑ c : Fin K, H (ix2 n c) * Wr (ix2 c j)

theorem preAtRef_eq (A : Mat N K) (I : Mat N 1) (H : Mat N K) (Wl Wr : Mat K M) (B : Mat 1 M) (n : Fin N) (j : Fin M) :
    preAtRef A I H Wl Wr B n j = preAt A I H Wl Wr B n j := by
  unfold preAtRef preAt
  exact add_right_comm _ _ _

/-- A hidden layer: the maximum with zero. -/
def layerRelu (A : Mat N K) (I : Mat N 1) (H : Mat N K) (Wl Wr : Mat K M) (B : Mat 1 M) : Mat N M :=
  fun i => max (preAt A I H Wl Wr B (i 0) (i 1)) 0

/-- The last layer: the logistic function. -/
def layerSig (A : Mat N K) (I : Mat N 1) (H : Mat N K) (Wl Wr : Mat K M) (B : Mat 1 M) : Mat N M :=
  fun i => Ideal.logistic (preAt A I H Wl Wr B (i 0) (i 1))

theorem layerRelu_apply (A : Mat N K) (I : Mat N 1) (H : Mat N K) (Wl Wr : Mat K M) (B : Mat 1 M) (n : Fin N) (j : Fin M) :
    layerRelu A I H Wl Wr B (ix2 n j) = max (preAt A I H Wl Wr B n j) 0 := rfl

theorem layerSig_apply (A : Mat N K) (I : Mat N 1) (H : Mat N K) (Wl Wr : Mat K M) (B : Mat 1 M) (n : Fin N) (j : Fin M) :
    layerSig A I H Wl Wr B (ix2 n j) = Ideal.logistic (preAt A I H Wl Wr B n j) := rfl

end Cert.Sage

end
-- ==== Proof.Stages.lean ====
/-
  The host operations around the five regions, as functions of arrays, and the whole network as one function.

  From the 2 by E edge list the program takes its two rows (`srcVec`: where an edge starts; `dstVec`: where it
  ends). A layer's neighbour sums are a row gather followed by an accumulating scatter: row `e` of the gathered array
  is the feature row of the start node of edge `e` (a negative node number is wrapped once by the node count
  first), and that row is added into the row of the end node of `e`, over an array of zeros. The per-node factor is
  1 / max(count, 1), `count` being the same scatter of ones. A bias vector becomes a one-row matrix.
  The network is five layers, each fed the previous layer's result: four with the maximum with zero, the last with
  the logistic function.
-/
import proofs.«168755_j21887153341148_1_alg».proof.Proof.Gen.KernelIdeal
import proofs.«168755_j21887153341148_1_alg».proof.Proof.Spec

noncomputable section

namespace Cert.Sage.Stages

open Idealize.ShloMosaic Cert.KernelIdeal Cert.KernelIdeal.Facts₀ Cert.Sage

abbrev EdgeList : Type := (⟨S2x1600000, .i32⟩ : BufTy).Contents (Elt Ideal)
abbrev EdgeVec : Type := (⟨S1600000, .i32⟩ : BufTy).Contents (Elt Ideal)
abbrev EdgeCol : Type := (⟨S1600000x1, .i32⟩ : BufTy).Contents (Elt Ideal)

/-- The start node of every edge: row 0 of the edge list. -/
def srcVec (ei : EdgeList) : EdgeVec :=
  shapeCast S1600000 (extractStridedSlice S1x1600000 ![0, 0] ei slices_S2x1600000_S1x1600000_0_0) shapeCasts_S1x1600000_S1600000

/-- The end node of every edge: row 1 of the edge list. -/
def dstVec (ei : EdgeList) : EdgeVec :=
  shapeCast S1600000 (extractStridedSlice S1x1600000 ![1, 0] ei slices_S2x1600000_S1x1600000_1_0) shapeCasts_S1x1600000_S1600000

/-- The start nodes as a column of row numbers, a negative number wrapped once by the node count. -/
def srcCol (s : EdgeVec) : EdgeCol :=
  broadcastInDim S1600000x1 ![0] bcast_S1600000_S1600000x1_0
    (select (cmpi .slt s (broadcastInDim S1600000 ![] bcast_S_S1600000 (constantI S_ 32 0#32)))
      (addi s (broadcastInDim S1600000 ![] bcast_S_S1600000 (constantI S_ 32 100000#32))) s)

/-- The end nodes as a column of row numbers. -/
def dstCol (d : EdgeVec) : EdgeCol := broadcastInDim S1600000x1 ![0] bcast_S1600000_S1600000x1_0 d

/-- Neighbour sums of a 13-column feature array. -/
def agg13 (h : FVec Ideal S100000x13 .f32) (s d : EdgeVec) : FVec Ideal S100000x13 .f32 :=
  Host.scatterAdd scatter_S100000x13_S1600000x1_S1600000x13_1_0_0_1
    (broadcastInDim S100000x13 ![] bcast_S_S100000x13 (constant (F := Ideal) S_ .f32 0x00000000#32)) (dstCol d)
    (Host.gather gather_S100000x13_S1600000x1_S1600000x13_1_0_n_n_0_1_113 h (srcCol s))

/-- Neighbour sums of a 64-column feature array. -/
def agg64 (h : FVec Ideal S100000x64 .f32) (s d : EdgeVec) : FVec Ideal S100000x64 .f32 :=
  Host.scatterAdd scatter_S100000x64_S1600000x1_S1600000x64_1_0_0_1
    (broadcastInDim S100000x64 ![] bcast_S_S100000x64 (constant (F := Ideal) S_ .f32 0x00000000#32)) (dstCol d)
    (Host.gather gather_S100000x64_S1600000x1_S1600000x64_1_0_n_n_0_1_164 h (srcCol s))

/-- How many edges end at each node, as the scatter of ones the program runs. -/
def countVec (d : EdgeVec) : FVec Ideal S100000 .f32 :=
  Host.scatterAdd scatter_S100000_S1600000x1_S1600000_n_0_0_1
    (broadcastInDim S100000 ![] bcast_S_S100000 (constant (F := Ideal) S_ .f32 0x00000000#32)) (dstCol d)
    (broadcastInDim S1600000 ![] bcast_S_S1600000 (constant (F := Ideal) S_ .f32 0x3F800000#32))

/-- The per-node factor 1 / max(count, 1), as a column. -/
def invCol (d : EdgeVec) : FVec Ideal S100000x1 .f32 :=
  shapeCast S100000x1
    (Host.divf (broadcastInDim S100000 ![] bcast_S_S100000 (constant (F := Ideal) S_ .f32 0x3F800000#32))
      (maximumf (countVec d) (broadcastInDim S100000 ![] bcast_S_S100000 (constant (F := Ideal) S_ .f32 0x3F800000#32))))
    shapeCasts_S100000_S100000x1

/-- A 64-entry bias vector as a one-row matrix. -/
def biasRow64 (b : FVec Ideal S64 .f32) : FVec Ideal S1x64 .f32 := shapeCast S1x64 b shapeCasts_S64_S1x64

/-- The last layer's one-entry bias vector as a 1 by 1 matrix. -/
def biasRow1 (b : FVec Ideal S1 .f32) : FVec Ideal S1x1 .f32 := shapeCast S1x1 b shapeCasts_S1_S1x1

/-- The first layer. -/
def layer0 (x : FVec Ideal S100000x13 .f32) (ei : EdgeList) (wl wr : FVec Ideal S13x64 .f32) (b : FVec Ideal S64 .f32) :
    FVec Ideal S100000x64 .f32 :=
  layerRelu (agg13 x (srcVec ei) (dstVec ei)) (invCol (dstVec ei)) x wl wr (biasRow64 b)

/-- A hidden layer on 64 features. -/
def layerH (h : FVec Ideal S100000x64 .f32) (ei : EdgeList) (wl wr : FVec Ideal S64x64 .f32) (b : FVec Ideal S64 .f32) :
    FVec Ideal S100000x64 .f32 :=
  layerRelu (agg64 h (srcVec ei) (dstVec ei)) (invCol (dstVec ei)) h wl wr (biasRow64 b)

/-- The last layer. -/
def layerOut (h : FVec Ideal S100000x64 .f32) (ei : EdgeList) (wl wr : FVec Ideal S64x1 .f32) (b : FVec Ideal S1 .f32) :
    FVec Ideal S100000x1 .f32 :=
  layerSig (agg64 h (srcVec ei) (dstVec ei)) (invCol (dstVec ei)) h wl wr (biasRow1 b)

/-- The network: the five layers in a row. -/
def net (x : FVec Ideal S100000x13 .f32) (ei : EdgeList) (wl0 wr0 : FVec Ideal S13x64 .f32) (b0 : FVec Ideal S64 .f32)
    (wl1 wr1 : FVec Ideal S64x64 .f32) (b1 : FVec Ideal S64 .f32) (wl2 wr2 : FVec Ideal S64x64 .f32) (b2 : FVec Ideal S64 .f32)
    (wl3 wr3 : FVec Ideal S64x64 .f32) (b3 : FVec Ideal S64 .f32) (wl4 wr4 : FVec Ideal S64x1 .f32) (b4 : FVec Ideal S1 .f32) :
    FVec Ideal S100000x1 .f32 :=
  layerOut (layerH (layerH (layerH (layer0 x ei wl0 wr0 b0) ei wl1 wr1 b1) ei wl2 wr2 b2) ei wl3 wr3 b3) ei wl4 wr4 b4

end Cert.Sage.Stages

end
-- ==== Proof.KArgs.lean ====
/-
  The argument arrays at the segment boundaries.

  No host operation and no region writes an argument array: a host operation writes its own result buffer, and a
  region writes its output array only, reading an argument through an input window or not at all. So at every
  boundary an argument array holds what it was launched with. Stated here for each weight matrix and bias vector at
  the boundary where a region's window, or the host's reshape of the bias, reads it.
-/
import proofs.«168755_j21887153341148_1_alg».proof.Proof.Gen.KernelIdeal.Frame
import proofs.«168755_j21887153341148_1_alg».proof.Proof.Stages

set_option maxRecDepth 16384

noncomputable section

namespace Cert.Sage.KArgs

open Idealize.ShloMosaic Idealize.ShloMosaic.TcCoe Idealize.SL.Sem
open Cert.KernelIdeal Cert.KernelIdeal.Gen Cert.Sage Cert.Sage.Stages

variable (m : (ℓ : Loc nD τ sig) → Buf (Elt Ideal) ℓ) (ρ : Dev nD → PrngReg) (c : Dev nD)

theorem a0_W0 : W0 m ρ c (Proc.devRef .tc main_arg0) = m ((c : Thread nD τ).loc main_arg0) := rfl
theorem a0_W1 : W1 m ρ c (Proc.devRef .tc main_arg0) = m ((c : Thread nD τ).loc main_arg0) :=
  (StableHlo.after_of_forall_not_mem (b := Proc.devRef .tc main_arg0) _ _ (List.forall_iff_forall_mem.mp (by
      simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (a0_W0 m ρ c)

theorem a2_W0 : W0 m ρ c (Proc.devRef .tc main_arg2) = m ((c : Thread nD τ).loc main_arg2) := rfl
theorem a2_W1 : W1 m ρ c (Proc.devRef .tc main_arg2) = m ((c : Thread nD τ).loc main_arg2) :=
  (StableHlo.after_of_forall_not_mem (b := Proc.devRef .tc main_arg2) _ _ (List.forall_iff_forall_mem.mp (by
      simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (a2_W0 m ρ c)

theorem a3_W0 : W0 m ρ c (Proc.devRef .tc main_arg3) = m ((c : Thread nD τ).loc main_arg3) := rfl
theorem a3_W1 : W1 m ρ c (Proc.devRef .tc main_arg3) = m ((c : Thread nD τ).loc main_arg3) :=
  (StableHlo.after_of_forall_not_mem (b := Proc.devRef .tc main_arg3) _ _ (List.forall_iff_forall_mem.mp (by
      simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (a3_W0 m ρ c)

theorem a5_W0 : W0 m ρ c (Proc.devRef .tc main_arg5) = m ((c : Thread nD τ).loc main_arg5) := rfl
theorem a5_W1 : W1 m ρ c (Proc.devRef .tc main_arg5) = m ((c : Thread nD τ).loc main_arg5) :=
  (StableHlo.after_of_forall_not_mem (b := Proc.devRef .tc main_arg5) _ _ (List.forall_iff_forall_mem.mp (by
      simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (a5_W0 m ρ c)
theorem a5_W2 : W2 m ρ c (Proc.devRef .tc main_arg5) = m ((c : Thread nD τ).loc main_arg5) :=
  (W2_of_ne m ρ c main_arg5 (by decide)).trans (a5_W1 m ρ c)
theorem a5_W3 : W3 m ρ c (Proc.devRef .tc main_arg5) = m ((c : Thread nD τ).loc main_arg5) :=
  (StableHlo.after_of_forall_not_mem (b := Proc.devRef .tc main_arg5) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (a5_W2 m ρ c)

theorem a6_W0 : W0 m ρ c (Proc.devRef .tc main_arg6) = m ((c : Thread nD τ).loc main_arg6) := rfl
theorem a6_W1 : W1 m ρ c (Proc.devRef .tc main_arg6) = m ((c : Thread nD τ).loc main_arg6) :=
  (StableHlo.after_of_forall_not_mem (b := Proc.devRef .tc main_arg6) _ _ (List.forall_iff_forall_mem.mp (by
      simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (a6_W0 m ρ c)
theorem a6_W2 : W2 m ρ c (Proc.devRef .tc main_arg6) = m ((c : Thread nD τ).loc main_arg6) :=
  (W2_of_ne m ρ c main_arg6 (by decide)).trans (a6_W1 m ρ c)
theorem a6_W3 : W3 m ρ c (Proc.devRef .tc main_arg6) = m ((c : Thread nD τ).loc main_arg6) :=
  (StableHlo.after_of_forall_not_mem (b := Proc.devRef .tc main_arg6) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (a6_W2 m ρ c)

theorem a7_W0 : W0 m ρ c (Proc.devRef .tc main_arg7) = m ((c : Thread nD τ).loc main_arg7) := rfl
theorem a7_W1 : W1 m ρ c (Proc.devRef .tc main_arg7) = m ((c : Thread nD τ).loc main_arg7) :=
  (StableHlo.after_of_forall_not_mem (b := Proc.devRef .tc main_arg7) _ _ (List.forall_iff_forall_mem.mp (by
      simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (a7_W0 m ρ c)
theorem a7_W2 : W2 m ρ c (Proc.devRef .tc main_arg7) = m ((c : Thread nD τ).loc main_arg7) :=
  (W2_of_ne m ρ c main_arg7 (by decide)).trans (a7_W1 m ρ c)

theorem a8_W0 : W0 m ρ c (Proc.devRef .tc main_arg8) = m ((c : Thread nD τ).loc main_arg8) := rfl
theorem a8_W1 : W1 m ρ c (Proc.devRef .tc main_arg8) = m ((c : Thread nD τ).loc main_arg8) :=
  (StableHlo.after_of_forall_not_mem (b := Proc.devRef .tc main_arg8) _ _ (List.forall_iff_forall_mem.mp (by
      simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (a8_W0 m ρ c)
theorem a8_W2 : W2 m ρ c (Proc.devRef .tc main_arg8) = m ((c : Thread nD τ).loc main_arg8) :=
  (W2_of_ne m ρ c main_arg8 (by decide)).trans (a8_W1 m ρ c)
theorem a8_W3 : W3 m ρ c (Proc.devRef .tc main_arg8) = m ((c : Thread nD τ).loc main_arg8) :=
  (StableHlo.after_of_forall_not_mem (b := Proc.devRef .tc main_arg8) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (a8_W2 m ρ c)
theorem a8_W4 : W4 m ρ c (Proc.devRef .tc main_arg8) = m ((c : Thread nD τ).loc main_arg8) :=
  (W4_of_ne m ρ c main_arg8 (by decide)).trans (a8_W3 m ρ c)
theorem a8_W5 : W5 m ρ c (Proc.devRef .tc main_arg8) = m ((c : Thread nD τ).loc main_arg8) :=
  (StableHlo.after_of_forall_not_mem (b := Proc.devRef .tc main_arg8) _ _ (List.forall_iff_forall_mem.mp (by
      simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (a8_W4 m ρ c)

theorem a9_W0 : W0 m ρ c (Proc.devRef .tc main_arg9) = m ((c : Thread nD τ).loc main_arg9) := rfl
theorem a9_W1 : W1 m ρ c (Proc.devRef .tc main_arg9) = m ((c : Thread nD τ).loc main_arg9) :=
  (StableHlo.after_of_forall_not_mem (b := Proc.devRef .tc main_arg9) _ _ (List.forall_iff_forall_mem.mp (by
      simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (a9_W0 m ρ c)
theorem a9_W2 : W2 m ρ c (Proc.devRef .tc main_arg9) = m ((c : Thread nD τ).loc main_arg9) :=
  (W2_of_ne m ρ c main_arg9 (by decide)).trans (a9_W1 m ρ c)
theorem a9_W3 : W3 m ρ c (Proc.devRef .tc main_arg9) = m ((c : Thread nD τ).loc main_arg9) :=
  (StableHlo.after_of_forall_not_mem (b := Proc.devRef .tc main_arg9) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (a9_W2 m ρ c)
theorem a9_W4 : W4 m ρ c (Proc.devRef .tc main_arg9) = m ((c : Thread nD τ).loc main_arg9) :=
  (W4_of_ne m ρ c main_arg9 (by decide)).trans (a9_W3 m ρ c)
theorem a9_W5 : W5 m ρ c (Proc.devRef .tc main_arg9) = m ((c : Thread nD τ).loc main_arg9) :=
  (StableHlo.after_of_forall_not_mem (b := Proc.devRef .tc main_arg9) _ _ (List.forall_iff_forall_mem.mp (by
      simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (a9_W4 m ρ c)

theorem a10_W0 : W0 m ρ c (Proc.devRef .tc main_arg10) = m ((c : Thread nD τ).loc main_arg10) := rfl
theorem a10_W1 : W1 m ρ c (Proc.devRef .tc main_arg10) = m ((c : Thread nD τ).loc main_arg10) :=
  (StableHlo.after_of_forall_not_mem (b := Proc.devRef .tc main_arg10) _ _ (List.forall_iff_forall_mem.mp (by
      simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (a10_W0 m ρ c)
theorem a10_W2 : W2 m ρ c (Proc.devRef .tc main_arg10) = m ((c : Thread nD τ).loc main_arg10) :=
  (W2_of_ne m ρ c main_arg10 (by decide)).trans (a10_W1 m ρ c)
theorem a10_W3 : W3 m ρ c (Proc.devRef .tc main_arg10) = m ((c : Thread nD τ).loc main_arg10) :=
  (StableHlo.after_of_forall_not_mem (b := Proc.devRef .tc main_arg10) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (a10_W2 m ρ c)
theorem a10_W4 : W4 m ρ c (Proc.devRef .tc main_arg10) = m ((c : Thread nD τ).loc main_arg10) :=
  (W4_of_ne m ρ c main_arg10 (by decide)).trans (a10_W3 m ρ c)

theorem a11_W0 : W0 m ρ c (Proc.devRef .tc main_arg11) = m ((c : Thread nD τ).loc main_arg11) := rfl
theorem a11_W1 : W1 m ρ c (Proc.devRef .tc main_arg11) = m ((c : Thread nD τ).loc main_arg11) :=
  (StableHlo.after_of_forall_not_mem (b := Proc.devRef .tc main_arg11) _ _ (List.forall_iff_forall_mem.mp (by
      simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (a11_W0 m ρ c)
theorem a11_W2 : W2 m ρ c (Proc.devRef .tc main_arg11) = m ((c : Thread nD τ).loc main_arg11) :=
  (W2_of_ne m ρ c main_arg11 (by decide)).trans (a11_W1 m ρ c)
theorem a11_W3 : W3 m ρ c (Proc.devRef .tc main_arg11) = m ((c : Thread nD τ).loc main_arg11) :=
  (StableHlo.after_of_forall_not_mem (b := Proc.devRef .tc main_arg11) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (a11_W2 m ρ c)
theorem a11_W4 : W4 m ρ c (Proc.devRef .tc main_arg11) = m ((c : Thread nD τ).loc main_arg11) :=
  (W4_of_ne m ρ c main_arg11 (by decide)).trans (a11_W3 m ρ c)
theorem a11_W5 : W5 m ρ c (Proc.devRef .tc main_arg11) = m ((c : Thread nD τ).loc main_arg11) :=
  (StableHlo.after_of_forall_not_mem (b := Proc.devRef .tc main_arg11) _ _ (List.forall_iff_forall_mem.mp (by
      simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (a11_W4 m ρ c)
theorem a11_W6 : W6 m ρ c (Proc.devRef .tc main_arg11) = m ((c : Thread nD τ).loc main_arg11) :=
  (W6_of_ne m ρ c main_arg11 (by decide)).trans (a11_W5 m ρ c)
theorem a11_W7 : W7 m ρ c (Proc.devRef .tc main_arg11) = m ((c : Thread nD τ).loc main_arg11) :=
  (StableHlo.after_of_forall_not_mem (b := Proc.devRef .tc main_arg11) _ _ (List.forall_iff_forall_mem.mp (by
      simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (a11_W6 m ρ c)

theorem a12_W0 : W0 m ρ c (Proc.devRef .tc main_arg12) = m ((c : Thread nD τ).loc main_arg12) := rfl
theorem a12_W1 : W1 m ρ c (Proc.devRef .tc main_arg12) = m ((c : Thread nD τ).loc main_arg12) :=
  (StableHlo.after_of_forall_not_mem (b := Proc.devRef .tc main_arg12) _ _ (List.forall_iff_forall_mem.mp (by
      simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (a12_W0 m ρ c)
theorem a12_W2 : W2 m ρ c (Proc.devRef .tc main_arg12) = m ((c : Thread nD τ).loc main_arg12) :=
  (W2_of_ne m ρ c main_arg12 (by decide)).trans (a12_W1 m ρ c)
theorem a12_W3 : W3 m ρ c (Proc.devRef .tc main_arg12) = m ((c : Thread nD τ).loc main_arg12) :=
  (StableHlo.after_of_forall_not_mem (b := Proc.devRef .tc main_arg12) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (a12_W2 m ρ c)
theorem a12_W4 : W4 m ρ c (Proc.devRef .tc main_arg12) = m ((c : Thread nD τ).loc main_arg12) :=
  (W4_of_ne m ρ c main_arg12 (by decide)).trans (a12_W3 m ρ c)
theorem a12_W5 : W5 m ρ c (Proc.devRef .tc main_arg12) = m ((c : Thread nD τ).loc main_arg12) :=
  (StableHlo.after_of_forall_not_mem (b := Proc.devRef .tc main_arg12) _ _ (List.forall_iff_forall_mem.mp (by
      simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (a12_W4 m ρ c)
theorem a12_W6 : W6 m ρ c (Proc.devRef .tc main_arg12) = m ((c : Thread nD τ).loc main_arg12) :=
  (W6_of_ne m ρ c main_arg12 (by decide)).trans (a12_W5 m ρ c)
theorem a12_W7 : W7 m ρ c (Proc.devRef .tc main_arg12) = m ((c : Thread nD τ).loc main_arg12) :=
  (StableHlo.after_of_forall_not_mem (b := Proc.devRef .tc main_arg12) _ _ (List.forall_iff_forall_mem.mp (by
      simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (a12_W6 m ρ c)

theorem a13_W0 : W0 m ρ c (Proc.devRef .tc main_arg13) = m ((c : Thread nD τ).loc main_arg13) := rfl
theorem a13_W1 : W1 m ρ c (Proc.devRef .tc main_arg13) = m ((c : Thread nD τ).loc main_arg13) :=
  (StableHlo.after_of_forall_not_mem (b := Proc.devRef .tc main_arg13) _ _ (List.forall_iff_forall_mem.mp (by
      simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (a13_W0 m ρ c)
theorem a13_W2 : W2 m ρ c (Proc.devRef .tc main_arg13) = m ((c : Thread nD τ).loc main_arg13) :=
  (W2_of_ne m ρ c main_arg13 (by decide)).trans (a13_W1 m ρ c)
theorem a13_W3 : W3 m ρ c (Proc.devRef .tc main_arg13) = m ((c : Thread nD τ).loc main_arg13) :=
  (StableHlo.after_of_forall_not_mem (b := Proc.devRef .tc main_arg13) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (a13_W2 m ρ c)
theorem a13_W4 : W4 m ρ c (Proc.devRef .tc main_arg13) = m ((c : Thread nD τ).loc main_arg13) :=
  (W4_of_ne m ρ c main_arg13 (by decide)).trans (a13_W3 m ρ c)
theorem a13_W5 : W5 m ρ c (Proc.devRef .tc main_arg13) = m ((c : Thread nD τ).loc main_arg13) :=
  (StableHlo.after_of_forall_not_mem (b := Proc.devRef .tc main_arg13) _ _ (List.forall_iff_forall_mem.mp (by
      simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (a13_W4 m ρ c)
theorem a13_W6 : W6 m ρ c (Proc.devRef .tc main_arg13) = m ((c : Thread nD τ).loc main_arg13) :=
  (W6_of_ne m ρ c main_arg13 (by decide)).trans (a13_W5 m ρ c)

theorem a14_W0 : W0 m ρ c (Proc.devRef .tc main_arg14) = m ((c : Thread nD τ).loc main_arg14) := rfl
theorem a14_W1 : W1 m ρ c (Proc.devRef .tc main_arg14) = m ((c : Thread nD τ).loc main_arg14) :=
  (StableHlo.after_of_forall_not_mem (b := Proc.devRef .tc main_arg14) _ _ (List.forall_iff_forall_mem.mp (by
      simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (a14_W0 m ρ c)
theorem a14_W2 : W2 m ρ c (Proc.devRef .tc main_arg14) = m ((c : Thread nD τ).loc main_arg14) :=
  (W2_of_ne m ρ c main_arg14 (by decide)).trans (a14_W1 m ρ c)
theorem a14_W3 : W3 m ρ c (Proc.devRef .tc main_arg14) = m ((c : Thread nD τ).loc main_arg14) :=
  (StableHlo.after_of_forall_not_mem (b := Proc.devRef .tc main_arg14) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (a14_W2 m ρ c)
theorem a14_W4 : W4 m ρ c (Proc.devRef .tc main_arg14) = m ((c : Thread nD τ).loc main_arg14) :=
  (W4_of_ne m ρ c main_arg14 (by decide)).trans (a14_W3 m ρ c)
theorem a14_W5 : W5 m ρ c (Proc.devRef .tc main_arg14) = m ((c : Thread nD τ).loc main_arg14) :=
  (StableHlo.after_of_forall_not_mem (b := Proc.devRef .tc main_arg14) _ _ (List.forall_iff_forall_mem.mp (by
      simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (a14_W4 m ρ c)
theorem a14_W6 : W6 m ρ c (Proc.devRef .tc main_arg14) = m ((c : Thread nD τ).loc main_arg14) :=
  (W6_of_ne m ρ c main_arg14 (by decide)).trans (a14_W5 m ρ c)
theorem a14_W7 : W7 m ρ c (Proc.devRef .tc main_arg14) = m ((c : Thread nD τ).loc main_arg14) :=
  (StableHlo.after_of_forall_not_mem (b := Proc.devRef .tc main_arg14) _ _ (List.forall_iff_forall_mem.mp (by
      simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (a14_W6 m ρ c)
theorem a14_W8 : W8 m ρ c (Proc.devRef .tc main_arg14) = m ((c : Thread nD τ).loc main_arg14) :=
  (W8_of_ne m ρ c main_arg14 (by decide)).trans (a14_W7 m ρ c)
theorem a14_W9 : W9 m ρ c (Proc.devRef .tc main_arg14) = m ((c : Thread nD τ).loc main_arg14) :=
  (StableHlo.after_of_forall_not_mem (b := Proc.devRef .tc main_arg14) _ _ (List.forall_iff_forall_mem.mp (by
      simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (a14_W8 m ρ c)

theorem a15_W0 : W0 m ρ c (Proc.devRef .tc main_arg15) = m ((c : Thread nD τ).loc main_arg15) := rfl
theorem a15_W1 : W1 m ρ c (Proc.devRef .tc main_arg15) = m ((c : Thread nD τ).loc main_arg15) :=
  (StableHlo.after_of_forall_not_mem (b := Proc.devRef .tc main_arg15) _ _ (List.forall_iff_forall_mem.mp (by
      simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (a15_W0 m ρ c)
theorem a15_W2 : W2 m ρ c (Proc.devRef .tc main_arg15) = m ((c : Thread nD τ).loc main_arg15) :=
  (W2_of_ne m ρ c main_arg15 (by decide)).trans (a15_W1 m ρ c)
theorem a15_W3 : W3 m ρ c (Proc.devRef .tc main_arg15) = m ((c : Thread nD τ).loc main_arg15) :=
  (StableHlo.after_of_forall_not_mem (b := Proc.devRef .tc main_arg15) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (a15_W2 m ρ c)
theorem a15_W4 : W4 m ρ c (Proc.devRef .tc main_arg15) = m ((c : Thread nD τ).loc main_arg15) :=
  (W4_of_ne m ρ c main_arg15 (by decide)).trans (a15_W3 m ρ c)
theorem a15_W5 : W5 m ρ c (Proc.devRef .tc main_arg15) = m ((c : Thread nD τ).loc main_arg15) :=
  (StableHlo.after_of_forall_not_mem (b := Proc.devRef .tc main_arg15) _ _ (List.forall_iff_forall_mem.mp (by
      simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (a15_W4 m ρ c)
theorem a15_W6 : W6 m ρ c (Proc.devRef .tc main_arg15) = m ((c : Thread nD τ).loc main_arg15) :=
  (W6_of_ne m ρ c main_arg15 (by decide)).trans (a15_W5 m ρ c)
theorem a15_W7 : W7 m ρ c (Proc.devRef .tc main_arg15) = m ((c : Thread nD τ).loc main_arg15) :=
  (StableHlo.after_of_forall_not_mem (b := Proc.devRef .tc main_arg15) _ _ (List.forall_iff_forall_mem.mp (by
      simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (a15_W6 m ρ c)
theorem a15_W8 : W8 m ρ c (Proc.devRef .tc main_arg15) = m ((c : Thread nD τ).loc main_arg15) :=
  (W8_of_ne m ρ c main_arg15 (by decide)).trans (a15_W7 m ρ c)
theorem a15_W9 : W9 m ρ c (Proc.devRef .tc main_arg15) = m ((c : Thread nD τ).loc main_arg15) :=
  (StableHlo.after_of_forall_not_mem (b := Proc.devRef .tc main_arg15) _ _ (List.forall_iff_forall_mem.mp (by
      simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (a15_W8 m ρ c)

theorem a16_W0 : W0 m ρ c (Proc.devRef .tc main_arg16) = m ((c : Thread nD τ).loc main_arg16) := rfl
theorem a16_W1 : W1 m ρ c (Proc.devRef .tc main_arg16) = m ((c : Thread nD τ).loc main_arg16) :=
  (StableHlo.after_of_forall_not_mem (b := Proc.devRef .tc main_arg16) _ _ (List.forall_iff_forall_mem.mp (by
      simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (a16_W0 m ρ c)
theorem a16_W2 : W2 m ρ c (Proc.devRef .tc main_arg16) = m ((c : Thread nD τ).loc main_arg16) :=
  (W2_of_ne m ρ c main_arg16 (by decide)).trans (a16_W1 m ρ c)
theorem a16_W3 : W3 m ρ c (Proc.devRef .tc main_arg16) = m ((c : Thread nD τ).loc main_arg16) :=
  (StableHlo.after_of_forall_not_mem (b := Proc.devRef .tc main_arg16) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (a16_W2 m ρ c)
theorem a16_W4 : W4 m ρ c (Proc.devRef .tc main_arg16) = m ((c : Thread nD τ).loc main_arg16) :=
  (W4_of_ne m ρ c main_arg16 (by decide)).trans (a16_W3 m ρ c)
theorem a16_W5 : W5 m ρ c (Proc.devRef .tc main_arg16) = m ((c : Thread nD τ).loc main_arg16) :=
  (StableHlo.after_of_forall_not_mem (b := Proc.devRef .tc main_arg16) _ _ (List.forall_iff_forall_mem.mp (by
      simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (a16_W4 m ρ c)
theorem a16_W6 : W6 m ρ c (Proc.devRef .tc main_arg16) = m ((c : Thread nD τ).loc main_arg16) :=
  (W6_of_ne m ρ c main_arg16 (by decide)).trans (a16_W5 m ρ c)
theorem a16_W7 : W7 m ρ c (Proc.devRef .tc main_arg16) = m ((c : Thread nD τ).loc main_arg16) :=
  (StableHlo.after_of_forall_not_mem (b := Proc.devRef .tc main_arg16) _ _ (List.forall_iff_forall_mem.mp (by
      simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (a16_W6 m ρ c)
theorem a16_W8 : W8 m ρ c (Proc.devRef .tc main_arg16) = m ((c : Thread nD τ).loc main_arg16) :=
  (W8_of_ne m ρ c main_arg16 (by decide)).trans (a16_W7 m ρ c)

end Cert.Sage.KArgs

end
-- ==== Proof.KEdges.lean ====
/-
  The edge rows and the per-node factor at the segment boundaries.

  The first stretch of host operations computes, from the edge list, the vector of start nodes, the vector of end
  nodes and the column of factors 1 / max(count, 1). No later host operation writes them, and a region reads the
  factor column through an input window only: at every later boundary they hold those values.
-/
import proofs.«168755_j21887153341148_1_alg».proof.Proof.Gen.KernelIdeal.Frame
import proofs.«168755_j21887153341148_1_alg».proof.Proof.Stages

set_option maxRecDepth 16384

noncomputable section

namespace Cert.Sage.KEdges

open Idealize.ShloMosaic Idealize.ShloMosaic.TcCoe Idealize.SL.Sem
open Cert.KernelIdeal Cert.KernelIdeal.Gen Cert.Sage Cert.Sage.Stages

variable (m : (ℓ : Loc nD τ sig) → Buf (Elt Ideal) ℓ) (ρ : Dev nD → PrngReg) (c : Dev nD)

theorem src_W1 : W1 m ρ c (Proc.devRef .tc main_v1) = (srcVec (m ((c : Thread nD τ).loc main_arg1))) := by
  show StableHlo.after hostOps0 (W0 m ρ c) (Proc.devRef .tc main_v1) = _
  after_results
  rfl
theorem src_W2 : W2 m ρ c (Proc.devRef .tc main_v1) = (srcVec (m ((c : Thread nD τ).loc main_arg1))) :=
  (W2_of_ne m ρ c main_v1 (by decide)).trans (src_W1 m ρ c)
theorem src_W3 : W3 m ρ c (Proc.devRef .tc main_v1) = (srcVec (m ((c : Thread nD τ).loc main_arg1))) :=
  (StableHlo.after_of_forall_not_mem (b := Proc.devRef .tc main_v1) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (src_W2 m ρ c)
theorem src_W4 : W4 m ρ c (Proc.devRef .tc main_v1) = (srcVec (m ((c : Thread nD τ).loc main_arg1))) :=
  (W4_of_ne m ρ c main_v1 (by decide)).trans (src_W3 m ρ c)
theorem src_W5 : W5 m ρ c (Proc.devRef .tc main_v1) = (srcVec (m ((c : Thread nD τ).loc main_arg1))) :=
  (StableHlo.after_of_forall_not_mem (b := Proc.devRef .tc main_v1) _ _ (List.forall_iff_forall_mem.mp (by
      simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (src_W4 m ρ c)
theorem src_W6 : W6 m ρ c (Proc.devRef .tc main_v1) = (srcVec (m ((c : Thread nD τ).loc main_arg1))) :=
  (W6_of_ne m ρ c main_v1 (by decide)).trans (src_W5 m ρ c)
theorem src_W7 : W7 m ρ c (Proc.devRef .tc main_v1) = (srcVec (m ((c : Thread nD τ).loc main_arg1))) :=
  (StableHlo.after_of_forall_not_mem (b := Proc.devRef .tc main_v1) _ _ (List.forall_iff_forall_mem.mp (by
      simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (src_W6 m ρ c)
theorem src_W8 : W8 m ρ c (Proc.devRef .tc main_v1) = (srcVec (m ((c : Thread nD τ).loc main_arg1))) :=
  (W8_of_ne m ρ c main_v1 (by decide)).trans (src_W7 m ρ c)

theorem dst_W1 : W1 m ρ c (Proc.devRef .tc main_v3) = (dstVec (m ((c : Thread nD τ).loc main_arg1))) := by
  show StableHlo.after hostOps0 (W0 m ρ c) (Proc.devRef .tc main_v3) = _
  after_results
  rfl
theorem dst_W2 : W2 m ρ c (Proc.devRef .tc main_v3) = (dstVec (m ((c : Thread nD τ).loc main_arg1))) :=
  (W2_of_ne m ρ c main_v3 (by decide)).trans (dst_W1 m ρ c)
theorem dst_W3 : W3 m ρ c (Proc.devRef .tc main_v3) = (dstVec (m ((c : Thread nD τ).loc main_arg1))) :=
  (StableHlo.after_of_forall_not_mem (b := Proc.devRef .tc main_v3) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (dst_W2 m ρ c)
theorem dst_W4 : W4 m ρ c (Proc.devRef .tc main_v3) = (dstVec (m ((c : Thread nD τ).loc main_arg1))) :=
  (W4_of_ne m ρ c main_v3 (by decide)).trans (dst_W3 m ρ c)
theorem dst_W5 : W5 m ρ c (Proc.devRef .tc main_v3) = (dstVec (m ((c : Thread nD τ).loc main_arg1))) :=
  (StableHlo.after_of_forall_not_mem (b := Proc.devRef .tc main_v3) _ _ (List.forall_iff_forall_mem.mp (by
      simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (dst_W4 m ρ c)
theorem dst_W6 : W6 m ρ c (Proc.devRef .tc main_v3) = (dstVec (m ((c : Thread nD τ).loc main_arg1))) :=
  (W6_of_ne m ρ c main_v3 (by decide)).trans (dst_W5 m ρ c)
theorem dst_W7 : W7 m ρ c (Proc.devRef .tc main_v3) = (dstVec (m ((c : Thread nD τ).loc main_arg1))) :=
  (StableHlo.after_of_forall_not_mem (b := Proc.devRef .tc main_v3) _ _ (List.forall_iff_forall_mem.mp (by
      simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (dst_W6 m ρ c)
theorem dst_W8 : W8 m ρ c (Proc.devRef .tc main_v3) = (dstVec (m ((c : Thread nD τ).loc main_arg1))) :=
  (W8_of_ne m ρ c main_v3 (by decide)).trans (dst_W7 m ρ c)

theorem inv_W1 : W1 m ρ c (Proc.devRef .tc main_v12) = invCol (dstVec (m ((c : Thread nD τ).loc main_arg1))) := by
  show StableHlo.after hostOps0 (W0 m ρ c) (Proc.devRef .tc main_v12) = _
  after_results
  rfl
theorem inv_W2 : W2 m ρ c (Proc.devRef .tc main_v12) = invCol (dstVec (m ((c : Thread nD τ).loc main_arg1))) :=
  ((W2_arr m ρ c 1).trans (((dat0 (V1 m ρ) c).arrAt_in 1 rfl _).trans (A_eq0 (V1 m ρ) c 1))).trans (inv_W1 m ρ c)
theorem inv_W3 : W3 m ρ c (Proc.devRef .tc main_v12) = invCol (dstVec (m ((c : Thread nD τ).loc main_arg1))) :=
  (StableHlo.after_of_forall_not_mem (b := Proc.devRef .tc main_v12) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (inv_W2 m ρ c)
theorem inv_W4 : W4 m ρ c (Proc.devRef .tc main_v12) = invCol (dstVec (m ((c : Thread nD τ).loc main_arg1))) :=
  ((W4_arr m ρ c 1).trans (((dat1 (V3 m ρ) c).arrAt_in 1 rfl _).trans (A_eq1 (V3 m ρ) c 1))).trans (inv_W3 m ρ c)
theorem inv_W5 : W5 m ρ c (Proc.devRef .tc main_v12) = invCol (dstVec (m ((c : Thread nD τ).loc main_arg1))) :=
  (StableHlo.after_of_forall_not_mem (b := Proc.devRef .tc main_v12) _ _ (List.forall_iff_forall_mem.mp (by
      simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (inv_W4 m ρ c)
theorem inv_W6 : W6 m ρ c (Proc.devRef .tc main_v12) = invCol (dstVec (m ((c : Thread nD τ).loc main_arg1))) :=
  ((W6_arr m ρ c 1).trans (((dat2 (V5 m ρ) c).arrAt_in 1 rfl _).trans (A_eq2 (V5 m ρ) c 1))).trans (inv_W5 m ρ c)
theorem inv_W7 : W7 m ρ c (Proc.devRef .tc main_v12) = invCol (dstVec (m ((c : Thread nD τ).loc main_arg1))) :=
  (StableHlo.after_of_forall_not_mem (b := Proc.devRef .tc main_v12) _ _ (List.forall_iff_forall_mem.mp (by
      simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (inv_W6 m ρ c)
theorem inv_W8 : W8 m ρ c (Proc.devRef .tc main_v12) = invCol (dstVec (m ((c : Thread nD τ).loc main_arg1))) :=
  ((W8_arr m ρ c 1).trans (((dat3 (V7 m ρ) c).arrAt_in 1 rfl _).trans (A_eq3 (V7 m ρ) c 1))).trans (inv_W7 m ρ c)
theorem inv_W9 : W9 m ρ c (Proc.devRef .tc main_v12) = invCol (dstVec (m ((c : Thread nD τ).loc main_arg1))) :=
  (StableHlo.after_of_forall_not_mem (b := Proc.devRef .tc main_v12) _ _ (List.forall_iff_forall_mem.mp (by
      simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (inv_W8 m ρ c)

end Cert.Sage.KEdges

end
-- ==== Proof.LibMatDot.lean ====
/-
  The product of an m×k matrix by a k×n matrix, read at one entry, at the ideal values: both the vector unit's
  matrix product into a zero accumulator and the host's `dot_general` with the dimension numbers
  (contracting [1]×[0], no batch axis) are the sum over the contracted coordinate of the products of the entries,
  `∑ c, A (a, c) * B (c, b)`, whatever the element formats of the operands and whatever proof of well-formedness
  the record of dimension numbers carries. Also three broadcasts read at an entry: a column `[a, 1]` laid across
  `b` columns (the vector unit's and the host's), a vector of `n` entries laid along every row through a one-row
  matrix (the host's two-step form), and a scalar constant laid over a shape.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost
import Idealize.ShloMosaic.Lib.KernelVsHost

noncomputable section

open scoped BigOperators

namespace Cert.Lib.MatDot

open Idealize.ShloMosaic Idealize.ShloMosaic.ValueIdx

variable {m k n : Nat} {φ₁ φ₂ : FTy}

/-- The left operand's entry that output entry `(a, b)` meets at contraction position `c` is `(a, c)`. -/
theorem lhsIdx_eq (w : DotDims.WF ⟨2, ![m, k]⟩ ⟨2, ![k, n]⟩ ⟨2, ![m, n]⟩ [1] [0] [0] [1] [] [])
    (a : Fin m) (b : Fin n) (c : Fin k) :
    (⟨[1], [0], [0], [1], [], [], w⟩ : DotDims ⟨2, ![m, k]⟩ ⟨2, ![k, n]⟩ ⟨2, ![m, n]⟩).lhsIdx (ix2 a b)
      ((contrEquiv1 (⟨[1], [0], [0], [1], [], [], w⟩ : DotDims ⟨2, ![m, k]⟩ ⟨2, ![k, n]⟩ ⟨2, ![m, n]⟩) k rfl rfl).symm c) = ix2 a c := by
  have c2 := contrEquiv1_symm_val
    (⟨[1], [0], [0], [1], [], [], w⟩ : DotDims ⟨2, ![m, k]⟩ ⟨2, ![k, n]⟩ ⟨2, ![m, n]⟩) k rfl rfl c
  funext ax; apply Fin.ext
  match ax with
  | ⟨0, _⟩ => simp [DotDims.lhsIdx]; rfl
  | ⟨1, _⟩ => simp [DotDims.lhsIdx]; exact c2

/-- The right operand's entry there is `(c, b)`. -/
theorem rhsIdx_eq (w : DotDims.WF ⟨2, ![m, k]⟩ ⟨2, ![k, n]⟩ ⟨2, ![m, n]⟩ [1] [0] [0] [1] [] [])
    (a : Fin m) (b : Fin n) (c : Fin k) :
    (⟨[1], [0], [0], [1], [], [], w⟩ : DotDims ⟨2, ![m, k]⟩ ⟨2, ![k, n]⟩ ⟨2, ![m, n]⟩).rhsIdx (ix2 a b)
      ((contrEquiv1 (⟨[1], [0], [0], [1], [], [], w⟩ : DotDims ⟨2, ![m, k]⟩ ⟨2, ![k, n]⟩ ⟨2, ![m, n]⟩) k rfl rfl).symm c) = ix2 c b := by
  have c2 := contrEquiv1_symm_val
    (⟨[1], [0], [0], [1], [], [], w⟩ : DotDims ⟨2, ![m, k]⟩ ⟨2, ![k, n]⟩ ⟨2, ![m, n]⟩) k rfl rfl c
  funext ax; apply Fin.ext
  match ax with
  | ⟨0, _⟩ => simp [DotDims.rhsIdx]; exact c2
  | ⟨1, _⟩ => simp [DotDims.rhsIdx]; rfl

/-- The host's matrix product at entry `(a, b)` is `∑ c, A (a, c) * B (c, b)`. -/
theorem dotGeneral_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    Host.dotGeneral (⟨[1], [0], [0], [1], [], [], w⟩ : DotDims ⟨2, ![m, k]⟩ ⟨2, ![k, n]⟩ ⟨2, ![m, n]⟩) prec A B (ix2 a b)
      = ∑ c : Fin k, A (ix2 a c) * B (ix2 c b) := by
  show FloatOps.dotGeneral _ prec _ A B (ix2 a b) = _
  rw [Ideal.dotGeneral_apply, ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  rw [lhsIdx_eq w a b c, rhsIdx_eq w a b c]

/-- The vector unit's matrix product into the zero accumulator at entry `(a, b)` is the same sum. -/
theorem matmul_zero_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) (ix2 a b)
      = ∑ c : Fin k, A (ix2 a c) * B (ix2 c b) := by
  show FloatOps.matmul _ prec A B (constant (F := Ideal) ⟨2, ![m, n]⟩ .f32 0x00000000#32) (ix2 a b) = _
  rw [Ideal.matmul_constant_zero_apply, ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  rw [lhsIdx_eq w a b c, rhsIdx_eq w a b c]

variable {α : Type}

/-- A column `[a, 1]` laid across `b` columns by the vector unit's broadcast reads, at `(p, c)`, the column at `p`. -/
theorem broadcastTo_col_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a column `[a, 1]` along axes `[0, 1]` reads the same. -/
theorem broadcastInDim_col_apply {a b : ℕ} (h : (⟨2, ![a, 1]⟩ : Shape).BroadcastsInDim ⟨2, ![a, b]⟩ ![0, 1])
    (v : (⟨2, ![a, 1]⟩ : Shape).Idx → α) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- A vector of `n` entries made a one-row matrix along axis 1 by the host reads, at `(u, t)`, the vector at `t`. -/
theorem broadcastInDim_vec_oneRow_apply {n : ℕ} (h : (⟨1, ![n]⟩ : Shape).BroadcastsInDim ⟨2, ![1, n]⟩ ![1])
    (x : (⟨1, ![n]⟩ : Shape).Idx → α) (u : Fin 1) (t : Fin n) :
    broadcastInDim ⟨2, ![1, n]⟩ ![1] h x (ix2 u t) = x (ix1 t) := by
  refine broadcastInDim_apply ![1] h x (ix2 u t) (ix1 t) fun ax => ?_
  match ax with
  | ⟨0, _⟩ =>
    show t.val = if n = 1 then 0 else t.val
    split
    · have := t.isLt; omega
    · rfl

/-- So the host's two-step row broadcast (a vector to one row, the row down `m` rows) reads, at `(r, t)`, the vector at `t`. -/
theorem broadcastInDim_vec_rows_apply {m n : ℕ} (h1 : (⟨1, ![n]⟩ : Shape).BroadcastsInDim ⟨2, ![1, n]⟩ ![1])
    (h2 : (⟨2, ![1, n]⟩ : Shape).BroadcastsInDim ⟨2, ![m, n]⟩ ![0, 1]) (x : (⟨1, ![n]⟩ : Shape).Idx → α) (r : Fin m) (t : Fin n) :
    broadcastInDim ⟨2, ![m, n]⟩ ![0, 1] h2 (broadcastInDim ⟨2, ![1, n]⟩ ![1] h1 x) (ix2 r t) = x (ix1 t) :=
  (Idealize.ShloMosaic.broadcastInDim_oneRow_apply h2 _ r t).trans (broadcastInDim_vec_oneRow_apply h1 x 0 t)

/-- The vector unit's form of the same: the vector cast to one row, the row laid down `m` rows. -/
theorem broadcastTo_vec_rows_apply {m n : ℕ} (h1 : (⟨1, ![n]⟩ : Shape).ShapeCasts ⟨2, ![1, n]⟩)
    (h2 : (⟨2, ![1, n]⟩ : Shape).Broadcasts ⟨2, ![m, n]⟩) (x : (⟨1, ![n]⟩ : Shape).Idx → α) (r : Fin m) (t : Fin n) :
    broadcastTo ⟨2, ![m, n]⟩ (shapeCast ⟨2, ![1, n]⟩ x h1) h2 (ix2 r t) = x (ix1 t) :=
  (broadcastTo_1b_ab_apply _ h2 r t).trans (shapeCast_a_1a_apply x h1 0 t)

end Cert.Lib.MatDot

end
-- ==== Proof.Pay.lean ====
/-
  What one grid point's body computes, entry by entry, on the extended reals.

  Each of the five bodies loads a block of 5000 rows of the neighbour sums, of the per-node factor column and of the
  node features, the two weight matrices and the bias row whole, and stores

      act( (sums · factor) × Wl  +  features × Wr  +  bias ),

  where the two matrix products run on the matrix unit into a zero accumulator after a change of float format (the
  identity on the extended reals), the factor column is laid across the columns and the bias row down the rows.
  Read at row `a` and column `b` of the block this is the layer function of `Spec` on the block's 5000 rows:
  the maximum with zero for the four hidden layers, the logistic function for the last.
-/
import proofs.«168755_j21887153341148_1_alg».proof.Proof.Gen.KernelIdeal.Skeleton
import proofs.«168755_j21887153341148_1_alg».proof.Proof.LibMatDot
import proofs.«168755_j21887153341148_1_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.Sage.Pay

open Idealize.ShloMosaic Idealize.ShloMosaic.ValueIdx Cert.KernelIdeal Cert.KernelIdeal.Gen Cert.Sage

/-- The matrix unit's product of a 5000 by 13 block with a 13 by 64 matrix into zeros, at an entry. -/
theorem mm13x64 (A : FVec Ideal S5000x13 .bf16) (B : FVec Ideal S13x64 .bf16) (a : Fin 5000) (b : Fin 64) :
    matmul dot_S5000x13_S13x64_S5000x64_1_0_0_1_n_n none A B (constant (F := Ideal) S5000x64 .f32 0x00000000#32) (ix2 a b)
      = ∑ c : Fin 13, A (ix2 a c) * B (ix2 c b) :=
  Cert.Lib.MatDot.matmul_zero_apply dot_S5000x13_S13x64_S5000x64_1_0_0_1_n_n.wf none A B a b

/-- The matrix unit's product of a 5000 by 64 block with a 64 by 64 matrix into zeros, at an entry. -/
theorem mm64x64 (A : FVec Ideal S5000x64 .bf16) (B : FVec Ideal S64x64 .bf16) (a : Fin 5000) (b : Fin 64) :
    matmul dot_S5000x64_S64x64_S5000x64_1_0_0_1_n_n none A B (constant (F := Ideal) S5000x64 .f32 0x00000000#32) (ix2 a b)
      = ∑ c : Fin 64, A (ix2 a c) * B (ix2 c b) :=
  Cert.Lib.MatDot.matmul_zero_apply dot_S5000x64_S64x64_S5000x64_1_0_0_1_n_n.wf none A B a b

/-- The matrix unit's product of a 5000 by 64 block with a 64 by 1 matrix into zeros, at an entry. -/
theorem mm64x1 (A : FVec Ideal S5000x64 .bf16) (B : FVec Ideal S64x1 .bf16) (a : Fin 5000) (b : Fin 1) :
    matmul dot_S5000x64_S64x1_S5000x1_1_0_0_1_n_n none A B (constant (F := Ideal) S5000x1 .f32 0x00000000#32) (ix2 a b)
      = ∑ c : Fin 64, A (ix2 a c) * B (ix2 c b) :=
  Cert.Lib.MatDot.matmul_zero_apply dot_S5000x64_S64x1_S5000x1_1_0_0_1_n_n.wf none A B a b

/-- The first layer's body (13 input features, 64 output features) at an entry of its block. -/
theorem pay0_apply (x0 : Vec Ideal S5000x13 .f32) (x1 : Vec Ideal S5000x1 .f32) (x2 : Vec Ideal S5000x13 .f32)
    (x3 x4 : Vec Ideal S13x64 .f32) (x5 : Vec Ideal S1x64 .f32) (a : Fin 5000) (b : Fin 64) :
    k0_pay1 (F := Ideal) x0 x1 x2 x3 x4 x5 (ix2 a b) = max (preAt x0 x1 x2 x3 x4 x5 a b) 0 := by
  unfold k0_pay1 preAt
  rw [maximumf_apply, addf_apply, addf_apply, mm13x64, mm13x64]
  simp only [shapeCast_self]
  rw [broadcastTo_1b_ab_apply]
  simp only [truncf_apply, mulf_apply, Cert.Lib.MatDot.broadcastTo_col_apply]
  rw [broadcast_apply, Ideal.ofBits_def, Ideal.ofBits_zero_f32]

/-- The second layer's body (64 features in and out) at an entry of its block. -/
theorem pay1_apply (x0 : Vec Ideal S5000x64 .f32) (x1 : Vec Ideal S5000x1 .f32) (x2 : Vec Ideal S5000x64 .f32)
    (x3 x4 : Vec Ideal S64x64 .f32) (x5 : Vec Ideal S1x64 .f32) (a : Fin 5000) (b : Fin 64) :
    k1_pay1 (F := Ideal) x0 x1 x2 x3 x4 x5 (ix2 a b) = max (preAt x0 x1 x2 x3 x4 x5 a b) 0 := by
  unfold k1_pay1 preAt
  rw [maximumf_apply, addf_apply, addf_apply, mm64x64, mm64x64]
  simp only [shapeCast_self]
  rw [broadcastTo_1b_ab_apply]
  simp only [truncf_apply, mulf_apply, Cert.Lib.MatDot.broadcastTo_col_apply]
  rw [broadcast_apply, Ideal.ofBits_def, Ideal.ofBits_zero_f32]

/-- The third and fourth layers' bodies are the second layer's operations. -/
theorem pay2_apply (x0 : Vec Ideal S5000x64 .f32) (x1 : Vec Ideal S5000x1 .f32) (x2 : Vec Ideal S5000x64 .f32)
    (x3 x4 : Vec Ideal S64x64 .f32) (x5 : Vec Ideal S1x64 .f32) (a : Fin 5000) (b : Fin 64) :
    k2_pay1 (F := Ideal) x0 x1 x2 x3 x4 x5 (ix2 a b) = max (preAt x0 x1 x2 x3 x4 x5 a b) 0 :=
  pay1_apply x0 x1 x2 x3 x4 x5 a b

theorem pay3_apply (x0 : Vec Ideal S5000x64 .f32) (x1 : Vec Ideal S5000x1 .f32) (x2 : Vec Ideal S5000x64 .f32)
    (x3 x4 : Vec Ideal S64x64 .f32) (x5 : Vec Ideal S1x64 .f32) (a : Fin 5000) (b : Fin 64) :
    k3_pay1 (F := Ideal) x0 x1 x2 x3 x4 x5 (ix2 a b) = max (preAt x0 x1 x2 x3 x4 x5 a b) 0 :=
  pay1_apply x0 x1 x2 x3 x4 x5 a b

/-- The last layer's body (64 features in, one out, the logistic function) at an entry of its block. -/
theorem pay4_apply (x0 : Vec Ideal S5000x64 .f32) (x1 : Vec Ideal S5000x1 .f32) (x2 : Vec Ideal S5000x64 .f32)
    (x3 x4 : Vec Ideal S64x1 .f32) (x5 : Vec Ideal S1x1 .f32) (a : Fin 5000) (b : Fin 1) :
    k4_pay1 (F := Ideal) x0 x1 x2 x3 x4 x5 (ix2 a b) = Ideal.logistic (preAt x0 x1 x2 x3 x4 x5 a b) := by
  unfold k4_pay1 preAt
  rw [show ∀ (v : FVec Ideal S5000x1 .f32) (i : S5000x1.Idx), logistic v i = Ideal.logistic (v i) from fun _ _ => rfl,
    addf_apply, addf_apply, mm64x1, mm64x1]
  simp only [shapeCast_self]
  rw [broadcastTo_1b_ab_apply]
  simp only [truncf_apply, mulf_apply, Cert.Lib.MatDot.broadcastTo_col_apply]

end Cert.Sage.Pay

end
-- ==== Proof.SpecCongr.lean ====
/-
  The value before the activation depends on one row of the row-indexed arrays and one column of the weights.

  If two families of arrays agree along row `n` of the first and row `n'` of the second (for the neighbour sums, the
  factor and the node features) and along column `j`, `j'` (for the weight matrices and the bias row), the values
  before the activation at (n, j) and at (n', j') are equal. This is what lets a block of rows stand for the same rows of
  the whole array.
-/
import proofs.«168755_j21887153341148_1_alg».proof.Proof.Spec

noncomputable section

open scoped BigOperators

namespace Cert.Sage

open Idealize.ShloMosaic Idealize.ShloMosaic.ValueIdx

theorem preAt_eq_of {N N' K M : Nat} (A : Mat N K) (I : Mat N 1) (H : Mat N K) (Wl Wr : Mat K M) (B : Mat 1 M)
    (A' : Mat N' K) (I' : Mat N' 1) (H' : Mat N' K) (Wl' Wr' : Mat K M) (B' : Mat 1 M)
    (n : Fin N) (n' : Fin N') (j j' : Fin M)
    (hA : ∀ q : Fin K, A (ix2 n q) = A' (ix2 n' q)) (hI : I (ix2 n (0 : Fin 1)) = I' (ix2 n' (0 : Fin 1)))
    (hH : ∀ q : Fin K, H (ix2 n q) = H' (ix2 n' q)) (hWl : ∀ q : Fin K, Wl (ix2 q j) = Wl' (ix2 q j'))
    (hWr : ∀ q : Fin K, Wr (ix2 q j) = Wr' (ix2 q j')) (hB : B (ix2 (0 : Fin 1) j) = B' (ix2 (0 : Fin 1) j')) :
    preAt A I H Wl Wr B n j = preAt A' I' H' Wl' Wr' B' n' j' := by
  unfold preAt
  simp only [hA, hI, hH, hWl, hWr, hB]

end Cert.Sage

end
-- ==== Proof.Region0.lean ====
/-
  Region 0: what the pipeline leaves in its output array, as one function of the arrays the region finds.

  The grid has 20 points; point `t` works on rows 5000·t … 5000·t + 4999 of the neighbour sums, the factor column and
  the node features, and on the whole of the two weight matrices and the bias row, and writes rows 5000·t … of the
  output. Entry (a, b) of what it writes is the layer function on those 5000 rows, which depends on row `a` of the
  row blocks only: so it is entry (5000·t + a, b) of the layer function on the whole arrays. The 20 row blocks cover
  the output array, which therefore ends as the layer function of the whole arrays.
-/
import proofs.«168755_j21887153341148_1_alg».proof.Proof.Gen.KernelIdeal.Frame
import proofs.«168755_j21887153341148_1_alg».proof.Proof.Pay
import proofs.«168755_j21887153341148_1_alg».proof.Proof.Spec
import proofs.«168755_j21887153341148_1_alg».proof.Proof.SpecCongr
import Idealize.ShloMosaic.Lib.Pipeline.Value
import Idealize.ShloMosaic.Lib.ValueIdx

set_option maxRecDepth 16384

noncomputable section

open scoped BigOperators

namespace Cert.Sage.Region0

open Idealize.ShloMosaic Idealize.ShloMosaic.TcCoe Idealize.ShloMosaic.ValueIdx Idealize.SL.Sem
open Cert.KernelIdeal Cert.KernelIdeal.Gen Cert.Sage
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The printed index maps over the grid: the three row-blocked inputs move with the output's row block, every
    other block index is zero, and the output's row block index is below 20. -/
theorem index_facts : ∀ t : Fin cfg0.N,
    win0_0.index t (0 : Fin 2) = win0_6.index t (0 : Fin 2) ∧ win0_0.index t (1 : Fin 2) = 0
    ∧ win0_1.index t (0 : Fin 2) = win0_6.index t (0 : Fin 2) ∧ win0_1.index t (1 : Fin 2) = 0
    ∧ win0_2.index t (0 : Fin 2) = win0_6.index t (0 : Fin 2) ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (1 : Fin 2) = 0 ∧ win0_6.index t (0 : Fin 2) ≤ 19 :=
  (by decide +kernel : ∀ t : Fin grid0.N, _)

/-- Every row block of the output is some point's. -/
theorem index_onto : ∀ q : Fin 20, ∃ t : Fin cfg0.N, win0_6.index t = ![q.val, 0] :=
  (by decide +kernel : ∀ q : Fin 20, ∃ t : Fin grid0.N, win0_6.index t = ![q.val, 0])

/-- An input window's block at a point is its array read where the block sits. -/
theorem blk0 (c : Dev nD) (t : Fin cfg0.N) (y : S5000x13.Idx) :
    iblk0 V c 0 t y = V c main_v22 (((cfg0.win 0).blk t).view.emb y) := rfl
theorem blk1 (c : Dev nD) (t : Fin cfg0.N) (y : S5000x1.Idx) :
    iblk0 V c 1 t y = V c main_v12 (((cfg0.win 1).blk t).view.emb y) := rfl
theorem blk2 (c : Dev nD) (t : Fin cfg0.N) (y : S5000x13.Idx) :
    iblk0 V c 2 t y = V c main_arg0 (((cfg0.win 2).blk t).view.emb y) := rfl
theorem blk3 (c : Dev nD) (t : Fin cfg0.N) (y : S13x64.Idx) :
    iblk0 V c 3 t y = V c main_arg2 (((cfg0.win 3).blk t).view.emb y) := rfl
theorem blk4 (c : Dev nD) (t : Fin cfg0.N) (y : S13x64.Idx) :
    iblk0 V c 4 t y = V c main_arg3 (((cfg0.win 4).blk t).view.emb y) := rfl
theorem blk5 (c : Dev nD) (t : Fin cfg0.N) (y : S1x64.Idx) :
    iblk0 V c 5 t y = V c main_v23 (((cfg0.win 5).blk t).view.emb y) := rfl

set_option maxHeartbeats 1000000 in
/-- What point `t` writes back is its row block of the layer function of the whole arrays. -/
theorem flushed_eq (c : Dev nD) (t : Fin cfg0.N) :
    (dat0 V c).flushed 6 t = ((cfg0.win 6).blk t).view.read (Elt Ideal)
      (layerRelu (V c main_v22) (V c main_v12) (V c main_arg0) (V c main_arg2) (V c main_arg3) (V c main_v23)) := by
  show (cfg0.win 6).cut (grid0.coords t) ((dat0 V c).after 6 t) = _
  rw [after0_6]
  unfold out0_6
  rw [View.canon_unit_zero origin]
  simp only [View.ld_unit_zero (S := S5000x13) origin, View.ld_unit_zero (S := S5000x1) origin,
    View.ld_unit_zero (S := S13x64) origin, View.ld_unit_zero (S := S1x64) origin]
  obtain ⟨e0, e1, e2, e3, e4, e5, e6, e7, e8, e9, e10, e11, e12, e13⟩ := index_facts t
  funext j
  obtain ⟨a, b, rfl⟩ : ∃ (a : Fin 5000) (b : Fin 64), j = ix2 a b := ⟨j 0, j 1, eq_ix2 j⟩
  show k0_pay1 (iblk0 V c 0 t) (iblk0 V c 1 t) (iblk0 V c 2 t) (iblk0 V c 3 t) (iblk0 V c 4 t) (iblk0 V c 5 t) (ix2 a b)
      = layerRelu (V c main_v22) (V c main_v12) (V c main_arg0) (V c main_arg2) (V c main_arg3) (V c main_v23) (((cfg0.win 6).blk t).view.emb (ix2 a b))
  refine (Pay.pay0_apply (iblk0 V c 0 t) (iblk0 V c 1 t) (iblk0 V c 2 t) (iblk0 V c 3 t) (iblk0 V c 4 t) (iblk0 V c 5 t) a b).trans ?_
  show max (preAt (iblk0 V c 0 t) (iblk0 V c 1 t) (iblk0 V c 2 t) (iblk0 V c 3 t) (iblk0 V c 4 t) (iblk0 V c 5 t) a b) 0
      = max (preAt (V c main_v22) (V c main_v12) (V c main_arg0) (V c main_arg2) (V c main_arg3) (V c main_v23) ((((cfg0.win 6).blk t).view.emb (ix2 a b)) 0) ((((cfg0.win 6).blk t).view.emb (ix2 a b)) 1)) 0
  have hA : ∀ q : Fin 13, (((cfg0.win 0).blk t).view.emb (ix2 a q)) = ix2 ((((cfg0.win 6).blk t).view.emb (ix2 a b)) 0) q := by
    intro q; funext ax; apply Fin.ext
    match ax with
    | ⟨0, _⟩ => show win0_0.index t (0 : Fin 2) * 5000 + 1 * a.val = win0_6.index t (0 : Fin 2) * 5000 + 1 * a.val; omega
    | ⟨1, _⟩ => show win0_0.index t (1 : Fin 2) * 13 + 1 * q.val = q.val; omega
  have hI : (((cfg0.win 1).blk t).view.emb (ix2 a (0 : Fin 1))) = ix2 ((((cfg0.win 6).blk t).view.emb (ix2 a b)) 0) (0 : Fin 1) := by
    funext ax; apply Fin.ext
    match ax with
    | ⟨0, _⟩ => show win0_1.index t (0 : Fin 2) * 5000 + 1 * a.val = win0_6.index t (0 : Fin 2) * 5000 + 1 * a.val; omega
    | ⟨1, _⟩ => show win0_1.index t (1 : Fin 2) * 1 + 1 * 0 = 0; omega
  have hH : ∀ q : Fin 13, (((cfg0.win 2).blk t).view.emb (ix2 a q)) = ix2 ((((cfg0.win 6).blk t).view.emb (ix2 a b)) 0) q := by
    intro q; funext ax; apply Fin.ext
    match ax with
    | ⟨0, _⟩ => show win0_2.index t (0 : Fin 2) * 5000 + 1 * a.val = win0_6.index t (0 : Fin 2) * 5000 + 1 * a.val; omega
    | ⟨1, _⟩ => show win0_2.index t (1 : Fin 2) * 13 + 1 * q.val = q.val; omega
  have hWl : ∀ q : Fin 13, (((cfg0.win 3).blk t).view.emb (ix2 q b)) = ix2 q ((((cfg0.win 6).blk t).view.emb (ix2 a b)) 1) := by
    intro q; funext ax; apply Fin.ext
    match ax with
    | ⟨0, _⟩ => show win0_3.index t (0 : Fin 2) * 13 + 1 * q.val = q.val; omega
    | ⟨1, _⟩ => show win0_3.index t (1 : Fin 2) * 64 + 1 * b.val = win0_6.index t (1 : Fin 2) * 64 + 1 * b.val; omega
  have hWr : ∀ q : Fin 13, (((cfg0.win 4).blk t).view.emb (ix2 q b)) = ix2 q ((((cfg0.win 6).blk t).view.emb (ix2 a b)) 1) := by
    intro q; funext ax; apply Fin.ext
    match ax with
    | ⟨0, _⟩ => show win0_4.index t (0 : Fin 2) * 13 + 1 * q.val = q.val; omega
    | ⟨1, _⟩ => show win0_4.index t (1 : Fin 2) * 64 + 1 * b.val = win0_6.index t (1 : Fin 2) * 64 + 1 * b.val; omega
  have hB : (((cfg0.win 5).blk t).view.emb (ix2 (0 : Fin 1) b)) = ix2 (0 : Fin 1) ((((cfg0.win 6).blk t).view.emb (ix2 a b)) 1) := by
    funext ax; apply Fin.ext
    match ax with
    | ⟨0, _⟩ => show win0_5.index t (0 : Fin 2) * 1 + 1 * 0 = 0; omega
    | ⟨1, _⟩ => show win0_5.index t (1 : Fin 2) * 64 + 1 * b.val = win0_6.index t (1 : Fin 2) * 64 + 1 * b.val; omega
  exact congrArg (fun z => max (z) 0)
    (preAt_eq_of _ _ _ _ _ _ _ _ _ _ _ _ a ((((cfg0.win 6).blk t).view.emb (ix2 a b)) 0) b ((((cfg0.win 6).blk t).view.emb (ix2 a b)) 1)
      (fun q => (blk0 V c t _).trans (congrArg (V c main_v22) (hA q)))
      ((blk1 V c t _).trans (congrArg (V c main_v12) hI))
      (fun q => (blk2 V c t _).trans (congrArg (V c main_arg0) (hH q)))
      (fun q => (blk3 V c t _).trans (congrArg (V c main_arg2) (hWl q)))
      (fun q => (blk4 V c t _).trans (congrArg (V c main_arg3) (hWr q)))
      ((blk5 V c t _).trans (congrArg (V c main_v23) hB)))

/-- An index of the output array is in point `t`'s block iff each coordinate is in the block's range. -/
theorem mem_blk (t : Fin cfg0.N) (i : S100000x64.Idx) :
    i ∈ ((cfg0.win 6).blk t).view.set ↔ ∀ a : Fin 2, win0_6.index t a * S5000x64.size a ≤ (i a).val
      ∧ (i a).val < win0_6.index t a * S5000x64.size a + S5000x64.size a := by
  show i ∈ ((View.whole main_v24).slice (win0_6.rect t)).set ↔ _
  rw [View.set_slice_whole, Rect.mem_set_unit]
  exact Iff.rfl

/-- The output array after the region: the layer function of the arrays the region finds. -/
theorem final (c : Dev nD) :
    (dat0 V c).arrAt 6 cfg0.N = layerRelu (V c main_v22) (V c main_v12) (V c main_arg0) (V c main_arg2) (V c main_arg3) (V c main_v23) :=
  (dat0 V c).arrAt_eq_of_cover 6 _ (fun t _ => flushed_eq V c t) (fun i => by
    have hi0 : (i 0).val < 100000 := (i 0).isLt
    have hi1 : (i 1).val < 64 := (i 1).isLt
    obtain ⟨t, ht⟩ := index_onto ⟨(i 0).val / 5000, by omega⟩
    have q0 : win0_6.index t (0 : Fin 2) = (i 0).val / 5000 := congrFun ht 0
    have q1 : win0_6.index t (1 : Fin 2) = 0 := congrFun ht 1
    refine ⟨t, flush0_6 t, ?_⟩
    rw [mem_blk]
    intro ax
    match ax with
    | ⟨0, _⟩ => show win0_6.index t (0 : Fin 2) * 5000 ≤ (i 0).val ∧ (i 0).val < win0_6.index t (0 : Fin 2) * 5000 + 5000; omega
    | ⟨1, _⟩ => show win0_6.index t (1 : Fin 2) * 64 ≤ (i 1).val ∧ (i 1).val < win0_6.index t (1 : Fin 2) * 64 + 64; omega)

end Cert.Sage.Region0

end
-- ==== Proof.Region1.lean ====
/-
  Region 1: what the pipeline leaves in its output array, as one function of the arrays the region finds.

  The grid has 20 points; point `t` works on rows 5000·t … 5000·t + 4999 of the neighbour sums, the factor column and
  the node features, and on the whole of the two weight matrices and the bias row, and writes rows 5000·t … of the
  output. Entry (a, b) of what it writes is the layer function on those 5000 rows, which depends on row `a` of the
  row blocks only: so it is entry (5000·t + a, b) of the layer function on the whole arrays. The 20 row blocks cover
  the output array, which therefore ends as the layer function of the whole arrays.
-/
import proofs.«168755_j21887153341148_1_alg».proof.Proof.Gen.KernelIdeal.Frame
import proofs.«168755_j21887153341148_1_alg».proof.Proof.Pay
import proofs.«168755_j21887153341148_1_alg».proof.Proof.Spec
import proofs.«168755_j21887153341148_1_alg».proof.Proof.SpecCongr
import Idealize.ShloMosaic.Lib.Pipeline.Value
import Idealize.ShloMosaic.Lib.ValueIdx

set_option maxRecDepth 16384

noncomputable section

open scoped BigOperators

namespace Cert.Sage.Region1

open Idealize.ShloMosaic Idealize.ShloMosaic.TcCoe Idealize.ShloMosaic.ValueIdx Idealize.SL.Sem
open Cert.KernelIdeal Cert.KernelIdeal.Gen Cert.Sage
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The printed index maps over the grid: the three row-blocked inputs move with the output's row block, every
    other block index is zero, and the output's row block index is below 20. -/
theorem index_facts : ∀ t : Fin cfg1.N,
    win1_0.index t (0 : Fin 2) = win1_6.index t (0 : Fin 2) ∧ win1_0.index t (1 : Fin 2) = 0
    ∧ win1_1.index t (0 : Fin 2) = win1_6.index t (0 : Fin 2) ∧ win1_1.index t (1 : Fin 2) = 0
    ∧ win1_2.index t (0 : Fin 2) = win1_6.index t (0 : Fin 2) ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (1 : Fin 2) = 0 ∧ win1_6.index t (0 : Fin 2) ≤ 19 :=
  (by decide +kernel : ∀ t : Fin grid1.N, _)

/-- Every row block of the output is some point's. -/
theorem index_onto : ∀ q : Fin 20, ∃ t : Fin cfg1.N, win1_6.index t = ![q.val, 0] :=
  (by decide +kernel : ∀ q : Fin 20, ∃ t : Fin grid1.N, win1_6.index t = ![q.val, 0])

/-- An input window's block at a point is its array read where the block sits. -/
theorem blk0 (c : Dev nD) (t : Fin cfg1.N) (y : S5000x64.Idx) :
    iblk1 V c 0 t y = V c main_v34 (((cfg1.win 0).blk t).view.emb y) := rfl
theorem blk1 (c : Dev nD) (t : Fin cfg1.N) (y : S5000x1.Idx) :
    iblk1 V c 1 t y = V c main_v12 (((cfg1.win 1).blk t).view.emb y) := rfl
theorem blk2 (c : Dev nD) (t : Fin cfg1.N) (y : S5000x64.Idx) :
    iblk1 V c 2 t y = V c main_v24 (((cfg1.win 2).blk t).view.emb y) := rfl
theorem blk3 (c : Dev nD) (t : Fin cfg1.N) (y : S64x64.Idx) :
    iblk1 V c 3 t y = V c main_arg5 (((cfg1.win 3).blk t).view.emb y) := rfl
theorem blk4 (c : Dev nD) (t : Fin cfg1.N) (y : S64x64.Idx) :
    iblk1 V c 4 t y = V c main_arg6 (((cfg1.win 4).blk t).view.emb y) := rfl
theorem blk5 (c : Dev nD) (t : Fin cfg1.N) (y : S1x64.Idx) :
    iblk1 V c 5 t y = V c main_v35 (((cfg1.win 5).blk t).view.emb y) := rfl

set_option maxHeartbeats 1000000 in
/-- What point `t` writes back is its row block of the layer function of the whole arrays. -/
theorem flushed_eq (c : Dev nD) (t : Fin cfg1.N) :
    (dat1 V c).flushed 6 t = ((cfg1.win 6).blk t).view.read (Elt Ideal)
      (layerRelu (V c main_v34) (V c main_v12) (V c main_v24) (V c main_arg5) (V c main_arg6) (V c main_v35)) := by
  show (cfg1.win 6).cut (grid1.coords t) ((dat1 V c).after 6 t) = _
  rw [after1_6]
  unfold out1_6
  rw [View.canon_unit_zero origin]
  simp only [View.ld_unit_zero (S := S5000x64) origin, View.ld_unit_zero (S := S5000x1) origin,
    View.ld_unit_zero (S := S64x64) origin, View.ld_unit_zero (S := S1x64) origin]
  obtain ⟨e0, e1, e2, e3, e4, e5, e6, e7, e8, e9, e10, e11, e12, e13⟩ := index_facts t
  funext j
  obtain ⟨a, b, rfl⟩ : ∃ (a : Fin 5000) (b : Fin 64), j = ix2 a b := ⟨j 0, j 1, eq_ix2 j⟩
  show k1_pay1 (iblk1 V c 0 t) (iblk1 V c 1 t) (iblk1 V c 2 t) (iblk1 V c 3 t) (iblk1 V c 4 t) (iblk1 V c 5 t) (ix2 a b)
      = layerRelu (V c main_v34) (V c main_v12) (V c main_v24) (V c main_arg5) (V c main_arg6) (V c main_v35) (((cfg1.win 6).blk t).view.emb (ix2 a b))
  refine (Pay.pay1_apply (iblk1 V c 0 t) (iblk1 V c 1 t) (iblk1 V c 2 t) (iblk1 V c 3 t) (iblk1 V c 4 t) (iblk1 V c 5 t) a b).trans ?_
  show max (preAt (iblk1 V c 0 t) (iblk1 V c 1 t) (iblk1 V c 2 t) (iblk1 V c 3 t) (iblk1 V c 4 t) (iblk1 V c 5 t) a b) 0
      = max (preAt (V c main_v34) (V c main_v12) (V c main_v24) (V c main_arg5) (V c main_arg6) (V c main_v35) ((((cfg1.win 6).blk t).view.emb (ix2 a b)) 0) ((((cfg1.win 6).blk t).view.emb (ix2 a b)) 1)) 0
  have hA : ∀ q : Fin 64, (((cfg1.win 0).blk t).view.emb (ix2 a q)) = ix2 ((((cfg1.win 6).blk t).view.emb (ix2 a b)) 0) q := by
    intro q; funext ax; apply Fin.ext
    match ax with
    | ⟨0, _⟩ => show win1_0.index t (0 : Fin 2) * 5000 + 1 * a.val = win1_6.index t (0 : Fin 2) * 5000 + 1 * a.val; omega
    | ⟨1, _⟩ => show win1_0.index t (1 : Fin 2) * 64 + 1 * q.val = q.val; omega
  have hI : (((cfg1.win 1).blk t).view.emb (ix2 a (0 : Fin 1))) = ix2 ((((cfg1.win 6).blk t).view.emb (ix2 a b)) 0) (0 : Fin 1) := by
    funext ax; apply Fin.ext
    match ax with
    | ⟨0, _⟩ => show win1_1.index t (0 : Fin 2) * 5000 + 1 * a.val = win1_6.index t (0 : Fin 2) * 5000 + 1 * a.val; omega
    | ⟨1, _⟩ => show win1_1.index t (1 : Fin 2) * 1 + 1 * 0 = 0; omega
  have hH : ∀ q : Fin 64, (((cfg1.win 2).blk t).view.emb (ix2 a q)) = ix2 ((((cfg1.win 6).blk t).view.emb (ix2 a b)) 0) q := by
    intro q; funext ax; apply Fin.ext
    match ax with
    | ⟨0, _⟩ => show win1_2.index t (0 : Fin 2) * 5000 + 1 * a.val = win1_6.index t (0 : Fin 2) * 5000 + 1 * a.val; omega
    | ⟨1, _⟩ => show win1_2.index t (1 : Fin 2) * 64 + 1 * q.val = q.val; omega
  have hWl : ∀ q : Fin 64, (((cfg1.win 3).blk t).view.emb (ix2 q b)) = ix2 q ((((cfg1.win 6).blk t).view.emb (ix2 a b)) 1) := by
    intro q; funext ax; apply Fin.ext
    match ax with
    | ⟨0, _⟩ => show win1_3.index t (0 : Fin 2) * 64 + 1 * q.val = q.val; omega
    | ⟨1, _⟩ => show win1_3.index t (1 : Fin 2) * 64 + 1 * b.val = win1_6.index t (1 : Fin 2) * 64 + 1 * b.val; omega
  have hWr : ∀ q : Fin 64, (((cfg1.win 4).blk t).view.emb (ix2 q b)) = ix2 q ((((cfg1.win 6).blk t).view.emb (ix2 a b)) 1) := by
    intro q; funext ax; apply Fin.ext
    match ax with
    | ⟨0, _⟩ => show win1_4.index t (0 : Fin 2) * 64 + 1 * q.val = q.val; omega
    | ⟨1, _⟩ => show win1_4.index t (1 : Fin 2) * 64 + 1 * b.val = win1_6.index t (1 : Fin 2) * 64 + 1 * b.val; omega
  have hB : (((cfg1.win 5).blk t).view.emb (ix2 (0 : Fin 1) b)) = ix2 (0 : Fin 1) ((((cfg1.win 6).blk t).view.emb (ix2 a b)) 1) := by
    funext ax; apply Fin.ext
    match ax with
    | ⟨0, _⟩ => show win1_5.index t (0 : Fin 2) * 1 + 1 * 0 = 0; omega
    | ⟨1, _⟩ => show win1_5.index t (1 : Fin 2) * 64 + 1 * b.val = win1_6.index t (1 : Fin 2) * 64 + 1 * b.val; omega
  exact congrArg (fun z => max (z) 0)
    (preAt_eq_of _ _ _ _ _ _ _ _ _ _ _ _ a ((((cfg1.win 6).blk t).view.emb (ix2 a b)) 0) b ((((cfg1.win 6).blk t).view.emb (ix2 a b)) 1)
      (fun q => (blk0 V c t _).trans (congrArg (V c main_v34) (hA q)))
      ((blk1 V c t _).trans (congrArg (V c main_v12) hI))
      (fun q => (blk2 V c t _).trans (congrArg (V c main_v24) (hH q)))
      (fun q => (blk3 V c t _).trans (congrArg (V c main_arg5) (hWl q)))
      (fun q => (blk4 V c t _).trans (congrArg (V c main_arg6) (hWr q)))
      ((blk5 V c t _).trans (congrArg (V c main_v35) hB)))

/-- An index of the output array is in point `t`'s block iff each coordinate is in the block's range. -/
theorem mem_blk (t : Fin cfg1.N) (i : S100000x64.Idx) :
    i ∈ ((cfg1.win 6).blk t).view.set ↔ ∀ a : Fin 2, win1_6.index t a * S5000x64.size a ≤ (i a).val
      ∧ (i a).val < win1_6.index t a * S5000x64.size a + S5000x64.size a := by
  show i ∈ ((View.whole main_v36).slice (win1_6.rect t)).set ↔ _
  rw [View.set_slice_whole, Rect.mem_set_unit]
  exact Iff.rfl

/-- The output array after the region: the layer function of the arrays the region finds. -/
theorem final (c : Dev nD) :
    (dat1 V c).arrAt 6 cfg1.N = layerRelu (V c main_v34) (V c main_v12) (V c main_v24) (V c main_arg5) (V c main_arg6) (V c main_v35) :=
  (dat1 V c).arrAt_eq_of_cover 6 _ (fun t _ => flushed_eq V c t) (fun i => by
    have hi0 : (i 0).val < 100000 := (i 0).isLt
    have hi1 : (i 1).val < 64 := (i 1).isLt
    obtain ⟨t, ht⟩ := index_onto ⟨(i 0).val / 5000, by omega⟩
    have q0 : win1_6.index t (0 : Fin 2) = (i 0).val / 5000 := congrFun ht 0
    have q1 : win1_6.index t (1 : Fin 2) = 0 := congrFun ht 1
    refine ⟨t, flush1_6 t, ?_⟩
    rw [mem_blk]
    intro ax
    match ax with
    | ⟨0, _⟩ => show win1_6.index t (0 : Fin 2) * 5000 ≤ (i 0).val ∧ (i 0).val < win1_6.index t (0 : Fin 2) * 5000 + 5000; omega
    | ⟨1, _⟩ => show win1_6.index t (1 : Fin 2) * 64 ≤ (i 1).val ∧ (i 1).val < win1_6.index t (1 : Fin 2) * 64 + 64; omega)

end Cert.Sage.Region1

end
-- ==== Proof.Region2.lean ====
/-
  Region 2: what the pipeline leaves in its output array, as one function of the arrays the region finds.

  The grid has 20 points; point `t` works on rows 5000·t … 5000·t + 4999 of the neighbour sums, the factor column and
  the node features, and on the whole of the two weight matrices and the bias row, and writes rows 5000·t … of the
  output. Entry (a, b) of what it writes is the layer function on those 5000 rows, which depends on row `a` of the
  row blocks only: so it is entry (5000·t + a, b) of the layer function on the whole arrays. The 20 row blocks cover
  the output array, which therefore ends as the layer function of the whole arrays.
-/
import proofs.«168755_j21887153341148_1_alg».proof.Proof.Gen.KernelIdeal.Frame
import proofs.«168755_j21887153341148_1_alg».proof.Proof.Pay
import proofs.«168755_j21887153341148_1_alg».proof.Proof.Spec
import proofs.«168755_j21887153341148_1_alg».proof.Proof.SpecCongr
import Idealize.ShloMosaic.Lib.Pipeline.Value
import Idealize.ShloMosaic.Lib.ValueIdx

set_option maxRecDepth 16384

noncomputable section

open scoped BigOperators

namespace Cert.Sage.Region2

open Idealize.ShloMosaic Idealize.ShloMosaic.TcCoe Idealize.ShloMosaic.ValueIdx Idealize.SL.Sem
open Cert.KernelIdeal Cert.KernelIdeal.Gen Cert.Sage
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The printed index maps over the grid: the three row-blocked inputs move with the output's row block, every
    other block index is zero, and the output's row block index is below 20. -/
theorem index_facts : ∀ t : Fin cfg2.N,
    win2_0.index t (0 : Fin 2) = win2_6.index t (0 : Fin 2) ∧ win2_0.index t (1 : Fin 2) = 0
    ∧ win2_1.index t (0 : Fin 2) = win2_6.index t (0 : Fin 2) ∧ win2_1.index t (1 : Fin 2) = 0
    ∧ win2_2.index t (0 : Fin 2) = win2_6.index t (0 : Fin 2) ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (1 : Fin 2) = 0 ∧ win2_6.index t (0 : Fin 2) ≤ 19 :=
  (by decide +kernel : ∀ t : Fin grid2.N, _)

/-- Every row block of the output is some point's. -/
theorem index_onto : ∀ q : Fin 20, ∃ t : Fin cfg2.N, win2_6.index t = ![q.val, 0] :=
  (by decide +kernel : ∀ q : Fin 20, ∃ t : Fin grid2.N, win2_6.index t = ![q.val, 0])

/-- An input window's block at a point is its array read where the block sits. -/
theorem blk0 (c : Dev nD) (t : Fin cfg2.N) (y : S5000x64.Idx) :
    iblk2 V c 0 t y = V c main_v46 (((cfg2.win 0).blk t).view.emb y) := rfl
theorem blk1 (c : Dev nD) (t : Fin cfg2.N) (y : S5000x1.Idx) :
    iblk2 V c 1 t y = V c main_v12 (((cfg2.win 1).blk t).view.emb y) := rfl
theorem blk2 (c : Dev nD) (t : Fin cfg2.N) (y : S5000x64.Idx) :
    iblk2 V c 2 t y = V c main_v36 (((cfg2.win 2).blk t).view.emb y) := rfl
theorem blk3 (c : Dev nD) (t : Fin cfg2.N) (y : S64x64.Idx) :
    iblk2 V c 3 t y = V c main_arg8 (((cfg2.win 3).blk t).view.emb y) := rfl
theorem blk4 (c : Dev nD) (t : Fin cfg2.N) (y : S64x64.Idx) :
    iblk2 V c 4 t y = V c main_arg9 (((cfg2.win 4).blk t).view.emb y) := rfl
theorem blk5 (c : Dev nD) (t : Fin cfg2.N) (y : S1x64.Idx) :
    iblk2 V c 5 t y = V c main_v47 (((cfg2.win 5).blk t).view.emb y) := rfl

set_option maxHeartbeats 1000000 in
/-- What point `t` writes back is its row block of the layer function of the whole arrays. -/
theorem flushed_eq (c : Dev nD) (t : Fin cfg2.N) :
    (dat2 V c).flushed 6 t = ((cfg2.win 6).blk t).view.read (Elt Ideal)
      (layerRelu (V c main_v46) (V c main_v12) (V c main_v36) (V c main_arg8) (V c main_arg9) (V c main_v47)) := by
  show (cfg2.win 6).cut (grid2.coords t) ((dat2 V c).after 6 t) = _
  rw [after2_6]
  unfold out2_6
  rw [View.canon_unit_zero origin]
  simp only [View.ld_unit_zero (S := S5000x64) origin, View.ld_unit_zero (S := S5000x1) origin,
    View.ld_unit_zero (S := S64x64) origin, View.ld_unit_zero (S := S1x64) origin]
  obtain ⟨e0, e1, e2, e3, e4, e5, e6, e7, e8, e9, e10, e11, e12, e13⟩ := index_facts t
  funext j
  obtain ⟨a, b, rfl⟩ : ∃ (a : Fin 5000) (b : Fin 64), j = ix2 a b := ⟨j 0, j 1, eq_ix2 j⟩
  show k2_pay1 (iblk2 V c 0 t) (iblk2 V c 1 t) (iblk2 V c 2 t) (iblk2 V c 3 t) (iblk2 V c 4 t) (iblk2 V c 5 t) (ix2 a b)
      = layerRelu (V c main_v46) (V c main_v12) (V c main_v36) (V c main_arg8) (V c main_arg9) (V c main_v47) (((cfg2.win 6).blk t).view.emb (ix2 a b))
  refine (Pay.pay2_apply (iblk2 V c 0 t) (iblk2 V c 1 t) (iblk2 V c 2 t) (iblk2 V c 3 t) (iblk2 V c 4 t) (iblk2 V c 5 t) a b).trans ?_
  show max (preAt (iblk2 V c 0 t) (iblk2 V c 1 t) (iblk2 V c 2 t) (iblk2 V c 3 t) (iblk2 V c 4 t) (iblk2 V c 5 t) a b) 0
      = max (preAt (V c main_v46) (V c main_v12) (V c main_v36) (V c main_arg8) (V c main_arg9) (V c main_v47) ((((cfg2.win 6).blk t).view.emb (ix2 a b)) 0) ((((cfg2.win 6).blk t).view.emb (ix2 a b)) 1)) 0
  have hA : ∀ q : Fin 64, (((cfg2.win 0).blk t).view.emb (ix2 a q)) = ix2 ((((cfg2.win 6).blk t).view.emb (ix2 a b)) 0) q := by
    intro q; funext ax; apply Fin.ext
    match ax with
    | ⟨0, _⟩ => show win2_0.index t (0 : Fin 2) * 5000 + 1 * a.val = win2_6.index t (0 : Fin 2) * 5000 + 1 * a.val; omega
    | ⟨1, _⟩ => show win2_0.index t (1 : Fin 2) * 64 + 1 * q.val = q.val; omega
  have hI : (((cfg2.win 1).blk t).view.emb (ix2 a (0 : Fin 1))) = ix2 ((((cfg2.win 6).blk t).view.emb (ix2 a b)) 0) (0 : Fin 1) := by
    funext ax; apply Fin.ext
    match ax with
    | ⟨0, _⟩ => show win2_1.index t (0 : Fin 2) * 5000 + 1 * a.val = win2_6.index t (0 : Fin 2) * 5000 + 1 * a.val; omega
    | ⟨1, _⟩ => show win2_1.index t (1 : Fin 2) * 1 + 1 * 0 = 0; omega
  have hH : ∀ q : Fin 64, (((cfg2.win 2).blk t).view.emb (ix2 a q)) = ix2 ((((cfg2.win 6).blk t).view.emb (ix2 a b)) 0) q := by
    intro q; funext ax; apply Fin.ext
    match ax with
    | ⟨0, _⟩ => show win2_2.index t (0 : Fin 2) * 5000 + 1 * a.val = win2_6.index t (0 : Fin 2) * 5000 + 1 * a.val; omega
    | ⟨1, _⟩ => show win2_2.index t (1 : Fin 2) * 64 + 1 * q.val = q.val; omega
  have hWl : ∀ q : Fin 64, (((cfg2.win 3).blk t).view.emb (ix2 q b)) = ix2 q ((((cfg2.win 6).blk t).view.emb (ix2 a b)) 1) := by
    intro q; funext ax; apply Fin.ext
    match ax with
    | ⟨0, _⟩ => show win2_3.index t (0 : Fin 2) * 64 + 1 * q.val = q.val; omega
    | ⟨1, _⟩ => show win2_3.index t (1 : Fin 2) * 64 + 1 * b.val = win2_6.index t (1 : Fin 2) * 64 + 1 * b.val; omega
  have hWr : ∀ q : Fin 64, (((cfg2.win 4).blk t).view.emb (ix2 q b)) = ix2 q ((((cfg2.win 6).blk t).view.emb (ix2 a b)) 1) := by
    intro q; funext ax; apply Fin.ext
    match ax with
    | ⟨0, _⟩ => show win2_4.index t (0 : Fin 2) * 64 + 1 * q.val = q.val; omega
    | ⟨1, _⟩ => show win2_4.index t (1 : Fin 2) * 64 + 1 * b.val = win2_6.index t (1 : Fin 2) * 64 + 1 * b.val; omega
  have hB : (((cfg2.win 5).blk t).view.emb (ix2 (0 : Fin 1) b)) = ix2 (0 : Fin 1) ((((cfg2.win 6).blk t).view.emb (ix2 a b)) 1) := by
    funext ax; apply Fin.ext
    match ax with
    | ⟨0, _⟩ => show win2_5.index t (0 : Fin 2) * 1 + 1 * 0 = 0; omega
    | ⟨1, _⟩ => show win2_5.index t (1 : Fin 2) * 64 + 1 * b.val = win2_6.index t (1 : Fin 2) * 64 + 1 * b.val; omega
  exact congrArg (fun z => max (z) 0)
    (preAt_eq_of _ _ _ _ _ _ _ _ _ _ _ _ a ((((cfg2.win 6).blk t).view.emb (ix2 a b)) 0) b ((((cfg2.win 6).blk t).view.emb (ix2 a b)) 1)
      (fun q => (blk0 V c t _).trans (congrArg (V c main_v46) (hA q)))
      ((blk1 V c t _).trans (congrArg (V c main_v12) hI))
      (fun q => (blk2 V c t _).trans (congrArg (V c main_v36) (hH q)))
      (fun q => (blk3 V c t _).trans (congrArg (V c main_arg8) (hWl q)))
      (fun q => (blk4 V c t _).trans (congrArg (V c main_arg9) (hWr q)))
      ((blk5 V c t _).trans (congrArg (V c main_v47) hB)))

/-- An index of the output array is in point `t`'s block iff each coordinate is in the block's range. -/
theorem mem_blk (t : Fin cfg2.N) (i : S100000x64.Idx) :
    i ∈ ((cfg2.win 6).blk t).view.set ↔ ∀ a : Fin 2, win2_6.index t a * S5000x64.size a ≤ (i a).val
      ∧ (i a).val < win2_6.index t a * S5000x64.size a + S5000x64.size a := by
  show i ∈ ((View.whole main_v48).slice (win2_6.rect t)).set ↔ _
  rw [View.set_slice_whole, Rect.mem_set_unit]
  exact Iff.rfl

/-- The output array after the region: the layer function of the arrays the region finds. -/
theorem final (c : Dev nD) :
    (dat2 V c).arrAt 6 cfg2.N = layerRelu (V c main_v46) (V c main_v12) (V c main_v36) (V c main_arg8) (V c main_arg9) (V c main_v47) :=
  (dat2 V c).arrAt_eq_of_cover 6 _ (fun t _ => flushed_eq V c t) (fun i => by
    have hi0 : (i 0).val < 100000 := (i 0).isLt
    have hi1 : (i 1).val < 64 := (i 1).isLt
    obtain ⟨t, ht⟩ := index_onto ⟨(i 0).val / 5000, by omega⟩
    have q0 : win2_6.index t (0 : Fin 2) = (i 0).val / 5000 := congrFun ht 0
    have q1 : win2_6.index t (1 : Fin 2) = 0 := congrFun ht 1
    refine ⟨t, flush2_6 t, ?_⟩
    rw [mem_blk]
    intro ax
    match ax with
    | ⟨0, _⟩ => show win2_6.index t (0 : Fin 2) * 5000 ≤ (i 0).val ∧ (i 0).val < win2_6.index t (0 : Fin 2) * 5000 + 5000; omega
    | ⟨1, _⟩ => show win2_6.index t (1 : Fin 2) * 64 ≤ (i 1).val ∧ (i 1).val < win2_6.index t (1 : Fin 2) * 64 + 64; omega)

end Cert.Sage.Region2

end
-- ==== Proof.Region3.lean ====
/-
  Region 3: what the pipeline leaves in its output array, as one function of the arrays the region finds.

  The grid has 20 points; point `t` works on rows 5000·t … 5000·t + 4999 of the neighbour sums, the factor column and
  the node features, and on the whole of the two weight matrices and the bias row, and writes rows 5000·t … of the
  output. Entry (a, b) of what it writes is the layer function on those 5000 rows, which depends on row `a` of the
  row blocks only: so it is entry (5000·t + a, b) of the layer function on the whole arrays. The 20 row blocks cover
  the output array, which therefore ends as the layer function of the whole arrays.
-/
import proofs.«168755_j21887153341148_1_alg».proof.Proof.Gen.KernelIdeal.Frame
import proofs.«168755_j21887153341148_1_alg».proof.Proof.Pay
import proofs.«168755_j21887153341148_1_alg».proof.Proof.Spec
import proofs.«168755_j21887153341148_1_alg».proof.Proof.SpecCongr
import Idealize.ShloMosaic.Lib.Pipeline.Value
import Idealize.ShloMosaic.Lib.ValueIdx

set_option maxRecDepth 16384

noncomputable section

open scoped BigOperators

namespace Cert.Sage.Region3

open Idealize.ShloMosaic Idealize.ShloMosaic.TcCoe Idealize.ShloMosaic.ValueIdx Idealize.SL.Sem
open Cert.KernelIdeal Cert.KernelIdeal.Gen Cert.Sage
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The printed index maps over the grid: the three row-blocked inputs move with the output's row block, every
    other block index is zero, and the output's row block index is below 20. -/
theorem index_facts : ∀ t : Fin cfg3.N,
    win3_0.index t (0 : Fin 2) = win3_6.index t (0 : Fin 2) ∧ win3_0.index t (1 : Fin 2) = 0
    ∧ win3_1.index t (0 : Fin 2) = win3_6.index t (0 : Fin 2) ∧ win3_1.index t (1 : Fin 2) = 0
    ∧ win3_2.index t (0 : Fin 2) = win3_6.index t (0 : Fin 2) ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (1 : Fin 2) = 0 ∧ win3_6.index t (0 : Fin 2) ≤ 19 :=
  (by decide +kernel : ∀ t : Fin grid3.N, _)

/-- Every row block of the output is some point's. -/
theorem index_onto : ∀ q : Fin 20, ∃ t : Fin cfg3.N, win3_6.index t = ![q.val, 0] :=
  (by decide +kernel : ∀ q : Fin 20, ∃ t : Fin grid3.N, win3_6.index t = ![q.val, 0])

/-- An input window's block at a point is its array read where the block sits. -/
theorem blk0 (c : Dev nD) (t : Fin cfg3.N) (y : S5000x64.Idx) :
    iblk3 V c 0 t y = V c main_v58 (((cfg3.win 0).blk t).view.emb y) := rfl
theorem blk1 (c : Dev nD) (t : Fin cfg3.N) (y : S5000x1.Idx) :
    iblk3 V c 1 t y = V c main_v12 (((cfg3.win 1).blk t).view.emb y) := rfl
theorem blk2 (c : Dev nD) (t : Fin cfg3.N) (y : S5000x64.Idx) :
    iblk3 V c 2 t y = V c main_v48 (((cfg3.win 2).blk t).view.emb y) := rfl
theorem blk3 (c : Dev nD) (t : Fin cfg3.N) (y : S64x64.Idx) :
    iblk3 V c 3 t y = V c main_arg11 (((cfg3.win 3).blk t).view.emb y) := rfl
theorem blk4 (c : Dev nD) (t : Fin cfg3.N) (y : S64x64.Idx) :
    iblk3 V c 4 t y = V c main_arg12 (((cfg3.win 4).blk t).view.emb y) := rfl
theorem blk5 (c : Dev nD) (t : Fin cfg3.N) (y : S1x64.Idx) :
    iblk3 V c 5 t y = V c main_v59 (((cfg3.win 5).blk t).view.emb y) := rfl

set_option maxHeartbeats 1000000 in
/-- What point `t` writes back is its row block of the layer function of the whole arrays. -/
theorem flushed_eq (c : Dev nD) (t : Fin cfg3.N) :
    (dat3 V c).flushed 6 t = ((cfg3.win 6).blk t).view.read (Elt Ideal)
      (layerRelu (V c main_v58) (V c main_v12) (V c main_v48) (V c main_arg11) (V c main_arg12) (V c main_v59)) := by
  show (cfg3.win 6).cut (grid3.coords t) ((dat3 V c).after 6 t) = _
  rw [after3_6]
  unfold out3_6
  rw [View.canon_unit_zero origin]
  simp only [View.ld_unit_zero (S := S5000x64) origin, View.ld_unit_zero (S := S5000x1) origin,
    View.ld_unit_zero (S := S64x64) origin, View.ld_unit_zero (S := S1x64) origin]
  obtain ⟨e0, e1, e2, e3, e4, e5, e6, e7, e8, e9, e10, e11, e12, e13⟩ := index_facts t
  funext j
  obtain ⟨a, b, rfl⟩ : ∃ (a : Fin 5000) (b : Fin 64), j = ix2 a b := ⟨j 0, j 1, eq_ix2 j⟩
  show k3_pay1 (iblk3 V c 0 t) (iblk3 V c 1 t) (iblk3 V c 2 t) (iblk3 V c 3 t) (iblk3 V c 4 t) (iblk3 V c 5 t) (ix2 a b)
      = layerRelu (V c main_v58) (V c main_v12) (V c main_v48) (V c main_arg11) (V c main_arg12) (V c main_v59) (((cfg3.win 6).blk t).view.emb (ix2 a b))
  refine (Pay.pay3_apply (iblk3 V c 0 t) (iblk3 V c 1 t) (iblk3 V c 2 t) (iblk3 V c 3 t) (iblk3 V c 4 t) (iblk3 V c 5 t) a b).trans ?_
  show max (preAt (iblk3 V c 0 t) (iblk3 V c 1 t) (iblk3 V c 2 t) (iblk3 V c 3 t) (iblk3 V c 4 t) (iblk3 V c 5 t) a b) 0
      = max (preAt (V c main_v58) (V c main_v12) (V c main_v48) (V c main_arg11) (V c main_arg12) (V c main_v59) ((((cfg3.win 6).blk t).view.emb (ix2 a b)) 0) ((((cfg3.win 6).blk t).view.emb (ix2 a b)) 1)) 0
  have hA : ∀ q : Fin 64, (((cfg3.win 0).blk t).view.emb (ix2 a q)) = ix2 ((((cfg3.win 6).blk t).view.emb (ix2 a b)) 0) q := by
    intro q; funext ax; apply Fin.ext
    match ax with
    | ⟨0, _⟩ => show win3_0.index t (0 : Fin 2) * 5000 + 1 * a.val = win3_6.index t (0 : Fin 2) * 5000 + 1 * a.val; omega
    | ⟨1, _⟩ => show win3_0.index t (1 : Fin 2) * 64 + 1 * q.val = q.val; omega
  have hI : (((cfg3.win 1).blk t).view.emb (ix2 a (0 : Fin 1))) = ix2 ((((cfg3.win 6).blk t).view.emb (ix2 a b)) 0) (0 : Fin 1) := by
    funext ax; apply Fin.ext
    match ax with
    | ⟨0, _⟩ => show win3_1.index t (0 : Fin 2) * 5000 + 1 * a.val = win3_6.index t (0 : Fin 2) * 5000 + 1 * a.val; omega
    | ⟨1, _⟩ => show win3_1.index t (1 : Fin 2) * 1 + 1 * 0 = 0; omega
  have hH : ∀ q : Fin 64, (((cfg3.win 2).blk t).view.emb (ix2 a q)) = ix2 ((((cfg3.win 6).blk t).view.emb (ix2 a b)) 0) q := by
    intro q; funext ax; apply Fin.ext
    match ax with
    | ⟨0, _⟩ => show win3_2.index t (0 : Fin 2) * 5000 + 1 * a.val = win3_6.index t (0 : Fin 2) * 5000 + 1 * a.val; omega
    | ⟨1, _⟩ => show win3_2.index t (1 : Fin 2) * 64 + 1 * q.val = q.val; omega
  have hWl : ∀ q : Fin 64, (((cfg3.win 3).blk t).view.emb (ix2 q b)) = ix2 q ((((cfg3.win 6).blk t).view.emb (ix2 a b)) 1) := by
    intro q; funext ax; apply Fin.ext
    match ax with
    | ⟨0, _⟩ => show win3_3.index t (0 : Fin 2) * 64 + 1 * q.val = q.val; omega
    | ⟨1, _⟩ => show win3_3.index t (1 : Fin 2) * 64 + 1 * b.val = win3_6.index t (1 : Fin 2) * 64 + 1 * b.val; omega
  have hWr : ∀ q : Fin 64, (((cfg3.win 4).blk t).view.emb (ix2 q b)) = ix2 q ((((cfg3.win 6).blk t).view.emb (ix2 a b)) 1) := by
    intro q; funext ax; apply Fin.ext
    match ax with
    | ⟨0, _⟩ => show win3_4.index t (0 : Fin 2) * 64 + 1 * q.val = q.val; omega
    | ⟨1, _⟩ => show win3_4.index t (1 : Fin 2) * 64 + 1 * b.val = win3_6.index t (1 : Fin 2) * 64 + 1 * b.val; omega
  have hB : (((cfg3.win 5).blk t).view.emb (ix2 (0 : Fin 1) b)) = ix2 (0 : Fin 1) ((((cfg3.win 6).blk t).view.emb (ix2 a b)) 1) := by
    funext ax; apply Fin.ext
    match ax with
    | ⟨0, _⟩ => show win3_5.index t (0 : Fin 2) * 1 + 1 * 0 = 0; omega
    | ⟨1, _⟩ => show win3_5.index t (1 : Fin 2) * 64 + 1 * b.val = win3_6.index t (1 : Fin 2) * 64 + 1 * b.val; omega
  exact congrArg (fun z => max (z) 0)
    (preAt_eq_of _ _ _ _ _ _ _ _ _ _ _ _ a ((((cfg3.win 6).blk t).view.emb (ix2 a b)) 0) b ((((cfg3.win 6).blk t).view.emb (ix2 a b)) 1)
      (fun q => (blk0 V c t _).trans (congrArg (V c main_v58) (hA q)))
      ((blk1 V c t _).trans (congrArg (V c main_v12) hI))
      (fun q => (blk2 V c t _).trans (congrArg (V c main_v48) (hH q)))
      (fun q => (blk3 V c t _).trans (congrArg (V c main_arg11) (hWl q)))
      (fun q => (blk4 V c t _).trans (congrArg (V c main_arg12) (hWr q)))
      ((blk5 V c t _).trans (congrArg (V c main_v59) hB)))

/-- An index of the output array is in point `t`'s block iff each coordinate is in the block's range. -/
theorem mem_blk (t : Fin cfg3.N) (i : S100000x64.Idx) :
    i ∈ ((cfg3.win 6).blk t).view.set ↔ ∀ a : Fin 2, win3_6.index t a * S5000x64.size a ≤ (i a).val
      ∧ (i a).val < win3_6.index t a * S5000x64.size a + S5000x64.size a := by
  show i ∈ ((View.whole main_v60).slice (win3_6.rect t)).set ↔ _
  rw [View.set_slice_whole, Rect.mem_set_unit]
  exact Iff.rfl

/-- The output array after the region: the layer function of the arrays the region finds. -/
theorem final (c : Dev nD) :
    (dat3 V c).arrAt 6 cfg3.N = layerRelu (V c main_v58) (V c main_v12) (V c main_v48) (V c main_arg11) (V c main_arg12) (V c main_v59) :=
  (dat3 V c).arrAt_eq_of_cover 6 _ (fun t _ => flushed_eq V c t) (fun i => by
    have hi0 : (i 0).val < 100000 := (i 0).isLt
    have hi1 : (i 1).val < 64 := (i 1).isLt
    obtain ⟨t, ht⟩ := index_onto ⟨(i 0).val / 5000, by omega⟩
    have q0 : win3_6.index t (0 : Fin 2) = (i 0).val / 5000 := congrFun ht 0
    have q1 : win3_6.index t (1 : Fin 2) = 0 := congrFun ht 1
    refine ⟨t, flush3_6 t, ?_⟩
    rw [mem_blk]
    intro ax
    match ax with
    | ⟨0, _⟩ => show win3_6.index t (0 : Fin 2) * 5000 ≤ (i 0).val ∧ (i 0).val < win3_6.index t (0 : Fin 2) * 5000 + 5000; omega
    | ⟨1, _⟩ => show win3_6.index t (1 : Fin 2) * 64 ≤ (i 1).val ∧ (i 1).val < win3_6.index t (1 : Fin 2) * 64 + 64; omega)

end Cert.Sage.Region3

end
-- ==== Proof.Region4.lean ====
/-
  Region 4: what the pipeline leaves in its output array, as one function of the arrays the region finds.

  The grid has 20 points; point `t` works on rows 5000·t … 5000·t + 4999 of the neighbour sums, the factor column and
  the node features, and on the whole of the two weight matrices and the bias row, and writes rows 5000·t … of the
  output. Entry (a, b) of what it writes is the layer function on those 5000 rows, which depends on row `a` of the
  row blocks only: so it is entry (5000·t + a, b) of the layer function on the whole arrays. The 20 row blocks cover
  the output array, which therefore ends as the layer function of the whole arrays.
-/
import proofs.«168755_j21887153341148_1_alg».proof.Proof.Gen.KernelIdeal.Frame
import proofs.«168755_j21887153341148_1_alg».proof.Proof.Pay
import proofs.«168755_j21887153341148_1_alg».proof.Proof.Spec
import proofs.«168755_j21887153341148_1_alg».proof.Proof.SpecCongr
import Idealize.ShloMosaic.Lib.Pipeline.Value
import Idealize.ShloMosaic.Lib.ValueIdx

set_option maxRecDepth 16384

noncomputable section

open scoped BigOperators

namespace Cert.Sage.Region4

open Idealize.ShloMosaic Idealize.ShloMosaic.TcCoe Idealize.ShloMosaic.ValueIdx Idealize.SL.Sem
open Cert.KernelIdeal Cert.KernelIdeal.Gen Cert.Sage
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The printed index maps over the grid: the three row-blocked inputs move with the output's row block, every
    other block index is zero, and the output's row block index is below 20. -/
theorem index_facts : ∀ t : Fin cfg4.N,
    win4_0.index t (0 : Fin 2) = win4_6.index t (0 : Fin 2) ∧ win4_0.index t (1 : Fin 2) = 0
    ∧ win4_1.index t (0 : Fin 2) = win4_6.index t (0 : Fin 2) ∧ win4_1.index t (1 : Fin 2) = 0
    ∧ win4_2.index t (0 : Fin 2) = win4_6.index t (0 : Fin 2) ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (1 : Fin 2) = 0 ∧ win4_6.index t (0 : Fin 2) ≤ 19 :=
  (by decide +kernel : ∀ t : Fin grid4.N, _)

/-- Every row block of the output is some point's. -/
theorem index_onto : ∀ q : Fin 20, ∃ t : Fin cfg4.N, win4_6.index t = ![q.val, 0] :=
  (by decide +kernel : ∀ q : Fin 20, ∃ t : Fin grid4.N, win4_6.index t = ![q.val, 0])

/-- An input window's block at a point is its array read where the block sits. -/
theorem blk0 (c : Dev nD) (t : Fin cfg4.N) (y : S5000x64.Idx) :
    iblk4 V c 0 t y = V c main_v70 (((cfg4.win 0).blk t).view.emb y) := rfl
theorem blk1 (c : Dev nD) (t : Fin cfg4.N) (y : S5000x1.Idx) :
    iblk4 V c 1 t y = V c main_v12 (((cfg4.win 1).blk t).view.emb y) := rfl
theorem blk2 (c : Dev nD) (t : Fin cfg4.N) (y : S5000x64.Idx) :
    iblk4 V c 2 t y = V c main_v60 (((cfg4.win 2).blk t).view.emb y) := rfl
theorem blk3 (c : Dev nD) (t : Fin cfg4.N) (y : S64x1.Idx) :
    iblk4 V c 3 t y = V c main_arg14 (((cfg4.win 3).blk t).view.emb y) := rfl
theorem blk4 (c : Dev nD) (t : Fin cfg4.N) (y : S64x1.Idx) :
    iblk4 V c 4 t y = V c main_arg15 (((cfg4.win 4).blk t).view.emb y) := rfl
theorem blk5 (c : Dev nD) (t : Fin cfg4.N) (y : S1x1.Idx) :
    iblk4 V c 5 t y = V c main_v71 (((cfg4.win 5).blk t).view.emb y) := rfl

set_option maxHeartbeats 1000000 in
/-- What point `t` writes back is its row block of the layer function of the whole arrays. -/
theorem flushed_eq (c : Dev nD) (t : Fin cfg4.N) :
    (dat4 V c).flushed 6 t = ((cfg4.win 6).blk t).view.read (Elt Ideal)
      (layerSig (V c main_v70) (V c main_v12) (V c main_v60) (V c main_arg14) (V c main_arg15) (V c main_v71)) := by
  show (cfg4.win 6).cut (grid4.coords t) ((dat4 V c).after 6 t) = _
  rw [after4_6]
  unfold out4_6
  rw [View.canon_unit_zero origin]
  simp only [View.ld_unit_zero (S := S5000x64) origin, View.ld_unit_zero (S := S5000x1) origin,
    View.ld_unit_zero (S := S64x1) origin, View.ld_unit_zero (S := S1x1) origin]
  obtain ⟨e0, e1, e2, e3, e4, e5, e6, e7, e8, e9, e10, e11, e12, e13⟩ := index_facts t
  funext j
  obtain ⟨a, b, rfl⟩ : ∃ (a : Fin 5000) (b : Fin 1), j = ix2 a b := ⟨j 0, j 1, eq_ix2 j⟩
  show k4_pay1 (iblk4 V c 0 t) (iblk4 V c 1 t) (iblk4 V c 2 t) (iblk4 V c 3 t) (iblk4 V c 4 t) (iblk4 V c 5 t) (ix2 a b)
      = layerSig (V c main_v70) (V c main_v12) (V c main_v60) (V c main_arg14) (V c main_arg15) (V c main_v71) (((cfg4.win 6).blk t).view.emb (ix2 a b))
  refine (Pay.pay4_apply (iblk4 V c 0 t) (iblk4 V c 1 t) (iblk4 V c 2 t) (iblk4 V c 3 t) (iblk4 V c 4 t) (iblk4 V c 5 t) a b).trans ?_
  show Ideal.logistic (preAt (iblk4 V c 0 t) (iblk4 V c 1 t) (iblk4 V c 2 t) (iblk4 V c 3 t) (iblk4 V c 4 t) (iblk4 V c 5 t) a b)
      = Ideal.logistic (preAt (V c main_v70) (V c main_v12) (V c main_v60) (V c main_arg14) (V c main_arg15) (V c main_v71) ((((cfg4.win 6).blk t).view.emb (ix2 a b)) 0) ((((cfg4.win 6).blk t).view.emb (ix2 a b)) 1))
  have hA : ∀ q : Fin 64, (((cfg4.win 0).blk t).view.emb (ix2 a q)) = ix2 ((((cfg4.win 6).blk t).view.emb (ix2 a b)) 0) q := by
    intro q; funext ax; apply Fin.ext
    match ax with
    | ⟨0, _⟩ => show win4_0.index t (0 : Fin 2) * 5000 + 1 * a.val = win4_6.index t (0 : Fin 2) * 5000 + 1 * a.val; omega
    | ⟨1, _⟩ => show win4_0.index t (1 : Fin 2) * 64 + 1 * q.val = q.val; omega
  have hI : (((cfg4.win 1).blk t).view.emb (ix2 a (0 : Fin 1))) = ix2 ((((cfg4.win 6).blk t).view.emb (ix2 a b)) 0) (0 : Fin 1) := by
    funext ax; apply Fin.ext
    match ax with
    | ⟨0, _⟩ => show win4_1.index t (0 : Fin 2) * 5000 + 1 * a.val = win4_6.index t (0 : Fin 2) * 5000 + 1 * a.val; omega
    | ⟨1, _⟩ => show win4_1.index t (1 : Fin 2) * 1 + 1 * 0 = 0; omega
  have hH : ∀ q : Fin 64, (((cfg4.win 2).blk t).view.emb (ix2 a q)) = ix2 ((((cfg4.win 6).blk t).view.emb (ix2 a b)) 0) q := by
    intro q; funext ax; apply Fin.ext
    match ax with
    | ⟨0, _⟩ => show win4_2.index t (0 : Fin 2) * 5000 + 1 * a.val = win4_6.index t (0 : Fin 2) * 5000 + 1 * a.val; omega
    | ⟨1, _⟩ => show win4_2.index t (1 : Fin 2) * 64 + 1 * q.val = q.val; omega
  have hWl : ∀ q : Fin 64, (((cfg4.win 3).blk t).view.emb (ix2 q b)) = ix2 q ((((cfg4.win 6).blk t).view.emb (ix2 a b)) 1) := by
    intro q; funext ax; apply Fin.ext
    match ax with
    | ⟨0, _⟩ => show win4_3.index t (0 : Fin 2) * 64 + 1 * q.val = q.val; omega
    | ⟨1, _⟩ => show win4_3.index t (1 : Fin 2) * 1 + 1 * b.val = win4_6.index t (1 : Fin 2) * 1 + 1 * b.val; omega
  have hWr : ∀ q : Fin 64, (((cfg4.win 4).blk t).view.emb (ix2 q b)) = ix2 q ((((cfg4.win 6).blk t).view.emb (ix2 a b)) 1) := by
    intro q; funext ax; apply Fin.ext
    match ax with
    | ⟨0, _⟩ => show win4_4.index t (0 : Fin 2) * 64 + 1 * q.val = q.val; omega
    | ⟨1, _⟩ => show win4_4.index t (1 : Fin 2) * 1 + 1 * b.val = win4_6.index t (1 : Fin 2) * 1 + 1 * b.val; omega
  have hB : (((cfg4.win 5).blk t).view.emb (ix2 (0 : Fin 1) b)) = ix2 (0 : Fin 1) ((((cfg4.win 6).blk t).view.emb (ix2 a b)) 1) := by
    funext ax; apply Fin.ext
    match ax with
    | ⟨0, _⟩ => show win4_5.index t (0 : Fin 2) * 1 + 1 * 0 = 0; omega
    | ⟨1, _⟩ => show win4_5.index t (1 : Fin 2) * 1 + 1 * b.val = win4_6.index t (1 : Fin 2) * 1 + 1 * b.val; omega
  exact congrArg (fun z => Ideal.logistic (z))
    (preAt_eq_of _ _ _ _ _ _ _ _ _ _ _ _ a ((((cfg4.win 6).blk t).view.emb (ix2 a b)) 0) b ((((cfg4.win 6).blk t).view.emb (ix2 a b)) 1)
      (fun q => (blk0 V c t _).trans (congrArg (V c main_v70) (hA q)))
      ((blk1 V c t _).trans (congrArg (V c main_v12) hI))
      (fun q => (blk2 V c t _).trans (congrArg (V c main_v60) (hH q)))
      (fun q => (blk3 V c t _).trans (congrArg (V c main_arg14) (hWl q)))
      (fun q => (blk4 V c t _).trans (congrArg (V c main_arg15) (hWr q)))
      ((blk5 V c t _).trans (congrArg (V c main_v71) hB)))

/-- An index of the output array is in point `t`'s block iff each coordinate is in the block's range. -/
theorem mem_blk (t : Fin cfg4.N) (i : S100000x1.Idx) :
    i ∈ ((cfg4.win 6).blk t).view.set ↔ ∀ a : Fin 2, win4_6.index t a * S5000x1.size a ≤ (i a).val
      ∧ (i a).val < win4_6.index t a * S5000x1.size a + S5000x1.size a := by
  show i ∈ ((View.whole main_v72).slice (win4_6.rect t)).set ↔ _
  rw [View.set_slice_whole, Rect.mem_set_unit]
  exact Iff.rfl

/-- The output array after the region: the layer function of the arrays the region finds. -/
theorem final (c : Dev nD) :
    (dat4 V c).arrAt 6 cfg4.N = layerSig (V c main_v70) (V c main_v12) (V c main_v60) (V c main_arg14) (V c main_arg15) (V c main_v71) :=
  (dat4 V c).arrAt_eq_of_cover 6 _ (fun t _ => flushed_eq V c t) (fun i => by
    have hi0 : (i 0).val < 100000 := (i 0).isLt
    have hi1 : (i 1).val < 1 := (i 1).isLt
    obtain ⟨t, ht⟩ := index_onto ⟨(i 0).val / 5000, by omega⟩
    have q0 : win4_6.index t (0 : Fin 2) = (i 0).val / 5000 := congrFun ht 0
    have q1 : win4_6.index t (1 : Fin 2) = 0 := congrFun ht 1
    refine ⟨t, flush4_6 t, ?_⟩
    rw [mem_blk]
    intro ax
    match ax with
    | ⟨0, _⟩ => show win4_6.index t (0 : Fin 2) * 5000 ≤ (i 0).val ∧ (i 0).val < win4_6.index t (0 : Fin 2) * 5000 + 5000; omega
    | ⟨1, _⟩ => show win4_6.index t (1 : Fin 2) * 1 ≤ (i 1).val ∧ (i 1).val < win4_6.index t (1 : Fin 2) * 1 + 1; omega)

end Cert.Sage.Region4

end
-- ==== Proof.KNet.lean ====
/-
  The result array of the idealized kernel as the network function of the arguments.

  Layer by layer: a region's output array is the layer function of the arrays the region finds (`Region`k`.final`);
  those are the neighbour sums the host operations before it computed from the previous layer's output and the
  edge rows, the factor column, the previous layer's output, the two weight arguments and the bias argument as a row.
  So the output of region k is layer k of the network applied to the output of region k − 1, and the last one, the
  program's result, is the network.
-/
import proofs.«168755_j21887153341148_1_alg».proof.Proof.Gen.KernelIdeal.Frame
import proofs.«168755_j21887153341148_1_alg».proof.Proof.Stages
import proofs.«168755_j21887153341148_1_alg».proof.Proof.KArgs
import proofs.«168755_j21887153341148_1_alg».proof.Proof.KEdges
import proofs.«168755_j21887153341148_1_alg».proof.Proof.Region0
import proofs.«168755_j21887153341148_1_alg».proof.Proof.Region1
import proofs.«168755_j21887153341148_1_alg».proof.Proof.Region2
import proofs.«168755_j21887153341148_1_alg».proof.Proof.Region3
import proofs.«168755_j21887153341148_1_alg».proof.Proof.Region4

set_option maxRecDepth 16384

noncomputable section

namespace Cert.Sage.KNet

open Idealize.ShloMosaic Idealize.ShloMosaic.TcCoe Idealize.SL.Sem
open Cert.KernelIdeal Cert.KernelIdeal.Gen Cert.Sage Cert.Sage.Stages

variable (m : (ℓ : Loc nD τ sig) → Buf (Elt Ideal) ℓ) (ρ : Dev nD → PrngReg) (c : Dev nD)

/-- The node features after each layer, as functions of the launch contents of the arguments. -/
abbrev H1 : FVec Ideal S100000x64 .f32 := layer0 (m ((c : Thread nD τ).loc main_arg0)) (m ((c : Thread nD τ).loc main_arg1)) (m ((c : Thread nD τ).loc main_arg2)) (m ((c : Thread nD τ).loc main_arg3)) (m ((c : Thread nD τ).loc main_arg4))
abbrev H2 : FVec Ideal S100000x64 .f32 := layerH (H1 m c) (m ((c : Thread nD τ).loc main_arg1)) (m ((c : Thread nD τ).loc main_arg5)) (m ((c : Thread nD τ).loc main_arg6)) (m ((c : Thread nD τ).loc main_arg7))
abbrev H3 : FVec Ideal S100000x64 .f32 := layerH (H2 m c) (m ((c : Thread nD τ).loc main_arg1)) (m ((c : Thread nD τ).loc main_arg8)) (m ((c : Thread nD τ).loc main_arg9)) (m ((c : Thread nD τ).loc main_arg10))
abbrev H4 : FVec Ideal S100000x64 .f32 := layerH (H3 m c) (m ((c : Thread nD τ).loc main_arg1)) (m ((c : Thread nD τ).loc main_arg11)) (m ((c : Thread nD τ).loc main_arg12)) (m ((c : Thread nD τ).loc main_arg13))
abbrev H5 : FVec Ideal S100000x1 .f32 := layerOut (H4 m c) (m ((c : Thread nD τ).loc main_arg1)) (m ((c : Thread nD τ).loc main_arg14)) (m ((c : Thread nD τ).loc main_arg15)) (m ((c : Thread nD τ).loc main_arg16))

/-! ## Layer 0 -/

set_option maxHeartbeats 8000000 in
theorem agg0 : V1 m ρ c main_v22 = agg13 (m ((c : Thread nD τ).loc main_arg0)) (srcVec (m ((c : Thread nD τ).loc main_arg1))) (dstVec (m ((c : Thread nD τ).loc main_arg1))) := by
  show StableHlo.after hostOps0 (W0 m ρ c) (Proc.devRef .tc main_v22) = _
  after_results_simp
  rfl
theorem bias0 : V1 m ρ c main_v23 = biasRow64 (m ((c : Thread nD τ).loc main_arg4)) := by
  show StableHlo.after hostOps0 (W0 m ρ c) (Proc.devRef .tc main_v23) = _
  after_results
  rfl
theorem out0 : W2 m ρ c (Proc.devRef .tc main_v24) = H1 m c := by
  refine (W2_arr m ρ c 6).trans ((Region0.final (V1 m ρ) c).trans ?_)
  rw [agg0 m ρ c, show V1 m ρ c main_v12 = invCol (dstVec (m ((c : Thread nD τ).loc main_arg1))) from KEdges.inv_W1 m ρ c,
    show V1 m ρ c main_arg0 = m ((c : Thread nD τ).loc main_arg0) from KArgs.a0_W1 m ρ c,
    show V1 m ρ c main_arg2 = m ((c : Thread nD τ).loc main_arg2) from KArgs.a2_W1 m ρ c,
    show V1 m ρ c main_arg3 = m ((c : Thread nD τ).loc main_arg3) from KArgs.a3_W1 m ρ c, bias0 m ρ c]
  rfl

/-! ## Layer 1 -/

set_option maxHeartbeats 8000000 in
theorem agg1 : V3 m ρ c main_v34 = agg64 (H1 m c) (srcVec (m ((c : Thread nD τ).loc main_arg1))) (dstVec (m ((c : Thread nD τ).loc main_arg1))) := by
  show StableHlo.after hostOps1 (W2 m ρ c) (Proc.devRef .tc main_v34) = _
  after_results_simp
  rw [out0 m ρ c, KEdges.src_W2 m ρ c, KEdges.dst_W2 m ρ c]
  rfl
theorem bias1 : V3 m ρ c main_v35 = biasRow64 (m ((c : Thread nD τ).loc main_arg7)) := by
  show StableHlo.after hostOps1 (W2 m ρ c) (Proc.devRef .tc main_v35) = _
  after_results
  rw [KArgs.a7_W2 m ρ c]
  rfl
theorem prev1 : V3 m ρ c main_v24 = H1 m c :=
  (StableHlo.after_of_forall_not_mem (b := Proc.devRef .tc main_v24) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (out0 m ρ c)
theorem out1 : W4 m ρ c (Proc.devRef .tc main_v36) = H2 m c := by
  refine (W4_arr m ρ c 6).trans ((Region1.final (V3 m ρ) c).trans ?_)
  rw [agg1 m ρ c, show V3 m ρ c main_v12 = invCol (dstVec (m ((c : Thread nD τ).loc main_arg1))) from KEdges.inv_W3 m ρ c, prev1 m ρ c,
    show V3 m ρ c main_arg5 = m ((c : Thread nD τ).loc main_arg5) from KArgs.a5_W3 m ρ c,
    show V3 m ρ c main_arg6 = m ((c : Thread nD τ).loc main_arg6) from KArgs.a6_W3 m ρ c, bias1 m ρ c]
  rfl

/-! ## Layer 2 -/

set_option maxHeartbeats 8000000 in
theorem agg2 : V5 m ρ c main_v46 = agg64 (H2 m c) (srcVec (m ((c : Thread nD τ).loc main_arg1))) (dstVec (m ((c : Thread nD τ).loc main_arg1))) := by
  show StableHlo.after hostOps2 (W4 m ρ c) (Proc.devRef .tc main_v46) = _
  after_results_simp
  rw [out1 m ρ c, KEdges.src_W4 m ρ c, KEdges.dst_W4 m ρ c]
  rfl
theorem bias2 : V5 m ρ c main_v47 = biasRow64 (m ((c : Thread nD τ).loc main_arg10)) := by
  show StableHlo.after hostOps2 (W4 m ρ c) (Proc.devRef .tc main_v47) = _
  after_results
  rw [KArgs.a10_W4 m ρ c]
  rfl
theorem prev2 : V5 m ρ c main_v36 = H2 m c :=
  (StableHlo.after_of_forall_not_mem (b := Proc.devRef .tc main_v36) _ _ (List.forall_iff_forall_mem.mp (by
      simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (out1 m ρ c)
theorem out2 : W6 m ρ c (Proc.devRef .tc main_v48) = H3 m c := by
  refine (W6_arr m ρ c 6).trans ((Region2.final (V5 m ρ) c).trans ?_)
  rw [agg2 m ρ c, show V5 m ρ c main_v12 = invCol (dstVec (m ((c : Thread nD τ).loc main_arg1))) from KEdges.inv_W5 m ρ c, prev2 m ρ c,
    show V5 m ρ c main_arg8 = m ((c : Thread nD τ).loc main_arg8) from KArgs.a8_W5 m ρ c,
    show V5 m ρ c main_arg9 = m ((c : Thread nD τ).loc main_arg9) from KArgs.a9_W5 m ρ c, bias2 m ρ c]
  rfl

/-! ## Layer 3 -/

set_option maxHeartbeats 8000000 in
theorem agg3 : V7 m ρ c main_v58 = agg64 (H3 m c) (srcVec (m ((c : Thread nD τ).loc main_arg1))) (dstVec (m ((c : Thread nD τ).loc main_arg1))) := by
  show StableHlo.after hostOps3 (W6 m ρ c) (Proc.devRef .tc main_v58) = _
  after_results_simp
  rw [out2 m ρ c, KEdges.src_W6 m ρ c, KEdges.dst_W6 m ρ c]
  rfl
theorem bias3 : V7 m ρ c main_v59 = biasRow64 (m ((c : Thread nD τ).loc main_arg13)) := by
  show StableHlo.after hostOps3 (W6 m ρ c) (Proc.devRef .tc main_v59) = _
  after_results
  rw [KArgs.a13_W6 m ρ c]
  rfl
theorem prev3 : V7 m ρ c main_v48 = H3 m c :=
  (StableHlo.after_of_forall_not_mem (b := Proc.devRef .tc main_v48) _ _ (List.forall_iff_forall_mem.mp (by
      simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (out2 m ρ c)
theorem out3 : W8 m ρ c (Proc.devRef .tc main_v60) = H4 m c := by
  refine (W8_arr m ρ c 6).trans ((Region3.final (V7 m ρ) c).trans ?_)
  rw [agg3 m ρ c, show V7 m ρ c main_v12 = invCol (dstVec (m ((c : Thread nD τ).loc main_arg1))) from KEdges.inv_W7 m ρ c, prev3 m ρ c,
    show V7 m ρ c main_arg11 = m ((c : Thread nD τ).loc main_arg11) from KArgs.a11_W7 m ρ c,
    show V7 m ρ c main_arg12 = m ((c : Thread nD τ).loc main_arg12) from KArgs.a12_W7 m ρ c, bias3 m ρ c]
  rfl

/-! ## Layer 4 -/

set_option maxHeartbeats 8000000 in
theorem agg4 : V9 m ρ c main_v70 = agg64 (H4 m c) (srcVec (m ((c : Thread nD τ).loc main_arg1))) (dstVec (m ((c : Thread nD τ).loc main_arg1))) := by
  show StableHlo.after hostOps4 (W8 m ρ c) (Proc.devRef .tc main_v70) = _
  after_results_simp
  rw [out3 m ρ c, KEdges.src_W8 m ρ c, KEdges.dst_W8 m ρ c]
  rfl
theorem bias4 : V9 m ρ c main_v71 = biasRow1 (m ((c : Thread nD τ).loc main_arg16)) := by
  show StableHlo.after hostOps4 (W8 m ρ c) (Proc.devRef .tc main_v71) = _
  after_results
  rw [KArgs.a16_W8 m ρ c]
  rfl
theorem prev4 : V9 m ρ c main_v60 = H4 m c :=
  (StableHlo.after_of_forall_not_mem (b := Proc.devRef .tc main_v60) _ _ (List.forall_iff_forall_mem.mp (by
      simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (out3 m ρ c)
theorem out4 : W10 m ρ c (Proc.devRef .tc main_v72) = H5 m c := by
  refine (W10_arr m ρ c 6).trans ((Region4.final (V9 m ρ) c).trans ?_)
  rw [agg4 m ρ c, show V9 m ρ c main_v12 = invCol (dstVec (m ((c : Thread nD τ).loc main_arg1))) from KEdges.inv_W9 m ρ c, prev4 m ρ c,
    show V9 m ρ c main_arg14 = m ((c : Thread nD τ).loc main_arg14) from KArgs.a14_W9 m ρ c,
    show V9 m ρ c main_arg15 = m ((c : Thread nD τ).loc main_arg15) from KArgs.a15_W9 m ρ c, bias4 m ρ c]
  rfl

/-- The program's result array after the run is the network of the arguments. -/
theorem result : W10 m ρ c (Proc.devRef .tc main_v72)
    = net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) :=
  out4 m ρ c

end Cert.Sage.KNet

end
-- ==== Proof.Count.lean ====
/-
  The mean of the neighbours: dividing by max(count, 1) is multiplying by 1 / max(count, 1).

  The count of the edges ending at a node is a finite sum of ones started from zero, a natural number; its maximum
  with one is a real number that is not zero. Division of ANY extended real by such a real is the product with its
  reciprocal, and the reciprocal is itself "one divided by it": so the reference's quotient of a neighbour sum by the
  count and the kernel's product of the sum with the precomputed factor are one extended real, whatever the sum is.
-/
import Idealize.ShloMosaic.PureOps.Ideal
import Idealize.ShloMosaic.PureOps.Ideal.Laws

noncomputable section

open scoped BigOperators

namespace Cert.Sage.Count

open Idealize.ShloMosaic

/-- The float word of 1.0 denotes the real number one. -/
theorem ofBits_one : Ideal.ofBits .f32 0x3F800000#32 = (1 : EReal) := by
  simp [Ideal.ofBits, Ideal.ieee, -EReal.coe_mul]
  norm_num

/-- A count started from zero, capped below by one, is a nonzero real. -/
theorem count_real {ι : Type} (S : Finset ι) :
    ∃ r : ℝ, r ≠ 0 ∧ max ((0 : EReal) + ∑ _e ∈ S, (1 : EReal)) 1 = (r : EReal) := by
  refine ⟨max (S.card : ℝ) 1, ne_of_gt (lt_of_lt_of_le one_pos (le_max_right _ _)), ?_⟩
  rw [zero_add, Finset.sum_const, nsmul_one, EReal.coe_strictMono.monotone.map_max]
  rfl

/-- Dividing by a nonzero real is multiplying by "one divided by it". -/
theorem div_eq_mul_one_div {r : ℝ} (h : r ≠ 0) (A : EReal) :
    Ideal.div A (r : EReal) = A * Ideal.div 1 (r : EReal) := by
  rw [Ideal.div_coe h, Ideal.div_coe h, one_mul]

/-- The quotient by max(count, 1) is the product with 1 / max(count, 1), the count, the zero it starts from and the
    ones it adds being the program's float words. -/
theorem div_count {ι : Type} (S : Finset ι) (A : EReal) :
    Ideal.div A (max (Ideal.ofBits .f32 0x00000000#32 + ∑ _e ∈ S, Ideal.ofBits .f32 0x3F800000#32) (Ideal.ofBits .f32 0x3F800000#32))
      = A * Ideal.div (Ideal.ofBits .f32 0x3F800000#32)
          (max (Ideal.ofBits .f32 0x00000000#32 + ∑ _e ∈ S, Ideal.ofBits .f32 0x3F800000#32) (Ideal.ofBits .f32 0x3F800000#32)) := by
  rw [ofBits_one, Ideal.ofBits_zero_f32]
  obtain ⟨r, hr, e⟩ := count_real S
  rw [e]
  exact div_eq_mul_one_div hr A

end Cert.Sage.Count

end
-- ==== Proof.RefDense.lean ====
/-
  The reference's dense step of one layer, read at an entry, for any extents.

  The reference divides the neighbour sums by max(count, 1) laid across the columns, multiplies by `Wl`, adds the
  bias vector laid along every row, and adds the node features times `Wr`. At node `n` and output feature `j`:

      (∑ c, (A[n,c] / max(count[n], 1)) · Wl[c,j]  +  b[j])  +  ∑ c, H[n,c] · Wr[c,j].

  When the count is a count — a sum of ones from zero over a finite set of edges — the quotient is the product with
  1 / max(count, 1) (`Count.div_count`), and the three terms reordered are `Spec`'s value before the activation.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«168755_j21887153341148_1_alg».proof.Proof.LibMatDot
import proofs.«168755_j21887153341148_1_alg».proof.Proof.Spec
import proofs.«168755_j21887153341148_1_alg».proof.Proof.Count

noncomputable section

open scoped BigOperators

namespace Cert.Sage.RefDense

open Idealize.ShloMosaic Idealize.ShloMosaic.ValueIdx Cert.Sage

variable {N K M : Nat}

/-- The reference's dense step before the activation, in the host's operations. -/
def refPre (wd : DotDims.WF ⟨2, ![N, K]⟩ ⟨2, ![K, M]⟩ ⟨2, ![N, M]⟩ [1] [0] [0] [1] [] [])
    (hc : (⟨2, ![N, 1]⟩ : Shape).BroadcastsInDim ⟨2, ![N, K]⟩ ![0, 1])
    (h1 : (⟨1, ![M]⟩ : Shape).BroadcastsInDim ⟨2, ![1, M]⟩ ![1])
    (h2 : (⟨2, ![1, M]⟩ : Shape).BroadcastsInDim ⟨2, ![N, M]⟩ ![0, 1])
    (hs : (⟨0, ![]⟩ : Shape).BroadcastsInDim ⟨2, ![N, 1]⟩ ![])
    (A : FVec Ideal ⟨2, ![N, K]⟩ .f32) (cnt : FVec Ideal ⟨2, ![N, 1]⟩ .f32) (H : FVec Ideal ⟨2, ![N, K]⟩ .f32)
    (Wl Wr : FVec Ideal ⟨2, ![K, M]⟩ .f32) (b : FVec Ideal ⟨1, ![M]⟩ .f32) : FVec Ideal ⟨2, ![N, M]⟩ .f32 :=
  addf
    (addf
      (Host.dotGeneral (⟨[1], [0], [0], [1], [], [], wd⟩ : DotDims ⟨2, ![N, K]⟩ ⟨2, ![K, M]⟩ ⟨2, ![N, M]⟩) none
        (Host.divf A (broadcastInDim ⟨2, ![N, K]⟩ ![0, 1] hc
          (maximumf cnt (broadcastInDim ⟨2, ![N, 1]⟩ ![] hs (constant (F := Ideal) ⟨0, ![]⟩ .f32 0x3F800000#32)))))
        Wl)
      (broadcastInDim ⟨2, ![N, M]⟩ ![0, 1] h2 (broadcastInDim ⟨2, ![1, M]⟩ ![1] h1 b)))
    (Host.dotGeneral (⟨[1], [0], [0], [1], [], [], wd⟩ : DotDims ⟨2, ![N, K]⟩ ⟨2, ![K, M]⟩ ⟨2, ![N, M]⟩) none H Wr)

/-- The dense step at node `n`, output feature `j`. -/
theorem refPre_apply (wd : DotDims.WF ⟨2, ![N, K]⟩ ⟨2, ![K, M]⟩ ⟨2, ![N, M]⟩ [1] [0] [0] [1] [] [])
    (hc : (⟨2, ![N, 1]⟩ : Shape).BroadcastsInDim ⟨2, ![N, K]⟩ ![0, 1])
    (h1 : (⟨1, ![M]⟩ : Shape).BroadcastsInDim ⟨2, ![1, M]⟩ ![1])
    (h2 : (⟨2, ![1, M]⟩ : Shape).BroadcastsInDim ⟨2, ![N, M]⟩ ![0, 1])
    (hs : (⟨0, ![]⟩ : Shape).BroadcastsInDim ⟨2, ![N, 1]⟩ ![])
    (A : FVec Ideal ⟨2, ![N, K]⟩ .f32) (cnt : FVec Ideal ⟨2, ![N, 1]⟩ .f32) (H : FVec Ideal ⟨2, ![N, K]⟩ .f32)
    (Wl Wr : FVec Ideal ⟨2, ![K, M]⟩ .f32) (b : FVec Ideal ⟨1, ![M]⟩ .f32) (n : Fin N) (j : Fin M) :
    refPre wd hc h1 h2 hs A cnt H Wl Wr b (ix2 n j)
      = ((∑ c : Fin K, Ideal.div (A (ix2 n c)) (max (cnt (ix2 n (0 : Fin 1))) (Ideal.ofBits .f32 0x3F800000#32)) * Wl (ix2 c j))
          + b (ix1 j)) + ∑ c : Fin K, H (ix2 n c) * Wr (ix2 c j) := by
  unfold refPre
  rw [addf_apply, addf_apply, Cert.Lib.MatDot.dotGeneral_apply wd, Cert.Lib.MatDot.dotGeneral_apply wd,
    Cert.Lib.MatDot.broadcastInDim_vec_rows_apply h1 h2]
  congr 2
  refine Finset.sum_congr rfl fun c _ => ?_
  congr 1
  show Ideal.div (A (ix2 n c)) (broadcastInDim ⟨2, ![N, K]⟩ ![0, 1] hc
      (maximumf cnt (broadcastInDim ⟨2, ![N, 1]⟩ ![] hs (constant (F := Ideal) ⟨0, ![]⟩ .f32 0x3F800000#32))) (ix2 n c)) = _
  rw [Cert.Lib.MatDot.broadcastInDim_col_apply hc, maximumf_apply,
    broadcastInDim_apply ![] hs _ (ix2 n (0 : Fin 1)) ix0 (fun ax => ax.elim0), constant_apply]

/-- With a count for `cnt` and the factor 1 / max(count, 1) for `I`, the dense step is `Spec`'s value before the
    activation: the quotient by max(count, 1) is the product with the factor, and the three terms are reordered. -/
theorem refPre_eq_preAt {ι : Type} (S : Fin N → Finset ι)
    (wd : DotDims.WF ⟨2, ![N, K]⟩ ⟨2, ![K, M]⟩ ⟨2, ![N, M]⟩ [1] [0] [0] [1] [] [])
    (hc : (⟨2, ![N, 1]⟩ : Shape).BroadcastsInDim ⟨2, ![N, K]⟩ ![0, 1])
    (h1 : (⟨1, ![M]⟩ : Shape).BroadcastsInDim ⟨2, ![1, M]⟩ ![1])
    (h2 : (⟨2, ![1, M]⟩ : Shape).BroadcastsInDim ⟨2, ![N, M]⟩ ![0, 1])
    (hs : (⟨0, ![]⟩ : Shape).BroadcastsInDim ⟨2, ![N, 1]⟩ ![])
    (A : FVec Ideal ⟨2, ![N, K]⟩ .f32) (cnt : FVec Ideal ⟨2, ![N, 1]⟩ .f32) (I : Mat N 1) (H : FVec Ideal ⟨2, ![N, K]⟩ .f32)
    (Wl Wr : FVec Ideal ⟨2, ![K, M]⟩ .f32) (b : FVec Ideal ⟨1, ![M]⟩ .f32) (B : Mat 1 M)
    (hcnt : ∀ n : Fin N, cnt (ix2 n (0 : Fin 1)) = Ideal.ofBits .f32 0x00000000#32 + ∑ _e ∈ S n, Ideal.ofBits .f32 0x3F800000#32)
    (hI : ∀ n : Fin N, I (ix2 n (0 : Fin 1)) = Ideal.div (Ideal.ofBits .f32 0x3F800000#32)
      (max (Ideal.ofBits .f32 0x00000000#32 + ∑ _e ∈ S n, Ideal.ofBits .f32 0x3F800000#32) (Ideal.ofBits .f32 0x3F800000#32)))
    (hB : ∀ j : Fin M, B (ix2 (0 : Fin 1) j) = b (ix1 j)) (n : Fin N) (j : Fin M) :
    refPre wd hc h1 h2 hs A cnt H Wl Wr b (ix2 n j) = preAt A I H Wl Wr B n j := by
  rw [refPre_apply, ← preAtRef_eq]
  unfold preAtRef
  rw [hB j]
  congr 2
  refine Finset.sum_congr rfl fun c _ => ?_
  rw [hcnt n, hI n, Count.div_count]

end Cert.Sage.RefDense

end
-- ==== Proof.LibGatherScatter.lean ====
/-
  Row gathers and a row scatter-add, read at an index.

  Three instances of the `gather` / `scatter` operations' dimension numbers that select whole rows of an array by a
  column `idx : [E, 1]` of row numbers, generic in the extents `N` (rows), `C` (columns), `E` (how many row
  numbers) and in the width `w` of the integer words:

  * `gather_rows1_apply`: from `x : [N]`, entry `e` of the result is `x` at row `idx[e, 0]`, read signed and
    clamped into `[0, N − 1]`;
  * `gather_rows2_apply`: from `x : [N, C]`, entry `(e, c)` of the result is `x` at row `idx[e, 0]` (read signed,
    clamped into `[0, N − 1]`) and column `c`;
  * `scatterAdd_rows2_apply`: adding the rows of `upd : [E, C]` into `x : [N, C]`, entry `(n, c)` of the result is
    `x[n, c]` plus the sum of `upd[e, c]` over those `e` whose row number `idx[e, 0]`, read signed and NOT clamped,
    equals `n` (a row number outside `[0, N)` contributes nowhere).
-/
import Idealize.ShloMosaic.PureOps.Ideal
import Idealize.ShloMosaic.PureOps.Ideal.Laws
import Idealize.ShloMosaic.Lib.ValueIdx

noncomputable section

open scoped BigOperators

namespace Cert.GatherScatter

open Idealize.ShloMosaic Idealize.ShloMosaic.ValueIdx

/-! ## A scatter's landing index, for any dimension numbers -/

/-- An update index `j` lands on the operand index `i` exactly when, on every operand axis, the signed start plus
    the window coordinate equals `i`'s coordinate. (The landing index exists only when that sum is inside the
    operand on every axis; a coordinate of `i` always is, so the in-range condition is implied by the equations.) -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split
  · rename_i h
    constructor
    · intro hs a
      have h1 := congrArg Fin.val (congrFun (Option.some.inj hs) a)
      simp only at h1
      have := h a
      omega
    · intro hs
      congr 1
      funext a
      refine Fin.ext ?_
      have := hs a
      simp only
      omega
  · rename_i h
    constructor
    · intro hs; exact absurd hs (by simp)
    · intro hs
      exfalso
      apply h
      intro a
      have := hs a
      have := (i a).isLt
      omega

/-! ## Adding rows `upd : [E, C]` into `x : [N, C]` at the row numbers `idx : [E, 1]`

The scatter's dimension numbers: update_window_dims `[1]` (an update's column is the window), inserted_window_dims
`[0]` (the operand's row axis carries no window), scatter_dims_to_operand_dims `[0]` (the one component of a scatter
index is a row number) and index_vector_dim `1`. Update `(e, c')` lands on row `idx[e, 0]`, read signed and not
clamped, and column `c'`; it is dropped when that row is outside `[0, N)`. -/

/-- Those dimension numbers for an operand `[N, C]`, scatter indices `[E, 1]` and updates `[E, C]`; their conditions
    `wf` are decided on a program's literal shapes. -/
abbrev addDims2 (N C E : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section Scatter
variable {N C E w : Nat} (wf : ScatterDims.WF ⟨2, ![N, C]⟩ ⟨2, ![E, 1]⟩ ⟨2, ![E, C]⟩ [1] [0] [0] 1)

/-- On the row axis the start of update `(e, c')` is the row number `idx[e, 0]`, read signed. -/
theorem addDims2_start0 (idx : IVec ⟨2, ![E, 1]⟩ w) (e : Fin E) (c' : Fin C) :
    (addDims2 N C E wf).start (ix2 e c') idx 0 = (idx (ix2 e (0 : Fin 1))).toInt := by
  unfold ScatterDims.start
  rw [dif_pos (show (0 : Fin 2) ∈ (addDims2 N C E wf).scatterDimsToOperandDims from List.mem_singleton.mpr rfl)]
  have hsi : (addDims2 N C E wf).siIdx (ix2 e c') ⟨List.idxOf (0 : Fin 2) (addDims2 N C E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis, which the scatter indices do not address, the start is `0`. -/
theorem addDims2_start1 (idx : IVec ⟨2, ![E, 1]⟩ w) (e : Fin E) (c' : Fin C) :
    (addDims2 N C E wf).start (ix2 e c') idx 1 = 0 := by
  unfold ScatterDims.start
  rw [dif_neg (show (1 : Fin 2) ∉ ([0] : List (Fin 2)) by decide)]

/-- The row axis is an inserted one: its window coordinate is `0`. -/
theorem addDims2_window0 (e : Fin E) (c' : Fin C) :
    (addDims2 N C E wf).window (ix2 e c') 0 = 0 := by
  unfold ScatterDims.window
  have h0 : (0 : Fin 2) ∉ (addDims2 N C E wf).sKept :=
    show (0 : Fin 2) ∉ (List.finRange 2).filter (· ∉ ([0] : List (Fin 2))) by decide
  rw [dif_neg h0]

/-- The column axis carries the window: its window coordinate is the update's column `c'`. -/
theorem addDims2_window1 (e : Fin E) (c' : Fin C) :
    (addDims2 N C E wf).window (ix2 e c') 1 = c'.val := by
  unfold ScatterDims.window
  have h1 : (1 : Fin 2) ∈ (addDims2 N C E wf).sKept :=
    show (1 : Fin 2) ∈ (List.finRange 2).filter (· ∉ ([0] : List (Fin 2))) by decide
  rw [dif_pos h1]
  rfl

/-- Update `(e, c')` lands on `(n, c)` exactly when the columns agree and the row number `idx[e, 0]`, read signed,
    is `n`. -/
theorem addDims2_resultIdx?_iff (idx : IVec ⟨2, ![E, 1]⟩ w) (e : Fin E) (c' c : Fin C) (n : Fin N) :
    (addDims2 N C E wf).resultIdx? (ix2 e c') idx = some (ix2 n c) ↔
      c' = c ∧ (idx (ix2 e (0 : Fin 1))).toInt = (n.val : Int) := by
  rw [resultIdx?_eq_some_iff, Fin.forall_fin_two, addDims2_start0, addDims2_start1, addDims2_window0, addDims2_window1]
  show (idx (ix2 e (0 : Fin 1))).toInt + ((0 : Nat) : Int) = (n.val : Int) ∧ (0 : Int) + (c'.val : Int) = (c.val : Int) ↔ _
  constructor
  · rintro ⟨h1, h2⟩
    exact ⟨Fin.ext (by omega), by omega⟩
  · rintro ⟨rfl, h2⟩
    exact ⟨by omega, by omega⟩

/-- THE SCATTER-ADD READ AT `(n, c)`: the operand's entry plus the sum of the updates `upd[e, c]` over the `e` whose
    row number `idx[e, 0]`, read signed and not clamped, is `n`. The sum over the update indices `(e, c')` landing on
    `(n, c)` is split by coordinates; for each `e` the inner sum over `c'` has the single term `c' = c`. -/
theorem scatterAdd_rows2_apply (x : (⟨2, ![N, C]⟩ : Shape).Idx → EReal) (idx : IVec ⟨2, ![E, 1]⟩ w)
    (upd : (⟨2, ![E, C]⟩ : Shape).Idx → EReal) (n : Fin N) (c : Fin C) :
    Ideal.hostScatterAdd (addDims2 N C E wf) x idx upd (ix2 n c) =
      x (ix2 n c) + ∑ e ∈ Finset.univ.filter (fun e : Fin E => (idx (ix2 e (0 : Fin 1))).toInt = (n.val : Int)),
        upd (ix2 e c) := by
  unfold Ideal.hostScatterAdd
  congr 1
  rw [Finset.sum_filter, Finset.sum_filter, sum_idx2]
  refine Finset.sum_congr rfl fun e _ => ?_
  simp only [addDims2_resultIdx?_iff]
  by_cases h : (idx (ix2 e (0 : Fin 1))).toInt = (n.val : Int)
  · simp only [h, and_true, if_true]
    exact (Finset.sum_ite_eq' Finset.univ c _).trans (by simp)
  · simp only [h, and_false, if_false]
    exact Finset.sum_const_zero

end Scatter

/-! ## Reading rows of `x : [N, C]` at the row numbers `idx : [E, 1]`

The gather's dimension numbers: offset_dims `[1]` (the result's column axis runs over a slice), collapsed_slice_dims
`[0]` (a slice is one row), start_index_map `[0]` (the one component of a start index is a row number),
index_vector_dim `1`, slice_sizes `[1, C]`. Result element `(e, c)` is `x` at row `idx[e, 0]`, read as a signed integer
and clamped into `[0, N − 1]` (a gather clamps every start index so that the slice stays inside the operand), and
column `c`. -/

section Rows2
variable {α : Type}

/-- Those dimension numbers for an operand `[N, C]`, start indices `[E, 1]` and result `[E, C]`; their conditions `wf`
    are decided on a program's literal shapes. -/
abbrev rowsDims2 (N C E : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, c)`: the operand at row `idx[e, 0]`, read signed and clamped into `[0, N − 1]`, and
    column `c`. On the row axis the operand index is the clamped start alone (the axis is collapsed: no offset); on
    the column axis it is the offset `c` alone (the start index does not address it). -/
theorem gather_rows2_apply {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowsDims2 N C E wf) x idx (ix2 e c) =
      x (ix2 ⟨min (idx (ix2 e (0 : Fin 1))).toInt.toNat (N - 1), by omega⟩ c) := by
  unfold Host.gather
  congr 1
  funext a
  refine Fin.ext ?_
  match a with
  | ⟨0, _⟩ =>
    show (rowsDims2 N C E wf).start (ix2 e c) idx 0 + (rowsDims2 N C E wf).batchCoord (ix2 e c) 0
      + (rowsDims2 N C E wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims2 N C E wf).startIndexMap from List.mem_singleton.mpr rfl)]
    have hsi : (rowsDims2 N C E wf).siIdx (ix2 e c) ⟨List.idxOf (0 : Fin 2) (rowsDims2 N C E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowsDims2 N C E wf).start (ix2 e c) idx 1 + (rowsDims2 N C E wf).batchCoord (ix2 e c) 1
      + (rowsDims2 N C E wf).offCoord (ix2 e c) 1 = c.val
    have hs : (rowsDims2 N C E wf).start (ix2 e c) idx 1 = 0 := by
      unfold GatherDims.start
      rw [dif_neg (show (1 : Fin 2) ∉ ([0] : List (Fin 2)) by decide)]
    have ho : (rowsDims2 N C E wf).offCoord (ix2 e c) 1 = c.val := by
      unfold GatherDims.offCoord
      have h1' : (1 : Fin 2) ∈ (List.finRange 2).filter (· ∉ ([0] ++ [] : List (Fin 2))) := by decide
      have h1 : (1 : Fin 2) ∈ (rowsDims2 N C E wf).sKept := h1'
      rw [dif_pos h1]
      rfl
    rw [GatherDims.batchCoord_eq_zero _ _ _ List.not_mem_nil, hs, ho]
    omega

end Rows2

/-! ## Reading entries of `x : [N]` at the row numbers `idx : [E, 1]`

The same gather of a flat operand: offset_dims `[]`, collapsed_slice_dims `[0]`, start_index_map `[0]`,
index_vector_dim `1`, slice_sizes `[1]`. Result element `e` is `x` at `idx[e, 0]`, read signed and clamped into
`[0, N − 1]`. -/

section Rows1
variable {α : Type}

/-- Those dimension numbers for an operand `[N]`, start indices `[E, 1]` and result `[E]`; their conditions `wf` are
    decided on a program's literal shapes. -/
abbrev rowsDims1 (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE FLAT GATHER READ AT `e`: the operand at the start index `idx[e, 0]`, read signed and clamped into
    `[0, N − 1]`. The operand's one axis is collapsed, so the operand index is the clamped start alone. -/
theorem gather_rows1_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (rowsDims1 N E wf) x idx (ix1 e) =
      x (ix1 ⟨min (idx (ix2 e (0 : Fin 1))).toInt.toNat (N - 1), by omega⟩) := by
  unfold Host.gather
  congr 1
  funext a
  obtain rfl : a = 0 := Subsingleton.elim _ _
  refine Fin.ext ?_
  show (rowsDims1 N E wf).start (ix1 e) idx 0 + (rowsDims1 N E wf).batchCoord (ix1 e) 0
    + (rowsDims1 N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (rowsDims1 N E wf).startIndexMap from List.mem_singleton.mpr rfl)]
  have hsi : (rowsDims1 N E wf).siIdx (ix1 e) ⟨List.idxOf (0 : Fin 1) (rowsDims1 N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end Rows1

/-! ## The same scatter-add as the host operation states it -/

section HostScatter
variable {N C E w : Nat} (wf : ScatterDims.WF ⟨2, ![N, C]⟩ ⟨2, ![E, 1]⟩ ⟨2, ![E, C]⟩ [1] [0] [0] 1)

/-- THE HOST'S SCATTER-ADD READ AT `(n, c)`, on the extended reals: the host's accumulating float scatter is the exact
    sum, so this is `scatterAdd_rows2_apply` stated at the host operation. Stated at generic extents, where passing from
    the host operation to the exact sum is a definitional unfolding; a use at literal extents matches it as it is
    written. -/
theorem Host_scatterAdd_rows2_apply (x : FVec Ideal ⟨2, ![N, C]⟩ .f32) (idx : IVec ⟨2, ![E, 1]⟩ w)
    (upd : FVec Ideal ⟨2, ![E, C]⟩ .f32) (n : Fin N) (c : Fin C) :
    Host.scatterAdd (F := Ideal) (addDims2 N C E wf) x idx upd (ix2 n c) =
      x (ix2 n c) + ∑ e ∈ Finset.univ.filter (fun e : Fin E => (idx (ix2 e (0 : Fin 1))).toInt = (n.val : Int)),
        upd (ix2 e c) :=
  scatterAdd_rows2_apply wf x idx upd n c

end HostScatter

end Cert.GatherScatter

end
-- ==== Proof.LibScatterCount.lean ====
import Idealize.ShloMosaic.PureOps.Ideal
import Idealize.ShloMosaic.PureOps.Ideal.Laws
import Idealize.ShloMosaic.Lib.ValueIdx
import proofs.«168755_j21887153341148_1_alg».proof.Proof.LibGatherScatter

/-!
# A scatter-add of entries into a flat array, read at an index

The `scatter` operation's dimension numbers that add the entries of `upd : [E]` into `x : [N]` at the
positions named by a column `idx : [E, 1]` of integer words, generic in the extents `N`, `E` and in the
width `w` of the words: update_window_dims `[]` (an update is a single entry: no window),
inserted_window_dims `[0]`, scatter_dims_to_operand_dims `[0]` (the one component of a scatter index is a
position), index_vector_dim `1`.

* `scatterAdd_rows1_apply`: entry `n` of the result is `x[n]` plus the sum of `upd[e]` over those `e` whose
  position `idx[e, 0]`, read signed and NOT clamped, equals `n` (a position outside `[0, N)` contributes
  nowhere). With every update `1` this counts the `e` that name `n`.
* `Host_scatterAdd_rows1_apply`: the same, stated at the host's accumulating float scatter on the extended
  reals.
-/

noncomputable section

open scoped BigOperators

namespace Cert.ScatterCount

open Idealize.ShloMosaic Idealize.ShloMosaic.ValueIdx

/-- A one-axis index set is its coordinate's range … -/
def idxEquiv1 {n : Nat} : (⟨1, ![n]⟩ : Shape).Idx ≃ Fin n where
  toFun i := i 0
  invFun p := ix1 p
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- Those dimension numbers for an operand `[N]`, scatter indices `[E, 1]` and updates `[E]`; their
    conditions `wf` are decided on a program's literal shapes. -/
abbrev addDims1 (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section Scatter
variable {N E w : Nat} (wf : ScatterDims.WF ⟨1, ![N]⟩ ⟨2, ![E, 1]⟩ ⟨1, ![E]⟩ [] [0] [0] 1)

/-- On the operand's one axis the start of update `e` is the position `idx[e, 0]`, read signed. -/
theorem addDims1_start0 (idx : IVec ⟨2, ![E, 1]⟩ w) (e : Fin E) :
    (addDims1 N E wf).start (ix1 e) idx 0 = (idx (ix2 e (0 : Fin 1))).toInt := by
  unfold ScatterDims.start
  rw [dif_pos (show (0 : Fin 1) ∈ (addDims1 N E wf).scatterDimsToOperandDims from List.mem_singleton.mpr rfl)]
  have hsi : (addDims1 N E wf).siIdx (ix1 e) ⟨List.idxOf (0 : Fin 1) (addDims1 N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- The operand's one axis is an inserted one: its window coordinate is `0`. -/
theorem addDims1_window0 (e : Fin E) : (addDims1 N E wf).window (ix1 e) 0 = 0 := by
  unfold ScatterDims.window
  have h0 : (0 : Fin 1) ∉ (addDims1 N E wf).sKept :=
    show (0 : Fin 1) ∉ (List.finRange 1).filter (· ∉ ([0] : List (Fin 1))) by decide
  rw [dif_neg h0]

/-- Update `e` lands on `n` exactly when the position `idx[e, 0]`, read signed, is `n`. -/
theorem addDims1_resultIdx?_iff (idx : IVec ⟨2, ![E, 1]⟩ w) (e : Fin E) (n : Fin N) :
    (addDims1 N E wf).resultIdx? (ix1 e) idx = some (ix1 n) ↔
      (idx (ix2 e (0 : Fin 1))).toInt = (n.val : Int) := by
  rw [GatherScatter.resultIdx?_eq_some_iff]
  constructor
  · intro hs
    have h0 := hs 0
    rw [addDims1_start0, addDims1_window0] at h0
    have h1 : (idx (ix2 e (0 : Fin 1))).toInt + ((0 : Nat) : Int) = (n.val : Int) := h0
    omega
  · intro hs a
    obtain rfl : a = 0 := Subsingleton.elim _ _
    rw [addDims1_start0, addDims1_window0]
    show (idx (ix2 e (0 : Fin 1))).toInt + ((0 : Nat) : Int) = (n.val : Int)
    omega

/-- THE SCATTER-ADD READ AT `n`: the operand's entry plus the sum of the updates `upd[e]` over the `e` whose
    position `idx[e, 0]`, read signed and not clamped, is `n`. -/
theorem scatterAdd_rows1_apply (x : (⟨1, ![N]⟩ : Shape).Idx → EReal) (idx : IVec ⟨2, ![E, 1]⟩ w)
    (upd : (⟨1, ![E]⟩ : Shape).Idx → EReal) (n : Fin N) :
    Ideal.hostScatterAdd (addDims1 N E wf) x idx upd (ix1 n) =
      x (ix1 n) + ∑ e ∈ Finset.univ.filter (fun e : Fin E => (idx (ix2 e (0 : Fin 1))).toInt = (n.val : Int)),
        upd (ix1 e) := by
  unfold Ideal.hostScatterAdd
  congr 1
  rw [Finset.sum_filter, Finset.sum_filter, sum_idx1]
  refine Finset.sum_congr rfl fun e _ => ?_
  simp only [addDims1_resultIdx?_iff]

end Scatter

section HostScatter
variable {N E w : Nat} (wf : ScatterDims.WF ⟨1, ![N]⟩ ⟨2, ![E, 1]⟩ ⟨1, ![E]⟩ [] [0] [0] 1)

/-- THE HOST'S SCATTER-ADD READ AT `n`, on the extended reals: the host's accumulating float scatter is the
    exact sum, so this is `scatterAdd_rows1_apply` stated at the host operation. -/
theorem Host_scatterAdd_rows1_apply (x : FVec Ideal ⟨1, ![N]⟩ .f32) (idx : IVec ⟨2, ![E, 1]⟩ w)
    (upd : FVec Ideal ⟨1, ![E]⟩ .f32) (n : Fin N) :
    Host.scatterAdd (F := Ideal) (addDims1 N E wf) x idx upd (ix1 n) =
      x (ix1 n) + ∑ e ∈ Finset.univ.filter (fun e : Fin E => (idx (ix2 e (0 : Fin 1))).toInt = (n.val : Int)),
        upd (ix1 e) :=
  scatterAdd_rows1_apply wf x idx upd n

end HostScatter

end Cert.ScatterCount

end
-- ==== Proof.RefCount.lean ====
/-
  The counts of the edges ending at a node, in both programs' forms, read at a node.

  The reference recomputes, in every layer, the count of the edges ending at each node (as a one-column array) and
  divides the neighbour sums by max(count, 1); the kernel computes the count once (as a vector), takes
  1 / max(count, 1) and multiplies. Both counts are the sum of a one per edge ending at the node, from zero
  (the accumulating scatter read at an entry), so the quotient is the product (`Count.div_count`); the gather and
  the scatter of the neighbour sums are the same operations in both programs and are not opened. With the three terms
  of the dense step reordered, every layer of the reference is the layer of `Stages`, and its result the network.
-/
import proofs.«168755_j21887153341148_1_alg».proof.Proof.Gen.ReferenceIdeal.Read
import proofs.«168755_j21887153341148_1_alg».proof.Proof.Stages
import proofs.«168755_j21887153341148_1_alg».proof.Proof.RefDense
import proofs.«168755_j21887153341148_1_alg».proof.Proof.Count
import proofs.«168755_j21887153341148_1_alg».proof.Proof.LibGatherScatter
import proofs.«168755_j21887153341148_1_alg».proof.Proof.LibScatterCount
import Idealize.ShloMosaic.Lib.ValueLayout

set_option maxRecDepth 16384

noncomputable section

open scoped BigOperators

namespace Cert.Sage.RefCount

open Idealize.ShloMosaic Idealize.ShloMosaic.ValueIdx Cert.Sage Cert.Sage.Stages
open Cert.ReferenceIdeal Cert.ReferenceIdeal.Facts₀ Cert.ReferenceIdeal.Read

/-- The edges that end at node `n`: those whose end-node number, read as a signed integer, is `n`. -/
abbrev ends (d : EdgeVec) (n : Fin 100000) : Finset (Fin 1600000) :=
  Finset.univ.filter fun e => (dstCol d (ix2 e (0 : Fin 1))).toInt = (n.val : Int)

/-- A float constant laid over a shape reads the constant everywhere. -/
theorem bcast_const_apply {s : Shape} (h : (⟨0, ![]⟩ : Shape).BroadcastsInDim s ![]) (w : BitVec (FTy.f32).bits) (i : s.Idx) :
    broadcastInDim s ![] h (constant (F := Ideal) ⟨0, ![]⟩ .f32 w) i = Ideal.ofBits .f32 w := by
  rw [broadcastInDim_apply ![] h _ i ix0 (fun ax => ax.elim0), constant_apply]

/-- The kernel's count at node `n`: zero plus a one per edge ending there. -/
theorem countVec_apply (d : EdgeVec) (n : Fin 100000) :
    countVec d (ix1 n) = Ideal.ofBits .f32 0x00000000#32 + ∑ _e ∈ ends d n, Ideal.ofBits .f32 0x3F800000#32 := by
  unfold countVec
  refine (Cert.ScatterCount.Host_scatterAdd_rows1_apply (N := 100000) (E := 1600000) (w := 32)
    Cert.KernelIdeal.scatter_S100000_S1600000x1_S1600000_n_0_0_1.wf _ _ _ n).trans ?_
  exact congrArg₂ (· + ·) (bcast_const_apply _ _ _) (Finset.sum_congr rfl fun e _ => bcast_const_apply _ _ _)

/-- The factor column at node `n`: one over max(count, 1). -/
theorem invCol_apply (d : EdgeVec) (n : Fin 100000) :
    invCol d (ix2 n (0 : Fin 1)) = Ideal.div (Ideal.ofBits .f32 0x3F800000#32)
      (max (Ideal.ofBits .f32 0x00000000#32 + ∑ _e ∈ ends d n, Ideal.ofBits .f32 0x3F800000#32) (Ideal.ofBits .f32 0x3F800000#32)) := by
  unfold invCol
  rw [shapeCast_apply _ _ (ix2 n (0 : Fin 1)) (ix1 n) (by
    rw [Shape.rowMajor_val_two, Shape.rowMajor_val_one]
    show n.val = n.val * 1 + 0
    omega)]
  rw [show ∀ (a b : FVec Ideal Cert.KernelIdeal.S100000 .f32) (i : Cert.KernelIdeal.S100000.Idx), Host.divf a b i = Ideal.div (a i) (b i)
    from fun _ _ _ => rfl, maximumf_apply, countVec_apply, bcast_const_apply]

/-- The reference's count (a one-column array) at node `n`: the same sum. -/
theorem refCount_apply (x1 : (⟨S2x1600000, .i32⟩ : BufTy).Contents (Elt Ideal)) (n : Fin 100000) :
    val_main_v17 (F := Ideal) x1 (ix2 n (0 : Fin 1))
      = Ideal.ofBits .f32 0x00000000#32 + ∑ _e ∈ ends (dstVec x1) n, Ideal.ofBits .f32 0x3F800000#32 := by
  unfold val_main_v17
  refine (Cert.GatherScatter.Host_scatterAdd_rows2_apply (N := 100000) (C := 1) (E := 1600000) (w := 32)
    scatter_S100000x1_S1600000x1_S1600000x1_1_0_0_1.wf _ _ _ n (0 : Fin 1)).trans ?_
  exact congrArg₂ (· + ·) (bcast_const_apply _ _ _) (Finset.sum_congr rfl fun e _ => bcast_const_apply _ _ _)

end Cert.Sage.RefCount

end
-- ==== Proof.RefNet.lean ====
/-
  The reference's result as the network function of the arguments.

  The reference recomputes, in every layer, the count of the edges ending at each node (as a one-column array) and
  divides the neighbour sums by max(count, 1); the kernel computes the count once (as a vector), takes
  1 / max(count, 1) and multiplies. Both counts are the sum of a one per edge ending at the node, from zero
  (`RefCount`), so the quotient is the product (`Count.div_count`); the gather and the scatter of the neighbour sums
  are the same operations in both programs and are not opened. With the three terms of the dense step reordered,
  every layer of the reference is the layer of `Stages`, and its result the network.
-/
import proofs.«168755_j21887153341148_1_alg».proof.Proof.Gen.ReferenceIdeal.Read
import proofs.«168755_j21887153341148_1_alg».proof.Proof.Stages
import proofs.«168755_j21887153341148_1_alg».proof.Proof.RefDense
import proofs.«168755_j21887153341148_1_alg».proof.Proof.Count
import proofs.«168755_j21887153341148_1_alg».proof.Proof.RefCount
import Idealize.ShloMosaic.Lib.ValueLayout

set_option maxRecDepth 16384

noncomputable section

open scoped BigOperators

namespace Cert.Sage.RefNet

open Idealize.ShloMosaic Idealize.ShloMosaic.ValueIdx Cert.Sage Cert.Sage.Stages Cert.Sage.RefCount
open Cert.ReferenceIdeal Cert.ReferenceIdeal.Facts₀ Cert.ReferenceIdeal.Read

/-! ## Layer 0 -/

/-- The count is the same array in every layer. -/
theorem cnt0 (x1 : (⟨S2x1600000, .i32⟩ : BufTy).Contents (Elt Ideal)) : val_main_v17 (F := Ideal) x1 = val_main_v17 (F := Ideal) x1 := rfl

/-- The dense step of layer 0 is the host form of `RefDense`. -/
theorem pre0 (x0 : (⟨S100000x13, .f32⟩ : BufTy).Contents (Elt Ideal)) (x1 : (⟨S2x1600000, .i32⟩ : BufTy).Contents (Elt Ideal)) (x2 : (⟨S13x64, .f32⟩ : BufTy).Contents (Elt Ideal)) (x3 : (⟨S13x64, .f32⟩ : BufTy).Contents (Elt Ideal)) (x4 : (⟨S64, .f32⟩ : BufTy).Contents (Elt Ideal)) :
    val_main_v27 (F := Ideal) x0 x1 x2 x3 x4 = RefDense.refPre dot_S100000x13_S13x64_S100000x64_1_0_0_1_n_n.wf bcast_S100000x1_S100000x13_0_1 bcast_S64_S1x64_1 bcast_S1x64_S100000x64_0_1 bcast_S_S100000x1 (val_main_v13 (F := Ideal) x0 x1) (val_main_v17 (F := Ideal) x1) x0 x2 x3 x4 := rfl

/-- At an entry it is `Spec`'s value before the activation on the neighbour sums, the factor column and the bias row. -/
theorem pre0_apply (x0 : (⟨S100000x13, .f32⟩ : BufTy).Contents (Elt Ideal)) (x1 : (⟨S2x1600000, .i32⟩ : BufTy).Contents (Elt Ideal)) (x2 : (⟨S13x64, .f32⟩ : BufTy).Contents (Elt Ideal)) (x3 : (⟨S13x64, .f32⟩ : BufTy).Contents (Elt Ideal)) (x4 : (⟨S64, .f32⟩ : BufTy).Contents (Elt Ideal)) (n : Fin 100000) (j : Fin 64) :
    val_main_v27 (F := Ideal) x0 x1 x2 x3 x4 (ix2 n j)
      = preAt (agg13 x0 (srcVec x1) (dstVec x1)) (invCol (dstVec x1)) x0 x2 x3 (biasRow64 x4) n j := by
  rw [pre0]
  exact RefDense.refPre_eq_preAt (fun n => ends (dstVec x1) n) _ _ _ _ _ _ _ (invCol (dstVec x1)) _ _ _ _ (biasRow64 x4)
    (fun n => (congrFun (cnt0 x1) _).trans (refCount_apply x1 n)) (fun n => invCol_apply (dstVec x1) n)
    (fun j => shapeCast_a_1a_apply x4 _ 0 j) n j

/-- Layer 0 of the reference is layer 0 of the network. -/
theorem layer0_ref (x0 : (⟨S100000x13, .f32⟩ : BufTy).Contents (Elt Ideal)) (x1 : (⟨S2x1600000, .i32⟩ : BufTy).Contents (Elt Ideal)) (x2 : (⟨S13x64, .f32⟩ : BufTy).Contents (Elt Ideal)) (x3 : (⟨S13x64, .f32⟩ : BufTy).Contents (Elt Ideal)) (x4 : (⟨S64, .f32⟩ : BufTy).Contents (Elt Ideal)) :
    val_main_v28 (F := Ideal) x0 x1 x2 x3 x4 = layer0 x0 x1 x2 x3 x4 := by
  funext i
  obtain ⟨n, j, rfl⟩ : ∃ (n : Fin 100000) (j : Fin 64), i = ix2 n j := ⟨i 0, i 1, eq_ix2 i⟩
  have hz : val_main_call0_v0 (F := Ideal) (ix2 n j) = 0 := by
    unfold val_main_call0_v0 val_main_call0_cst
    rw [bcast_const_apply, Ideal.ofBits_zero_f32]
  rw [val_main_v28_apply, Ideal.maximumf_def, pre0_apply, hz]
  unfold layer0
  rw [layerRelu_apply]

/-! ## Layer 1 -/

/-- The count is the same array in every layer. -/
theorem cnt1 (x1 : (⟨S2x1600000, .i32⟩ : BufTy).Contents (Elt Ideal)) : val_main_v42 (F := Ideal) x1 = val_main_v17 (F := Ideal) x1 := rfl

/-- The dense step of layer 1 is the host form of `RefDense`. -/
theorem pre1 (x0 : (⟨S100000x13, .f32⟩ : BufTy).Contents (Elt Ideal)) (x1 : (⟨S2x1600000, .i32⟩ : BufTy).Contents (Elt Ideal)) (x2 : (⟨S13x64, .f32⟩ : BufTy).Contents (Elt Ideal)) (x3 : (⟨S13x64, .f32⟩ : BufTy).Contents (Elt Ideal)) (x4 : (⟨S64, .f32⟩ : BufTy).Contents (Elt Ideal)) (x5 : (⟨S64x64, .f32⟩ : BufTy).Contents (Elt Ideal)) (x6 : (⟨S64x64, .f32⟩ : BufTy).Contents (Elt Ideal)) (x7 : (⟨S64, .f32⟩ : BufTy).Contents (Elt Ideal)) :
    val_main_v52 (F := Ideal) x0 x1 x2 x3 x4 x5 x6 x7 = RefDense.refPre dot_S100000x64_S64x64_S100000x64_1_0_0_1_n_n.wf bcast_S100000x1_S100000x64_0_1 bcast_S64_S1x64_1 bcast_S1x64_S100000x64_0_1 bcast_S_S100000x1 (val_main_v38 (F := Ideal) x0 x1 x2 x3 x4) (val_main_v42 (F := Ideal) x1) (val_main_v28 (F := Ideal) x0 x1 x2 x3 x4) x5 x6 x7 := rfl

/-- At an entry it is `Spec`'s value before the activation on the neighbour sums, the factor column and the bias row. -/
theorem pre1_apply (x0 : (⟨S100000x13, .f32⟩ : BufTy).Contents (Elt Ideal)) (x1 : (⟨S2x1600000, .i32⟩ : BufTy).Contents (Elt Ideal)) (x2 : (⟨S13x64, .f32⟩ : BufTy).Contents (Elt Ideal)) (x3 : (⟨S13x64, .f32⟩ : BufTy).Contents (Elt Ideal)) (x4 : (⟨S64, .f32⟩ : BufTy).Contents (Elt Ideal)) (x5 : (⟨S64x64, .f32⟩ : BufTy).Contents (Elt Ideal)) (x6 : (⟨S64x64, .f32⟩ : BufTy).Contents (Elt Ideal)) (x7 : (⟨S64, .f32⟩ : BufTy).Contents (Elt Ideal)) (n : Fin 100000) (j : Fin 64) :
    val_main_v52 (F := Ideal) x0 x1 x2 x3 x4 x5 x6 x7 (ix2 n j)
      = preAt (agg64 (val_main_v28 (F := Ideal) x0 x1 x2 x3 x4) (srcVec x1) (dstVec x1)) (invCol (dstVec x1)) (val_main_v28 (F := Ideal) x0 x1 x2 x3 x4) x5 x6 (biasRow64 x7) n j := by
  rw [pre1]
  exact RefDense.refPre_eq_preAt (fun n => ends (dstVec x1) n) _ _ _ _ _ _ _ (invCol (dstVec x1)) _ _ _ _ (biasRow64 x7)
    (fun n => (congrFun (cnt1 x1) _).trans (refCount_apply x1 n)) (fun n => invCol_apply (dstVec x1) n)
    (fun j => shapeCast_a_1a_apply x7 _ 0 j) n j

/-- Layer 1 of the reference is layer 1 of the network. -/
theorem layer1_ref (x0 : (⟨S100000x13, .f32⟩ : BufTy).Contents (Elt Ideal)) (x1 : (⟨S2x1600000, .i32⟩ : BufTy).Contents (Elt Ideal)) (x2 : (⟨S13x64, .f32⟩ : BufTy).Contents (Elt Ideal)) (x3 : (⟨S13x64, .f32⟩ : BufTy).Contents (Elt Ideal)) (x4 : (⟨S64, .f32⟩ : BufTy).Contents (Elt Ideal)) (x5 : (⟨S64x64, .f32⟩ : BufTy).Contents (Elt Ideal)) (x6 : (⟨S64x64, .f32⟩ : BufTy).Contents (Elt Ideal)) (x7 : (⟨S64, .f32⟩ : BufTy).Contents (Elt Ideal)) :
    val_main_v53 (F := Ideal) x0 x1 x2 x3 x4 x5 x6 x7 = layerH (val_main_v28 (F := Ideal) x0 x1 x2 x3 x4) x1 x5 x6 x7 := by
  funext i
  obtain ⟨n, j, rfl⟩ : ∃ (n : Fin 100000) (j : Fin 64), i = ix2 n j := ⟨i 0, i 1, eq_ix2 i⟩
  have hz : val_main_call1_v0 (F := Ideal) (ix2 n j) = 0 := by
    unfold val_main_call1_v0 val_main_call1_cst
    rw [bcast_const_apply, Ideal.ofBits_zero_f32]
  rw [val_main_v53_apply, Ideal.maximumf_def, pre1_apply, hz]
  unfold layerH
  rw [layerRelu_apply]

/-! ## Layer 2 -/

/-- The count is the same array in every layer. -/
theorem cnt2 (x1 : (⟨S2x1600000, .i32⟩ : BufTy).Contents (Elt Ideal)) : val_main_v67 (F := Ideal) x1 = val_main_v17 (F := Ideal) x1 := rfl

/-- The dense step of layer 2 is the host form of `RefDense`. -/
theorem pre2 (x0 : (⟨S100000x13, .f32⟩ : BufTy).Contents (Elt Ideal)) (x1 : (⟨S2x1600000, .i32⟩ : BufTy).Contents (Elt Ideal)) (x2 : (⟨S13x64, .f32⟩ : BufTy).Contents (Elt Ideal)) (x3 : (⟨S13x64, .f32⟩ : BufTy).Contents (Elt Ideal)) (x4 : (⟨S64, .f32⟩ : BufTy).Contents (Elt Ideal)) (x5 : (⟨S64x64, .f32⟩ : BufTy).Contents (Elt Ideal)) (x6 : (⟨S64x64, .f32⟩ : BufTy).Contents (Elt Ideal)) (x7 : (⟨S64, .f32⟩ : BufTy).Contents (Elt Ideal)) (x8 : (⟨S64x64, .f32⟩ : BufTy).Contents (Elt Ideal)) (x9 : (⟨S64x64, .f32⟩ : BufTy).Contents (Elt Ideal)) (x10 : (⟨S64, .f32⟩ : BufTy).Contents (Elt Ideal)) :
    val_main_v77 (F := Ideal) x0 x1 x2 x3 x4 x5 x6 x7 x8 x9 x10 = RefDense.refPre dot_S100000x64_S64x64_S100000x64_1_0_0_1_n_n.wf bcast_S100000x1_S100000x64_0_1 bcast_S64_S1x64_1 bcast_S1x64_S100000x64_0_1 bcast_S_S100000x1 (val_main_v63 (F := Ideal) x0 x1 x2 x3 x4 x5 x6 x7) (val_main_v67 (F := Ideal) x1) (val_main_v53 (F := Ideal) x0 x1 x2 x3 x4 x5 x6 x7) x8 x9 x10 := rfl

/-- At an entry it is `Spec`'s value before the activation on the neighbour sums, the factor column and the bias row. -/
theorem pre2_apply (x0 : (⟨S100000x13, .f32⟩ : BufTy).Contents (Elt Ideal)) (x1 : (⟨S2x1600000, .i32⟩ : BufTy).Contents (Elt Ideal)) (x2 : (⟨S13x64, .f32⟩ : BufTy).Contents (Elt Ideal)) (x3 : (⟨S13x64, .f32⟩ : BufTy).Contents (Elt Ideal)) (x4 : (⟨S64, .f32⟩ : BufTy).Contents (Elt Ideal)) (x5 : (⟨S64x64, .f32⟩ : BufTy).Contents (Elt Ideal)) (x6 : (⟨S64x64, .f32⟩ : BufTy).Contents (Elt Ideal)) (x7 : (⟨S64, .f32⟩ : BufTy).Contents (Elt Ideal)) (x8 : (⟨S64x64, .f32⟩ : BufTy).Contents (Elt Ideal)) (x9 : (⟨S64x64, .f32⟩ : BufTy).Contents (Elt Ideal)) (x10 : (⟨S64, .f32⟩ : BufTy).Contents (Elt Ideal)) (n : Fin 100000) (j : Fin 64) :
    val_main_v77 (F := Ideal) x0 x1 x2 x3 x4 x5 x6 x7 x8 x9 x10 (ix2 n j)
      = preAt (agg64 (val_main_v53 (F := Ideal) x0 x1 x2 x3 x4 x5 x6 x7) (srcVec x1) (dstVec x1)) (invCol (dstVec x1)) (val_main_v53 (F := Ideal) x0 x1 x2 x3 x4 x5 x6 x7) x8 x9 (biasRow64 x10) n j := by
  rw [pre2]
  exact RefDense.refPre_eq_preAt (fun n => ends (dstVec x1) n) _ _ _ _ _ _ _ (invCol (dstVec x1)) _ _ _ _ (biasRow64 x10)
    (fun n => (congrFun (cnt2 x1) _).trans (refCount_apply x1 n)) (fun n => invCol_apply (dstVec x1) n)
    (fun j => shapeCast_a_1a_apply x10 _ 0 j) n j

/-- Layer 2 of the reference is layer 2 of the network. -/
theorem layer2_ref (x0 : (⟨S100000x13, .f32⟩ : BufTy).Contents (Elt Ideal)) (x1 : (⟨S2x1600000, .i32⟩ : BufTy).Contents (Elt Ideal)) (x2 : (⟨S13x64, .f32⟩ : BufTy).Contents (Elt Ideal)) (x3 : (⟨S13x64, .f32⟩ : BufTy).Contents (Elt Ideal)) (x4 : (⟨S64, .f32⟩ : BufTy).Contents (Elt Ideal)) (x5 : (⟨S64x64, .f32⟩ : BufTy).Contents (Elt Ideal)) (x6 : (⟨S64x64, .f32⟩ : BufTy).Contents (Elt Ideal)) (x7 : (⟨S64, .f32⟩ : BufTy).Contents (Elt Ideal)) (x8 : (⟨S64x64, .f32⟩ : BufTy).Contents (Elt Ideal)) (x9 : (⟨S64x64, .f32⟩ : BufTy).Contents (Elt Ideal)) (x10 : (⟨S64, .f32⟩ : BufTy).Contents (Elt Ideal)) :
    val_main_v78 (F := Ideal) x0 x1 x2 x3 x4 x5 x6 x7 x8 x9 x10 = layerH (val_main_v53 (F := Ideal) x0 x1 x2 x3 x4 x5 x6 x7) x1 x8 x9 x10 := by
  funext i
  obtain ⟨n, j, rfl⟩ : ∃ (n : Fin 100000) (j : Fin 64), i = ix2 n j := ⟨i 0, i 1, eq_ix2 i⟩
  have hz : val_main_call2_v0 (F := Ideal) (ix2 n j) = 0 := by
    unfold val_main_call2_v0 val_main_call2_cst
    rw [bcast_const_apply, Ideal.ofBits_zero_f32]
  rw [val_main_v78_apply, Ideal.maximumf_def, pre2_apply, hz]
  unfold layerH
  rw [layerRelu_apply]

/-! ## Layer 3 -/

/-- The count is the same array in every layer. -/
theorem cnt3 (x1 : (⟨S2x1600000, .i32⟩ : BufTy).Contents (Elt Ideal)) : val_main_v92 (F := Ideal) x1 = val_main_v17 (F := Ideal) x1 := rfl

/-- The dense step of layer 3 is the host form of `RefDense`. -/
theorem pre3 (x0 : (⟨S100000x13, .f32⟩ : BufTy).Contents (Elt Ideal)) (x1 : (⟨S2x1600000, .i32⟩ : BufTy).Contents (Elt Ideal)) (x2 : (⟨S13x64, .f32⟩ : BufTy).Contents (Elt Ideal)) (x3 : (⟨S13x64, .f32⟩ : BufTy).Contents (Elt Ideal)) (x4 : (⟨S64, .f32⟩ : BufTy).Contents (Elt Ideal)) (x5 : (⟨S64x64, .f32⟩ : BufTy).Contents (Elt Ideal)) (x6 : (⟨S64x64, .f32⟩ : BufTy).Contents (Elt Ideal)) (x7 : (⟨S64, .f32⟩ : BufTy).Contents (Elt Ideal)) (x8 : (⟨S64x64, .f32⟩ : BufTy).Contents (Elt Ideal)) (x9 : (⟨S64x64, .f32⟩ : BufTy).Contents (Elt Ideal)) (x10 : (⟨S64, .f32⟩ : BufTy).Contents (Elt Ideal)) (x11 : (⟨S64x64, .f32⟩ : BufTy).Contents (Elt Ideal)) (x12 : (⟨S64x64, .f32⟩ : BufTy).Contents (Elt Ideal)) (x13 : (⟨S64, .f32⟩ : BufTy).Contents (Elt Ideal)) :
    val_main_v102 (F := Ideal) x0 x1 x2 x3 x4 x5 x6 x7 x8 x9 x10 x11 x12 x13 = RefDense.refPre dot_S100000x64_S64x64_S100000x64_1_0_0_1_n_n.wf bcast_S100000x1_S100000x64_0_1 bcast_S64_S1x64_1 bcast_S1x64_S100000x64_0_1 bcast_S_S100000x1 (val_main_v88 (F := Ideal) x0 x1 x2 x3 x4 x5 x6 x7 x8 x9 x10) (val_main_v92 (F := Ideal) x1) (val_main_v78 (F := Ideal) x0 x1 x2 x3 x4 x5 x6 x7 x8 x9 x10) x11 x12 x13 := rfl

/-- At an entry it is `Spec`'s value before the activation on the neighbour sums, the factor column and the bias row. -/
theorem pre3_apply (x0 : (⟨S100000x13, .f32⟩ : BufTy).Contents (Elt Ideal)) (x1 : (⟨S2x1600000, .i32⟩ : BufTy).Contents (Elt Ideal)) (x2 : (⟨S13x64, .f32⟩ : BufTy).Contents (Elt Ideal)) (x3 : (⟨S13x64, .f32⟩ : BufTy).Contents (Elt Ideal)) (x4 : (⟨S64, .f32⟩ : BufTy).Contents (Elt Ideal)) (x5 : (⟨S64x64, .f32⟩ : BufTy).Contents (Elt Ideal)) (x6 : (⟨S64x64, .f32⟩ : BufTy).Contents (Elt Ideal)) (x7 : (⟨S64, .f32⟩ : BufTy).Contents (Elt Ideal)) (x8 : (⟨S64x64, .f32⟩ : BufTy).Contents (Elt Ideal)) (x9 : (⟨S64x64, .f32⟩ : BufTy).Contents (Elt Ideal)) (x10 : (⟨S64, .f32⟩ : BufTy).Contents (Elt Ideal)) (x11 : (⟨S64x64, .f32⟩ : BufTy).Contents (Elt Ideal)) (x12 : (⟨S64x64, .f32⟩ : BufTy).Contents (Elt Ideal)) (x13 : (⟨S64, .f32⟩ : BufTy).Contents (Elt Ideal)) (n : Fin 100000) (j : Fin 64) :
    val_main_v102 (F := Ideal) x0 x1 x2 x3 x4 x5 x6 x7 x8 x9 x10 x11 x12 x13 (ix2 n j)
      = preAt (agg64 (val_main_v78 (F := Ideal) x0 x1 x2 x3 x4 x5 x6 x7 x8 x9 x10) (srcVec x1) (dstVec x1)) (invCol (dstVec x1)) (val_main_v78 (F := Ideal) x0 x1 x2 x3 x4 x5 x6 x7 x8 x9 x10) x11 x12 (biasRow64 x13) n j := by
  rw [pre3]
  exact RefDense.refPre_eq_preAt (fun n => ends (dstVec x1) n) _ _ _ _ _ _ _ (invCol (dstVec x1)) _ _ _ _ (biasRow64 x13)
    (fun n => (congrFun (cnt3 x1) _).trans (refCount_apply x1 n)) (fun n => invCol_apply (dstVec x1) n)
    (fun j => shapeCast_a_1a_apply x13 _ 0 j) n j

/-- Layer 3 of the reference is layer 3 of the network. -/
theorem layer3_ref (x0 : (⟨S100000x13, .f32⟩ : BufTy).Contents (Elt Ideal)) (x1 : (⟨S2x1600000, .i32⟩ : BufTy).Contents (Elt Ideal)) (x2 : (⟨S13x64, .f32⟩ : BufTy).Contents (Elt Ideal)) (x3 : (⟨S13x64, .f32⟩ : BufTy).Contents (Elt Ideal)) (x4 : (⟨S64, .f32⟩ : BufTy).Contents (Elt Ideal)) (x5 : (⟨S64x64, .f32⟩ : BufTy).Contents (Elt Ideal)) (x6 : (⟨S64x64, .f32⟩ : BufTy).Contents (Elt Ideal)) (x7 : (⟨S64, .f32⟩ : BufTy).Contents (Elt Ideal)) (x8 : (⟨S64x64, .f32⟩ : BufTy).Contents (Elt Ideal)) (x9 : (⟨S64x64, .f32⟩ : BufTy).Contents (Elt Ideal)) (x10 : (⟨S64, .f32⟩ : BufTy).Contents (Elt Ideal)) (x11 : (⟨S64x64, .f32⟩ : BufTy).Contents (Elt Ideal)) (x12 : (⟨S64x64, .f32⟩ : BufTy).Contents (Elt Ideal)) (x13 : (⟨S64, .f32⟩ : BufTy).Contents (Elt Ideal)) :
    val_main_v103 (F := Ideal) x0 x1 x2 x3 x4 x5 x6 x7 x8 x9 x10 x11 x12 x13 = layerH (val_main_v78 (F := Ideal) x0 x1 x2 x3 x4 x5 x6 x7 x8 x9 x10) x1 x11 x12 x13 := by
  funext i
  obtain ⟨n, j, rfl⟩ : ∃ (n : Fin 100000) (j : Fin 64), i = ix2 n j := ⟨i 0, i 1, eq_ix2 i⟩
  have hz : val_main_call3_v0 (F := Ideal) (ix2 n j) = 0 := by
    unfold val_main_call3_v0 val_main_call3_cst
    rw [bcast_const_apply, Ideal.ofBits_zero_f32]
  rw [val_main_v103_apply, Ideal.maximumf_def, pre3_apply, hz]
  unfold layerH
  rw [layerRelu_apply]

/-! ## Layer 4 -/

/-- The count is the same array in every layer. -/
theorem cnt4 (x1 : (⟨S2x1600000, .i32⟩ : BufTy).Contents (Elt Ideal)) : val_main_v117 (F := Ideal) x1 = val_main_v17 (F := Ideal) x1 := rfl

/-- The dense step of layer 4 is the host form of `RefDense`. -/
theorem pre4 (x0 : (⟨S100000x13, .f32⟩ : BufTy).Contents (Elt Ideal)) (x1 : (⟨S2x1600000, .i32⟩ : BufTy).Contents (Elt Ideal)) (x2 : (⟨S13x64, .f32⟩ : BufTy).Contents (Elt Ideal)) (x3 : (⟨S13x64, .f32⟩ : BufTy).Contents (Elt Ideal)) (x4 : (⟨S64, .f32⟩ : BufTy).Contents (Elt Ideal)) (x5 : (⟨S64x64, .f32⟩ : BufTy).Contents (Elt Ideal)) (x6 : (⟨S64x64, .f32⟩ : BufTy).Contents (Elt Ideal)) (x7 : (⟨S64, .f32⟩ : BufTy).Contents (Elt Ideal)) (x8 : (⟨S64x64, .f32⟩ : BufTy).Contents (Elt Ideal)) (x9 : (⟨S64x64, .f32⟩ : BufTy).Contents (Elt Ideal)) (x10 : (⟨S64, .f32⟩ : BufTy).Contents (Elt Ideal)) (x11 : (⟨S64x64, .f32⟩ : BufTy).Contents (Elt Ideal)) (x12 : (⟨S64x64, .f32⟩ : BufTy).Contents (Elt Ideal)) (x13 : (⟨S64, .f32⟩ : BufTy).Contents (Elt Ideal)) (x14 : (⟨S64x1, .f32⟩ : BufTy).Contents (Elt Ideal)) (x15 : (⟨S64x1, .f32⟩ : BufTy).Contents (Elt Ideal)) (x16 : (⟨S1, .f32⟩ : BufTy).Contents (Elt Ideal)) :
    val_main_v127 (F := Ideal) x0 x1 x2 x3 x4 x5 x6 x7 x8 x9 x10 x11 x12 x13 x14 x15 x16 = RefDense.refPre dot_S100000x64_S64x1_S100000x1_1_0_0_1_n_n.wf bcast_S100000x1_S100000x64_0_1 bcast_S1_S1x1_1 bcast_S1x1_S100000x1_0_1 bcast_S_S100000x1 (val_main_v113 (F := Ideal) x0 x1 x2 x3 x4 x5 x6 x7 x8 x9 x10 x11 x12 x13) (val_main_v117 (F := Ideal) x1) (val_main_v103 (F := Ideal) x0 x1 x2 x3 x4 x5 x6 x7 x8 x9 x10 x11 x12 x13) x14 x15 x16 := rfl

/-- At an entry it is `Spec`'s value before the activation on the neighbour sums, the factor column and the bias row. -/
theorem pre4_apply (x0 : (⟨S100000x13, .f32⟩ : BufTy).Contents (Elt Ideal)) (x1 : (⟨S2x1600000, .i32⟩ : BufTy).Contents (Elt Ideal)) (x2 : (⟨S13x64, .f32⟩ : BufTy).Contents (Elt Ideal)) (x3 : (⟨S13x64, .f32⟩ : BufTy).Contents (Elt Ideal)) (x4 : (⟨S64, .f32⟩ : BufTy).Contents (Elt Ideal)) (x5 : (⟨S64x64, .f32⟩ : BufTy).Contents (Elt Ideal)) (x6 : (⟨S64x64, .f32⟩ : BufTy).Contents (Elt Ideal)) (x7 : (⟨S64, .f32⟩ : BufTy).Contents (Elt Ideal)) (x8 : (⟨S64x64, .f32⟩ : BufTy).Contents (Elt Ideal)) (x9 : (⟨S64x64, .f32⟩ : BufTy).Contents (Elt Ideal)) (x10 : (⟨S64, .f32⟩ : BufTy).Contents (Elt Ideal)) (x11 : (⟨S64x64, .f32⟩ : BufTy).Contents (Elt Ideal)) (x12 : (⟨S64x64, .f32⟩ : BufTy).Contents (Elt Ideal)) (x13 : (⟨S64, .f32⟩ : BufTy).Contents (Elt Ideal)) (x14 : (⟨S64x1, .f32⟩ : BufTy).Contents (Elt Ideal)) (x15 : (⟨S64x1, .f32⟩ : BufTy).Contents (Elt Ideal)) (x16 : (⟨S1, .f32⟩ : BufTy).Contents (Elt Ideal)) (n : Fin 100000) (j : Fin 1) :
    val_main_v127 (F := Ideal) x0 x1 x2 x3 x4 x5 x6 x7 x8 x9 x10 x11 x12 x13 x14 x15 x16 (ix2 n j)
      = preAt (agg64 (val_main_v103 (F := Ideal) x0 x1 x2 x3 x4 x5 x6 x7 x8 x9 x10 x11 x12 x13) (srcVec x1) (dstVec x1)) (invCol (dstVec x1)) (val_main_v103 (F := Ideal) x0 x1 x2 x3 x4 x5 x6 x7 x8 x9 x10 x11 x12 x13) x14 x15 (biasRow1 x16) n j := by
  rw [pre4]
  exact RefDense.refPre_eq_preAt (fun n => ends (dstVec x1) n) _ _ _ _ _ _ _ (invCol (dstVec x1)) _ _ _ _ (biasRow1 x16)
    (fun n => (congrFun (cnt4 x1) _).trans (refCount_apply x1 n)) (fun n => invCol_apply (dstVec x1) n)
    (fun j => shapeCast_a_1a_apply x16 _ 0 j) n j

/-- The last layer of the reference, the logistic function spelt as 1 / (1 + exp(−·)), is the last layer of the network. -/
theorem layer4_ref (x0 : (⟨S100000x13, .f32⟩ : BufTy).Contents (Elt Ideal)) (x1 : (⟨S2x1600000, .i32⟩ : BufTy).Contents (Elt Ideal)) (x2 : (⟨S13x64, .f32⟩ : BufTy).Contents (Elt Ideal)) (x3 : (⟨S13x64, .f32⟩ : BufTy).Contents (Elt Ideal)) (x4 : (⟨S64, .f32⟩ : BufTy).Contents (Elt Ideal)) (x5 : (⟨S64x64, .f32⟩ : BufTy).Contents (Elt Ideal)) (x6 : (⟨S64x64, .f32⟩ : BufTy).Contents (Elt Ideal)) (x7 : (⟨S64, .f32⟩ : BufTy).Contents (Elt Ideal)) (x8 : (⟨S64x64, .f32⟩ : BufTy).Contents (Elt Ideal)) (x9 : (⟨S64x64, .f32⟩ : BufTy).Contents (Elt Ideal)) (x10 : (⟨S64, .f32⟩ : BufTy).Contents (Elt Ideal)) (x11 : (⟨S64x64, .f32⟩ : BufTy).Contents (Elt Ideal)) (x12 : (⟨S64x64, .f32⟩ : BufTy).Contents (Elt Ideal)) (x13 : (⟨S64, .f32⟩ : BufTy).Contents (Elt Ideal)) (x14 : (⟨S64x1, .f32⟩ : BufTy).Contents (Elt Ideal)) (x15 : (⟨S64x1, .f32⟩ : BufTy).Contents (Elt Ideal)) (x16 : (⟨S1, .f32⟩ : BufTy).Contents (Elt Ideal)) :
    val_main_v133 (F := Ideal) x0 x1 x2 x3 x4 x5 x6 x7 x8 x9 x10 x11 x12 x13 x14 x15 x16 = layerOut (val_main_v103 (F := Ideal) x0 x1 x2 x3 x4 x5 x6 x7 x8 x9 x10 x11 x12 x13) x1 x14 x15 x16 := by
  funext i
  obtain ⟨n, j, rfl⟩ : ∃ (n : Fin 100000) (j : Fin 1), i = ix2 n j := ⟨i 0, i 1, eq_ix2 i⟩
  have h1 : val_main_v132 (F := Ideal) (ix2 n j) = 1 := by
    unfold val_main_v132 val_main_cst_29
    rw [bcast_const_apply, Count.ofBits_one]
  have h2 : val_main_v130 (F := Ideal) (ix2 n j) = 1 := by
    unfold val_main_v130 val_main_cst_28
    rw [bcast_const_apply, Count.ofBits_one]
  rw [val_main_v133_apply, val_main_v131_apply, val_main_v129_apply, val_main_v128_apply, Ideal.hostDivf_def, Ideal.addf_def,
    Ideal.hostUnary_exp_def, Ideal.hostNegf_def, Ideal.negf_def, pre4_apply, h1, h2]
  unfold layerOut
  rw [layerSig_apply]
  rfl

/-- The reference's result is the network of the arguments. -/
theorem net_ref (x0 : (⟨S100000x13, .f32⟩ : BufTy).Contents (Elt Ideal)) (x1 : (⟨S2x1600000, .i32⟩ : BufTy).Contents (Elt Ideal)) (x2 : (⟨S13x64, .f32⟩ : BufTy).Contents (Elt Ideal)) (x3 : (⟨S13x64, .f32⟩ : BufTy).Contents (Elt Ideal)) (x4 : (⟨S64, .f32⟩ : BufTy).Contents (Elt Ideal)) (x5 : (⟨S64x64, .f32⟩ : BufTy).Contents (Elt Ideal)) (x6 : (⟨S64x64, .f32⟩ : BufTy).Contents (Elt Ideal)) (x7 : (⟨S64, .f32⟩ : BufTy).Contents (Elt Ideal)) (x8 : (⟨S64x64, .f32⟩ : BufTy).Contents (Elt Ideal)) (x9 : (⟨S64x64, .f32⟩ : BufTy).Contents (Elt Ideal)) (x10 : (⟨S64, .f32⟩ : BufTy).Contents (Elt Ideal)) (x11 : (⟨S64x64, .f32⟩ : BufTy).Contents (Elt Ideal)) (x12 : (⟨S64x64, .f32⟩ : BufTy).Contents (Elt Ideal)) (x13 : (⟨S64, .f32⟩ : BufTy).Contents (Elt Ideal)) (x14 : (⟨S64x1, .f32⟩ : BufTy).Contents (Elt Ideal)) (x15 : (⟨S64x1, .f32⟩ : BufTy).Contents (Elt Ideal)) (x16 : (⟨S1, .f32⟩ : BufTy).Contents (Elt Ideal)) :
    val_main_v133 (F := Ideal) x0 x1 x2 x3 x4 x5 x6 x7 x8 x9 x10 x11 x12 x13 x14 x15 x16 = net x0 x1 x2 x3 x4 x5 x6 x7 x8 x9 x10 x11 x12 x13 x14 x15 x16 := by
  rw [layer4_ref, layer3_ref, layer2_ref, layer1_ref, layer0_ref]
  unfold net
  rfl

end Cert.Sage.RefNet

end
-- ==== Proof.lean ====
/-
  A five-layer neighbourhood-averaging network on a graph with 100000 nodes and 1600000 edges: the kernel against
  its reference, equal as extended reals.

  Every layer computes, for each node n and output feature j,

      act( ∑ c, mean[n,c] · Wl[c,j]  +  ∑ c, h[n,c] · Wr[c,j]  +  b[j] ),

  `mean[n,·]` being the sum of the feature rows of the start nodes of the edges ending at n, divided by
  max(number of such edges, 1), `act` the maximum with zero in the first four layers and the logistic function in the
  last. The two programs differ in three places, none of which changes an extended real:
  * the reference divides the neighbour sums by max(count, 1), the kernel multiplies them by 1 / max(count, 1) computed
    once: max(count, 1) is a nonzero real, and division by a nonzero real is multiplication by its reciprocal for every
    extended real (`Count`);
  * the reference adds the bias before the second product, the kernel after: addition of extended reals is commutative
    and associative (`Spec.preAtRef_eq`);
  * the kernel computes each layer's dense part in row blocks of 5000 nodes on the vector and matrix units, the two
    products after a change of float format that is the identity here; an entry of a layer depends on its own row only,
    so the blocks are the rows of the whole layer (`Region0` … `Region4`).
  The gather of feature rows along the edges and the accumulating scatter into the end nodes are the same host
  operations in both programs and are never opened; the logistic function is, by definition, 1 / (1 + exp(−x)), the
  reference's spelling. No step uses that the inputs are finite.

  Both results are the one function `Stages.net` of the arguments: the kernel's by following its result array through
  the five regions and the host operations between them (`KRun`, `KNet`), the reference's by reading its run one
  operation at a time (`RefNet`).
-/
import proofs.«168755_j21887153341148_1_alg».proof.Defs
import proofs.«168755_j21887153341148_1_alg».proof.Proof.Gen.Kernel
import proofs.«168755_j21887153341148_1_alg».proof.Proof.Gen.Kernel.Skeleton
import proofs.«168755_j21887153341148_1_alg».proof.Proof.Gen.Kernel.Launch
import proofs.«168755_j21887153341148_1_alg».proof.Proof.Gen.Kernel.Points
import proofs.«168755_j21887153341148_1_alg».proof.Proof.Gen.Kernel.Frame
import proofs.«168755_j21887153341148_1_alg».proof.Proof.Gen.KernelIdeal
import proofs.«168755_j21887153341148_1_alg».proof.Proof.Gen.KernelIdeal.Skeleton
import proofs.«168755_j21887153341148_1_alg».proof.Proof.Gen.KernelIdeal.Launch
import proofs.«168755_j21887153341148_1_alg».proof.Proof.Gen.KernelIdeal.Points
import proofs.«168755_j21887153341148_1_alg».proof.Proof.Gen.KernelIdeal.Frame
import proofs.«168755_j21887153341148_1_alg».proof.Proof.Gen.ReferenceIdeal
import proofs.«168755_j21887153341148_1_alg».proof.Proof.Gen.ReferenceIdeal.Run
import proofs.«168755_j21887153341148_1_alg».proof.Proof.Gen.ReferenceIdeal.Read
import proofs.«168755_j21887153341148_1_alg».proof.Proof.Gen.Pre_finite_inputs
import proofs.«168755_j21887153341148_1_alg».proof.Proof.KRun
import proofs.«168755_j21887153341148_1_alg».proof.Proof.KNet
import proofs.«168755_j21887153341148_1_alg».proof.Proof.RefNet
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference runs and leaves its arguments as they were: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the network of the arguments in their result arrays. -/
theorem algebraic : Cert.algebraic_KernelIdeal_ReferenceIdeal := by
  intro m ρ m' ρ' _ hagree
  refine ⟨fun c => Cert.Sage.Stages.net (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15))
      (m ((c.tc : Thread Cert.KernelIdeal.nD Cert.KernelIdeal.τ).loc Cert.KernelIdeal.main_arg16)), ?_, ?_⟩
  · exact (θ_run Cert.KernelIdeal.defs _ _).mono
      (fun r h c => ⟨(h c).1.trans (Cert.Sage.KNet.result m ρ c), (h c).2⟩) (Cert.Sage.KRun.run_named (F := Ideal) m ρ)
  · refine (θ_run Cert.ReferenceIdeal.defs _ _).mono (fun r h c => ⟨?_, (h c).2⟩)
      (Cert.ReferenceIdeal.Value.run (F := Ideal) m' ρ')
    rw [(h c).1, Cert.ReferenceIdeal.Read.val_main_v133_eq, Cert.Sage.RefNet.net_ref,
      (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
